-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64 .f32) (main_arg6 : FVec F S64x32 .f32) (main_arg7 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x32 .f32) (main_arg7 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x64 : Shape := ⟨2, ![5000, 64]⟩
abbrev S5000x1 : Shape := ⟨2, ![5000, 1]⟩
abbrev S1600000x64 : Shape := ⟨2, ![1600000, 64]⟩
abbrev S1x64 : Shape := ⟨2, ![1, 64]⟩
abbrev S100000x32 : Shape := ⟨2, ![100000, 32]⟩
abbrev S5000x32 : Shape := ⟨2, ![5000, 32]⟩
abbrev S1600000x32 : Shape := ⟨2, ![1600000, 32]⟩
abbrev S1x32 : Shape := ⟨2, ![1, 32]⟩
abbrev S100000x160 : Shape := ⟨2, ![100000, 160]⟩

abbrev nBuf : Space → Nat
  | .hbm => 100
  | .vmem => 48
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S100000, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S_, .f32⟩
  | .hbm, ⟨23, _⟩ => ⟨S1600000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S100000x64, .f32⟩
  | .hbm, ⟨51, _⟩ => ⟨S1x64, .f32⟩
  | .hbm, ⟨52, _⟩ => ⟨S100000x64, .f32⟩
  | .hbm, ⟨53, _⟩ => ⟨S100000x64, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .f32⟩
  | .hbm, ⟨63, _⟩ => ⟨S_, .f32⟩
  | .hbm, ⟨64, _⟩ => ⟨S100000x64, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x32, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x32, .f32⟩
  | .hbm, ⟨86, _⟩ => ⟨S_, .f32⟩
  | .hbm, ⟨87, _⟩ => ⟨S100000x32, .f32⟩
  | .hbm, ⟨88, _⟩ => ⟨S_, .i32⟩
  | .hbm, ⟨89, _⟩ => ⟨S1600000, .i32⟩
  | .hbm, ⟨90, _⟩ => ⟨S1600000, .i1⟩
  | .hbm, ⟨91, _⟩ => ⟨S_, .i32⟩
  | .hbm, ⟨92, _⟩ => ⟨S1600000, .i32⟩
  | .hbm, ⟨93, _⟩ => ⟨S1600000, .i32⟩
  | .hbm, ⟨94, _⟩ => ⟨S1600000, .i32⟩
  | .hbm, ⟨95, _⟩ => ⟨S1600000x1, .i32⟩
  | .hbm, ⟨96, _⟩ => ⟨S100000x32, .f32⟩
  | .hbm, ⟨97, _⟩ => ⟨S1x32, .f32⟩
  | .hbm, ⟨98, _⟩ => ⟨S100000x32, .f32⟩
  | .hbm, ⟨99, _⟩ => ⟨S100000x160, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x1, .f32⟩
  | .local _ .vmem, ⟨12, _⟩ => ⟨S5000x1, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x64, .f32⟩
  | .local _ .vmem, ⟨19, _⟩ => ⟨S5000x1, .f32⟩
  | .local _ .vmem, ⟨20, _⟩ => ⟨S5000x1, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x1, .f32⟩
  | .local _ .vmem, ⟨28, _⟩ => ⟨S5000x1, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S64x32, .f32⟩
  | .local _ .vmem, ⟨35, _⟩ => ⟨S5000x1, .f32⟩
  | .local _ .vmem, ⟨36, _⟩ => ⟨S5000x1, .f32⟩
  | .local _ .vmem, ⟨37, _⟩ => ⟨S5000x32, .f32⟩
  | .local _ .vmem, ⟨38, _⟩ => ⟨S5000x32, .f32⟩
  | .local _ .vmem, ⟨39, _⟩ => ⟨S5000x32, .f32⟩
  | .local _ .vmem, ⟨40, _⟩ => ⟨S5000x32, .f32⟩
  | .local _ .vmem, ⟨41, _⟩ => ⟨S5000x32, .f32⟩
  | .local _ .vmem, ⟨42, _⟩ => ⟨S5000x32, .f32⟩
  | .local _ .vmem, ⟨43, _⟩ => ⟨S5000x1, .f32⟩
  | .local _ .vmem, ⟨44, _⟩ => ⟨S5000x1, .f32⟩
  | .local _ .vmem, ⟨45, _⟩ => ⟨S1x32, .f32⟩
  | .local _ .vmem, ⟨46, _⟩ => ⟨S5000x32, .f32⟩
  | .local _ .vmem, ⟨47, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_c_11 : Ref sig .tc := ⟨.hbm, 65, rfl⟩
abbrev main_v44 : Ref sig .tc := ⟨.hbm, 66, rfl⟩
abbrev main_v45 : Ref sig .tc := ⟨.hbm, 67, rfl⟩
abbrev main_c_12 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_13 : Ref sig .tc := ⟨.hbm, 77, rfl⟩
abbrev main_v54 : Ref sig .tc := ⟨.hbm, 78, rfl⟩
abbrev main_v55 : Ref sig .tc := ⟨.hbm, 79, rfl⟩
abbrev main_c_14 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_15 : Ref sig .tc := ⟨.hbm, 86, rfl⟩
abbrev main_v61 : Ref sig .tc := ⟨.hbm, 87, rfl⟩
abbrev main_c_16 : Ref sig .tc := ⟨.hbm, 88, rfl⟩
abbrev main_v62 : Ref sig .tc := ⟨.hbm, 89, rfl⟩
abbrev main_v63 : Ref sig .tc := ⟨.hbm, 90, rfl⟩
abbrev main_c_17 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc4_sem3_0 : DmaSem sig := 37
abbrev cc4_sem3_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44
abbrev cc5_sem3_0 : DmaSem sig := 45
abbrev cc5_sem4_0 : DmaSem sig := 46
abbrev cc5_sem4_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x32 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  shapeCasts_S5000x32_S5000x32 : S5000x32.ShapeCasts S5000x32
  concatenates_S100000x32_S100000x64_S100000x64_S100000x160_d1 : Shape.Concatenates [S100000x32, S100000x64, S100000x64] S100000x160 1
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x32_S5000x32_1_0_0_1_n_n_wf : DotDims.WF S5000x64 S64x32 S5000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x32.size a ≤ S64x32.size a
  hwx4_1 : ∀ i : grid4.Coords, EltTy.bits .f32 = 32 ∨ (Rect.block (s := S64x32) S64x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x32.size a ≤ S100000x32.size a
  hwx4_3 : ∀ i : grid4.Coords, EltTy.bits .f32 = 32 ∨ (Rect.block (s := S100000x32) S5000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S100000x32.size a
  hwx5_0 : ∀ i : grid5.Coords, EltTy.bits .f32 = 32 ∨ (Rect.block (s := S100000x32) S5000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x32.size a ≤ S100000x32.size a
  hwx5_1 : ∀ i : grid5.Coords, EltTy.bits .f32 = 32 ∨ (Rect.block (s := S100000x32) S5000x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x32.size a ≤ S100000x32.size a
  hwx5_4 : ∀ i : grid5.Coords, EltTy.bits .f32 = 32 ∨ (Rect.block (s := S100000x32) S5000x32.size (cc5_transform_4 i) (hinb5_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v34) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v50) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v51) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v52) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v16) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v53) S5000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v68) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v53) S5000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v16) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v69) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v70) S5000x32.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S1600000x32 : Shape := ⟨2, ![1600000, 32]⟩
abbrev S1x32 : Shape := ⟨2, ![1, 32]⟩
abbrev S100000x160 : Shape := ⟨2, ![100000, 160]⟩

abbrev nBuf : Space → Nat
  | .hbm => 189
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S64x32, .f32⟩
  | 7 => ⟨S32, .f32⟩
  | 8 => ⟨S1x1600000, .i32⟩
  | 9 => ⟨S1600000, .i32⟩
  | 10 => ⟨S1x1600000, .i32⟩
  | 11 => ⟨S1600000, .i32⟩
  | 12 => ⟨S_, .f32⟩
  | 13 => ⟨S100000, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S_, .f32⟩
  | 23 => ⟨S1600000, .f32⟩
  | 24 => ⟨S100000, .f32⟩
  | 25 => ⟨S_, .f32⟩
  | 26 => ⟨S100000, .f32⟩
  | 27 => ⟨S100000, .f32⟩
  | 28 => ⟨S100000, .f32⟩
  | 29 => ⟨S100000x64, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S_, .f32⟩
  | 50 => ⟨S100000x64, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x64, .f32⟩
  | 60 => ⟨S1600000x1, .f32⟩
  | 61 => ⟨S1600000x64, .f32⟩
  | 62 => ⟨S1600000x64, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S100000x64, .f32⟩
  | 72 => ⟨S100000, .f32⟩
  | 73 => ⟨S100000x1, .f32⟩
  | 74 => ⟨S100000x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S100000x64, .f32⟩
  | 82 => ⟨S100000x64, .f32⟩
  | 83 => ⟨S100000x64, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000, .f32⟩
  | 102 => ⟨S1600000, .f32⟩
  | 103 => ⟨S_, .f32⟩
  | 104 => ⟨S100000x64, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x64, .f32⟩
  | 114 => ⟨S1600000x1, .f32⟩
  | 115 => ⟨S1600000x64, .f32⟩
  | 116 => ⟨S1600000x64, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S100000x64, .f32⟩
  | 126 => ⟨S100000, .f32⟩
  | 127 => ⟨S100000x1, .f32⟩
  | _ => ⟨S100000x64, .f32⟩

abbrev hbmTy0_1 (i : Nat) : BufTy := match i % 128 with
  | 0 => ⟨S100000x64, .f32⟩
  | 1 => ⟨S100000x64, .f32⟩
  | 2 => ⟨S100000x64, .f32⟩
  | 3 => ⟨S1x64, .f32⟩
  | 4 => ⟨S100000x64, .f32⟩
  | 5 => ⟨S100000x64, .f32⟩
  | 6 => ⟨S_, .f32⟩
  | 7 => ⟨S100000x64, .f32⟩
  | 8 => ⟨S100000x64, .f32⟩
  | 9 => ⟨S100000x32, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000, .f32⟩
  | 28 => ⟨S1600000, .f32⟩
  | 29 => ⟨S_, .f32⟩
  | 30 => ⟨S100000x32, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x32, .f32⟩
  | 40 => ⟨S1600000x1, .f32⟩
  | 41 => ⟨S1600000x32, .f32⟩
  | 42 => ⟨S1600000x32, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S100000x32, .f32⟩
  | 52 => ⟨S100000, .f32⟩
  | 53 => ⟨S100000x1, .f32⟩
  | 54 => ⟨S100000x32, .f32⟩
  | 55 => ⟨S100000x32, .f32⟩
  | 56 => ⟨S100000x32, .f32⟩
  | 57 => ⟨S1x32, .f32⟩
  | 58 => ⟨S100000x32, .f32⟩
  | 59 => ⟨S100000x32, .f32⟩
  | 60 => ⟨S100000x160, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_10 : Ref sig .tc := ⟨.hbm, 63, rfl⟩
abbrev main_v43 : Ref sig .tc := ⟨.hbm, 64, rfl⟩
abbrev main_v44 : Ref sig .tc := ⟨.hbm, 65, rfl⟩
abbrev main_c_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_call0_cst : Ref sig .tc := ⟨.hbm, 80, rfl⟩
abbrev main_call0_v0 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_c_15 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_16 : Ref sig .tc := ⟨.hbm, 103, rfl⟩
abbrev main_v75 : Ref sig .tc := ⟨.hbm, 104, rfl⟩
abbrev main_c_17 : Ref sig .tc := ⟨.hbm, 105, rfl⟩
abbrev main_v76 : Ref sig .tc := ⟨.hbm, 106, rfl⟩
abbrev main_v77 : Ref sig .tc := ⟨.hbm, 107, rfl⟩
abbrev main_c_18 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_c_19 : Ref sig .tc := ⟨.hbm, 117, rfl⟩
abbrev main_v86 : Ref sig .tc := ⟨.hbm, 118, rfl⟩
abbrev main_v87 : Ref sig .tc := ⟨.hbm, 119, rfl⟩
abbrev main_c_20 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_call1_cst : Ref sig .tc := ⟨.hbm, 134, rfl⟩
abbrev main_call1_v0 : Ref sig .tc := ⟨.hbm, 135, rfl⟩
abbrev main_v101 : Ref sig .tc := ⟨.hbm, 136, rfl⟩
abbrev main_v102 : Ref sig .tc := ⟨.hbm, 137, rfl⟩
abbrev main_c_21 : Ref sig .tc := ⟨.hbm, 138, rfl⟩
abbrev main_v103 : Ref sig .tc := ⟨.hbm, 139, rfl⟩
abbrev main_v104 : Ref sig .tc := ⟨.hbm, 140, rfl⟩
abbrev main_c_22 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_c_23 : Ref sig .tc := ⟨.hbm, 147, rfl⟩
abbrev main_v110 : Ref sig .tc := ⟨.hbm, 148, rfl⟩
abbrev main_v111 : Ref sig .tc := ⟨.hbm, 149, rfl⟩
abbrev main_c_24 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_25 : Ref sig .tc := ⟨.hbm, 157, rfl⟩
abbrev main_v118 : Ref sig .tc := ⟨.hbm, 158, rfl⟩
abbrev main_c_26 : Ref sig .tc := ⟨.hbm, 159, rfl⟩
abbrev main_v119 : Ref sig .tc := ⟨.hbm, 160, rfl⟩
abbrev main_v120 : Ref sig .tc := ⟨.hbm, 161, rfl⟩
abbrev main_c_27 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_c_28 : Ref sig .tc := ⟨.hbm, 171, rfl⟩
abbrev main_v129 : Ref sig .tc := ⟨.hbm, 172, rfl⟩
abbrev main_v130 : Ref sig .tc := ⟨.hbm, 173, rfl⟩
abbrev main_c_29 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S1600000x1_S1600000x64_0_1 : S1600000x1.BroadcastsInDim S1600000x64 (![0, 1] : Fin 2 → Fin S1600000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x32 : S_.BroadcastsInDim S100000x32 (![] : Fin 0 → Fin S100000x32.rank)
  bcast_S1600000x1_S1600000x32_0_1 : S1600000x1.BroadcastsInDim S1600000x32 (![0, 1] : Fin 2 → Fin S1600000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  concatenates_S100000x32_S100000x64_S100000x64_S100000x160_d1 : Shape.Concatenates [S100000x32, S100000x64, S100000x64] S100000x160 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.K.Reg0.lean ====
/-
  Region 0 of the program: the row-scaled linear projection, each block of 5000 rows times the weight matrix, every row then scaled by its node's normaliser.
  The kernel body reads each input block whole and stores the output block whole, so what the output buffer holds after the
  body is one function of the input blocks; the pipeline's proof data record it, and the body obligation follows from the
  body's run on whole buffers.
-/
import proofs.«122759_j29180007809406_2_alg».proof.Proof.Gen.Kernel.Launch
import proofs.«122759_j29180007809406_2_alg».proof.Proof.Gen.Kernel.Skeleton
import proofs.«122759_j29180007809406_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: pipeline 0 runs `cc0__linear_scaled_kernel` over 20 row blocks, at the entry contents `V` -/

section Region0
variable (V : (c : Dev nD) → (b : Ref sig .tc) → Buf (Elt F) ((c : Thread nD τ).loc b))

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of region 0: its current staging buffer holds its block of the entry contents at every point,
    whether the pipeline fetched it there or kept it from an earlier point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 of region 0: its current staging buffer holds its block of the entry contents at every point,
    whether the pipeline fetched it there or kept it from an earlier point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 of region 0: its current staging buffer holds its block of the entry contents at every point,
    whether the pipeline fetched it there or kept it from an earlier point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The output block after the body: its one whole-block store, as a function of the input blocks. -/
def out0_3 (x0 : Vec F S5000x64 .f32) (x1 : Vec F S64x64 .f32) (x2 : Vec F S5000x1 .f32) : Vec F S5000x64 .f32 :=
  View.canon [⟨(Rect.unit (s := S5000x64) ![0, 0] S5000x64.size inb_S5000x64_S5000x64_0_0), k0_pay1 (View.ld x0 (Rect.unit (s := S5000x64) ![0, 0] S5000x64.size inb_S5000x64_S5000x64_0_0)) (View.ld x1 (Rect.unit (s := S64x64) ![0, 0] S64x64.size inb_S64x64_S64x64_0_0)) (View.ld x2 (Rect.unit (s := S5000x1) ![0, 0] S5000x1.size inb_S5000x1_S5000x1_0_0))⟩]

/-- That one store covers the whole block. -/
theorem cover0_3 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 4000000 in
/-- The body on whole staging buffers: the inputs are read and left as they were, the output buffer ends at `out0_3`
    of the inputs, whatever it held before. -/
theorem sound_kernel0 (c : Dev nD) (E : Set ℕ) (i : grid0.Coords) (arg1 : Memref sig .tc .vmem S5000x64 .f32) (harg1 : arg1.IsWhole) (arg2 : Memref sig .tc .vmem S64x64 .f32) (harg2 : arg2.IsWhole) (arg3 : Memref sig .tc .vmem S5000x1 .f32) (harg3 : arg3.IsWhole) (arg4 : Memref sig .tc .vmem S5000x64 .f32) (harg4 : arg4.IsWhole)
    (x0 : Vec F S5000x64 .f32) (x1 : Vec F S64x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_scaled_kernel i arg1 harg1 arg2 harg2 arg3 harg3 arg4 harg4) K := by
  simp only [cc0__linear_scaled_kernel_eq_skeleton]; unfold cc0__linear_scaled_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input buffer still holds its block and the output buffer holds `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.K.Reg1.lean ====
/-
  Region 1 of the program: the layer's epilogue, normaliser · (aggregate + own row) + bias, clipped below at zero.
  The kernel body reads each input block whole and stores the output block whole, so what the output buffer holds after the
  body is one function of the input blocks; the pipeline's proof data record it, and the body obligation follows from the
  body's run on whole buffers.
-/
import proofs.«122759_j29180007809406_2_alg».proof.Proof.Gen.Kernel.Launch
import proofs.«122759_j29180007809406_2_alg».proof.Proof.Gen.Kernel.Skeleton
import proofs.«122759_j29180007809406_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: pipeline 1 runs `cc1__kernel` over 20 row blocks, at the entry contents `V` -/

section Region1
variable (V : (c : Dev nD) → (b : Ref sig .tc) → Buf (Elt F) ((c : Thread nD τ).loc b))

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of region 1: its current staging buffer holds its block of the entry contents at every point,
    whether the pipeline fetched it there or kept it from an earlier point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 of region 1: its current staging buffer holds its block of the entry contents at every point,
    whether the pipeline fetched it there or kept it from an earlier point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 of region 1: its current staging buffer holds its block of the entry contents at every point,
    whether the pipeline fetched it there or kept it from an earlier point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 of region 1: its current staging buffer holds its block of the entry contents at every point,
    whether the pipeline fetched it there or kept it from an earlier point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The output block after the body: its one whole-block store, as a function of the input blocks. -/
def out1_4 (x0 : Vec F S5000x64 .f32) (x1 : Vec F S5000x64 .f32) (x2 : Vec F S5000x1 .f32) (x3 : Vec F S1x64 .f32) : Vec F S5000x64 .f32 :=
  View.canon [⟨(Rect.unit (s := S5000x64) ![0, 0] S5000x64.size inb_S5000x64_S5000x64_0_0), k1_pay1 (View.ld x2 (Rect.unit (s := S5000x1) ![0, 0] S5000x1.size inb_S5000x1_S5000x1_0_0)) (View.ld x3 (Rect.unit (s := S1x64) ![0, 0] S1x64.size inb_S1x64_S1x64_0_0)) (View.ld x0 (Rect.unit (s := S5000x64) ![0, 0] S5000x64.size inb_S5000x64_S5000x64_0_0)) (View.ld x1 (Rect.unit (s := S5000x64) ![0, 0] S5000x64.size inb_S5000x64_S5000x64_0_0))⟩]

/-- That one store covers the whole block. -/
theorem cover1_4 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 4000000 in
/-- The body on whole staging buffers: the inputs are read and left as they were, the output buffer ends at `out1_4`
    of the inputs, whatever it held before. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S5000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__kernel i arg1 harg1 arg2 harg2 arg3 harg3 arg4 harg4 arg5 harg5) K := by
  simp only [cc1__kernel_eq_skeleton]; unfold cc1__kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of pipeline 1 on core `c`: the arrays as the region finds them; after the body at point `t` each
    input buffer still holds its block and the output buffer holds `out1_4` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Fr

end
-- ==== Proof.K.Reg2.lean ====
/-
  Region 2 of the program: the row-scaled linear projection, each block of 5000 rows times the weight matrix, every row then scaled by its node's normaliser.
  The kernel body reads each input block whole and stores the output block whole, so what the output buffer holds after the
  body is one function of the input blocks; the pipeline's proof data record it, and the body obligation follows from the
  body's run on whole buffers.
-/
import proofs.«122759_j29180007809406_2_alg».proof.Proof.Gen.Kernel.Launch
import proofs.«122759_j29180007809406_2_alg».proof.Proof.Gen.Kernel.Skeleton
import proofs.«122759_j29180007809406_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: pipeline 2 runs `cc2__linear_scaled_kernel` over 20 row blocks, at the entry contents `V` -/

section Region2
variable (V : (c : Dev nD) → (b : Ref sig .tc) → Buf (Elt F) ((c : Thread nD τ).loc b))

/-- Window `w`'s block at point `t` of region 2, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 of region 2: its current staging buffer holds its block of the entry contents at every point,
    whether the pipeline fetched it there or kept it from an earlier point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1 of region 2: its current staging buffer holds its block of the entry contents at every point,
    whether the pipeline fetched it there or kept it from an earlier point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2 of region 2: its current staging buffer holds its block of the entry contents at every point,
    whether the pipeline fetched it there or kept it from an earlier point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The output block after the body: its one whole-block store, as a function of the input blocks. -/
def out2_3 (x0 : Vec F S5000x64 .f32) (x1 : Vec F S64x64 .f32) (x2 : Vec F S5000x1 .f32) : Vec F S5000x64 .f32 :=
  View.canon [⟨(Rect.unit (s := S5000x64) ![0, 0] S5000x64.size inb_S5000x64_S5000x64_0_0), k2_pay1 (View.ld x0 (Rect.unit (s := S5000x64) ![0, 0] S5000x64.size inb_S5000x64_S5000x64_0_0)) (View.ld x1 (Rect.unit (s := S64x64) ![0, 0] S64x64.size inb_S64x64_S64x64_0_0)) (View.ld x2 (Rect.unit (s := S5000x1) ![0, 0] S5000x1.size inb_S5000x1_S5000x1_0_0))⟩]

/-- That one store covers the whole block. -/
theorem cover2_3 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 4000000 in
/-- The body on whole staging buffers: the inputs are read and left as they were, the output buffer ends at `out2_3`
    of the inputs, whatever it held before. -/
theorem sound_kernel2 (c : Dev nD) (E : Set ℕ) (i : grid2.Coords) (arg1 : Memref sig .tc .vmem S5000x64 .f32) (harg1 : arg1.IsWhole) (arg2 : Memref sig .tc .vmem S64x64 .f32) (harg2 : arg2.IsWhole) (arg3 : Memref sig .tc .vmem S5000x1 .f32) (harg3 : arg3.IsWhole) (arg4 : Memref sig .tc .vmem S5000x64 .f32) (harg4 : arg4.IsWhole)
    (x0 : Vec F S5000x64 .f32) (x1 : Vec F S64x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_scaled_kernel i arg1 harg1 arg2 harg2 arg3 harg3 arg4 harg4) K := by
  simp only [cc2__linear_scaled_kernel_eq_skeleton]; unfold cc2__linear_scaled_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t` each
    input buffer still holds its block and the output buffer holds `out2_3` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Fr

end
-- ==== Proof.K.Reg3.lean ====
/-
  Region 3 of the program: the layer's epilogue, normaliser · (aggregate + own row) + bias, clipped below at zero.
  The kernel body reads each input block whole and stores the output block whole, so what the output buffer holds after the
  body is one function of the input blocks; the pipeline's proof data record it, and the body obligation follows from the
  body's run on whole buffers.
-/
import proofs.«122759_j29180007809406_2_alg».proof.Proof.Gen.Kernel.Launch
import proofs.«122759_j29180007809406_2_alg».proof.Proof.Gen.Kernel.Skeleton
import proofs.«122759_j29180007809406_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: pipeline 3 runs `cc3__kernel` over 20 row blocks, at the entry contents `V` -/

section Region3
variable (V : (c : Dev nD) → (b : Ref sig .tc) → Buf (Elt F) ((c : Thread nD τ).loc b))

/-- Window `w`'s block at point `t` of region 3, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 of region 3: its current staging buffer holds its block of the entry contents at every point,
    whether the pipeline fetched it there or kept it from an earlier point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 of region 3: its current staging buffer holds its block of the entry contents at every point,
    whether the pipeline fetched it there or kept it from an earlier point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2 of region 3: its current staging buffer holds its block of the entry contents at every point,
    whether the pipeline fetched it there or kept it from an earlier point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3 of region 3: its current staging buffer holds its block of the entry contents at every point,
    whether the pipeline fetched it there or kept it from an earlier point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The output block after the body: its one whole-block store, as a function of the input blocks. -/
def out3_4 (x0 : Vec F S5000x64 .f32) (x1 : Vec F S5000x64 .f32) (x2 : Vec F S5000x1 .f32) (x3 : Vec F S1x64 .f32) : Vec F S5000x64 .f32 :=
  View.canon [⟨(Rect.unit (s := S5000x64) ![0, 0] S5000x64.size inb_S5000x64_S5000x64_0_0), k3_pay1 (View.ld x2 (Rect.unit (s := S5000x1) ![0, 0] S5000x1.size inb_S5000x1_S5000x1_0_0)) (View.ld x3 (Rect.unit (s := S1x64) ![0, 0] S1x64.size inb_S1x64_S1x64_0_0)) (View.ld x0 (Rect.unit (s := S5000x64) ![0, 0] S5000x64.size inb_S5000x64_S5000x64_0_0)) (View.ld x1 (Rect.unit (s := S5000x64) ![0, 0] S5000x64.size inb_S5000x64_S5000x64_0_0))⟩]

/-- That one store covers the whole block. -/
theorem cover3_4 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 4000000 in
/-- The body on whole staging buffers: the inputs are read and left as they were, the output buffer ends at `out3_4`
    of the inputs, whatever it held before. -/
theorem sound_kernel3 (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S5000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__kernel i arg1 harg1 arg2 harg2 arg3 harg3 arg4 harg4 arg5 harg5) K := by
  simp only [cc3__kernel_eq_skeleton]; unfold cc3__kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The proof data of pipeline 3 on core `c`: the arrays as the region finds them; after the body at point `t` each
    input buffer still holds its block and the output buffer holds `out3_4` of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the input buffers hold their blocks, so `sound_kernel3` applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Fr

end
-- ==== Proof.K.Reg4.lean ====
/-
  Region 4 of the program: the row-scaled linear projection, each block of 5000 rows times the weight matrix, every row then scaled by its node's normaliser.
  The kernel body reads each input block whole and stores the output block whole, so what the output buffer holds after the
  body is one function of the input blocks; the pipeline's proof data record it, and the body obligation follows from the
  body's run on whole buffers.
-/
import proofs.«122759_j29180007809406_2_alg».proof.Proof.Gen.Kernel.Launch
import proofs.«122759_j29180007809406_2_alg».proof.Proof.Gen.Kernel.Skeleton
import proofs.«122759_j29180007809406_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: pipeline 4 runs `cc4__linear_scaled_kernel` over 20 row blocks, at the entry contents `V` -/

section Region4
variable (V : (c : Dev nD) → (b : Ref sig .tc) → Buf (Elt F) ((c : Thread nD τ).loc b))

/-- Window `w`'s block at point `t` of region 4, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 of region 4: its current staging buffer holds its block of the entry contents at every point,
    whether the pipeline fetched it there or kept it from an earlier point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1 of region 4: its current staging buffer holds its block of the entry contents at every point,
    whether the pipeline fetched it there or kept it from an earlier point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2 of region 4: its current staging buffer holds its block of the entry contents at every point,
    whether the pipeline fetched it there or kept it from an earlier point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The output block after the body: its one whole-block store, as a function of the input blocks. -/
def out4_3 (x0 : Vec F S5000x64 .f32) (x1 : Vec F S64x32 .f32) (x2 : Vec F S5000x1 .f32) : Vec F S5000x32 .f32 :=
  View.canon [⟨(Rect.unit (s := S5000x32) ![0, 0] S5000x32.size inb_S5000x32_S5000x32_0_0), k4_pay1 (View.ld x0 (Rect.unit (s := S5000x64) ![0, 0] S5000x64.size inb_S5000x64_S5000x64_0_0)) (View.ld x1 (Rect.unit (s := S64x32) ![0, 0] S64x32.size inb_S64x32_S64x32_0_0)) (View.ld x2 (Rect.unit (s := S5000x1) ![0, 0] S5000x1.size inb_S5000x1_S5000x1_0_0))⟩]

/-- That one store covers the whole block. -/
theorem cover4_3 (p0 : Vec F S5000x32 .f32) (y : S5000x32.Idx) :
    ∃ pc ∈ ([⟨(Rect.unit (s := S5000x32) ![0, 0] S5000x32.size inb_S5000x32_S5000x32_0_0), p0⟩] : List (View.Piece (Elt F) S5000x32 .f32)), y ∈ pc.1.set :=
  View.cover_of_tiled [⟨(Rect.unit (s := S5000x32) ![0, 0] S5000x32.size inb_S5000x32_S5000x32_0_0), p0⟩] S5000x32.size (by rfl) y

set_option maxHeartbeats 4000000 in
/-- The body on whole staging buffers: the inputs are read and left as they were, the output buffer ends at `out4_3`
    of the inputs, whatever it held before. -/
theorem sound_kernel4 (c : Dev nD) (E : Set ℕ) (i : grid4.Coords) (arg1 : Memref sig .tc .vmem S5000x64 .f32) (harg1 : arg1.IsWhole) (arg2 : Memref sig .tc .vmem S64x32 .f32) (harg2 : arg2.IsWhole) (arg3 : Memref sig .tc .vmem S5000x1 .f32) (harg3 : arg3.IsWhole) (arg4 : Memref sig .tc .vmem S5000x32 .f32) (harg4 : arg4.IsWhole)
    (x0 : Vec F S5000x64 .f32) (x1 : Vec F S64x32 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__linear_scaled_kernel i arg1 harg1 arg2 harg2 arg3 harg3 arg4 harg4) K := by
  simp only [cc4__linear_scaled_kernel_eq_skeleton]; unfold cc4__linear_scaled_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of pipeline 4 on core `c`: the arrays as the region finds them; after the body at point `t` each
    input buffer still holds its block and the output buffer holds `out4_3` of the input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the input buffers hold their blocks, so `sound_kernel4` applies. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.Kernel.Fr

end
-- ==== Proof.K.Reg5.lean ====
/-
  Region 5 of the program: the layer's epilogue, normaliser · (aggregate + own row) + bias.
  The kernel body reads each input block whole and stores the output block whole, so what the output buffer holds after the
  body is one function of the input blocks; the pipeline's proof data record it, and the body obligation follows from the
  body's run on whole buffers.
-/
import proofs.«122759_j29180007809406_2_alg».proof.Proof.Gen.Kernel.Launch
import proofs.«122759_j29180007809406_2_alg».proof.Proof.Gen.Kernel.Skeleton
import proofs.«122759_j29180007809406_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5: pipeline 5 runs `cc5__kernel` over 20 row blocks, at the entry contents `V` -/

section Region5
variable (V : (c : Dev nD) → (b : Ref sig .tc) → Buf (Elt F) ((c : Thread nD τ).loc b))

/-- Window `w`'s block at point `t` of region 5, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 of region 5: its current staging buffer holds its block of the entry contents at every point,
    whether the pipeline fetched it there or kept it from an earlier point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1 of region 5: its current staging buffer holds its block of the entry contents at every point,
    whether the pipeline fetched it there or kept it from an earlier point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2 of region 5: its current staging buffer holds its block of the entry contents at every point,
    whether the pipeline fetched it there or kept it from an earlier point. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3 of region 5: its current staging buffer holds its block of the entry contents at every point,
    whether the pipeline fetched it there or kept it from an earlier point. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The output block after the body: its one whole-block store, as a function of the input blocks. -/
def out5_4 (x0 : Vec F S5000x32 .f32) (x1 : Vec F S5000x32 .f32) (x2 : Vec F S5000x1 .f32) (x3 : Vec F S1x32 .f32) : Vec F S5000x32 .f32 :=
  View.canon [⟨(Rect.unit (s := S5000x32) ![0, 0] S5000x32.size inb_S5000x32_S5000x32_0_0), k5_pay1 (View.ld x2 (Rect.unit (s := S5000x1) ![0, 0] S5000x1.size inb_S5000x1_S5000x1_0_0)) (View.ld x3 (Rect.unit (s := S1x32) ![0, 0] S1x32.size inb_S1x32_S1x32_0_0)) (View.ld x0 (Rect.unit (s := S5000x32) ![0, 0] S5000x32.size inb_S5000x32_S5000x32_0_0)) (View.ld x1 (Rect.unit (s := S5000x32) ![0, 0] S5000x32.size inb_S5000x32_S5000x32_0_0))⟩]

/-- That one store covers the whole block. -/
theorem cover5_4 (p0 : Vec F S5000x32 .f32) (y : S5000x32.Idx) :
    ∃ pc ∈ ([⟨(Rect.unit (s := S5000x32) ![0, 0] S5000x32.size inb_S5000x32_S5000x32_0_0), p0⟩] : List (View.Piece (Elt F) S5000x32 .f32)), y ∈ pc.1.set :=
  View.cover_of_tiled [⟨(Rect.unit (s := S5000x32) ![0, 0] S5000x32.size inb_S5000x32_S5000x32_0_0), p0⟩] S5000x32.size (by rfl) y

set_option maxHeartbeats 4000000 in
/-- The body on whole staging buffers: the inputs are read and left as they were, the output buffer ends at `out5_4`
    of the inputs, whatever it held before. -/
theorem sound_kernel5 (c : Dev nD) (E : Set ℕ) (i : grid5.Coords) (arg1 : Memref sig .tc .vmem S5000x32 .f32) (harg1 : arg1.IsWhole) (arg2 : Memref sig .tc .vmem S5000x32 .f32) (harg2 : arg2.IsWhole) (arg3 : Memref sig .tc .vmem S5000x1 .f32) (harg3 : arg3.IsWhole) (arg4 : Memref sig .tc .vmem S1x32 .f32) (harg4 : arg4.IsWhole) (arg5 : Memref sig .tc .vmem S5000x32 .f32) (harg5 : arg5.IsWhole)
    (x0 : Vec F S5000x32 .f32) (x1 : Vec F S5000x32 .f32) (x2 : Vec F S5000x1 .f32) (x3 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__kernel i arg1 harg1 arg2 harg2 arg3 harg3 arg4 harg4 arg5 harg5) K := by
  simp only [cc5__kernel_eq_skeleton]; unfold cc5__kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-- The proof data of pipeline 5 on core `c`: the arrays as the region finds them; after the body at point `t` each
    input buffer still holds its block and the output buffer holds `out5_4` of the input blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the input buffers hold their blocks, so `sound_kernel5` applies. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.Kernel.Fr

end
-- ==== Proof.K.Run.lean ====
/-
  The whole program as eleven segments: five stretches of host operations and six kernel regions, in order.
  The contents of a core's buffers at each of the twelve boundaries are a fold from the launch memory: a host stretch
  applies its operations, a region leaves each of its arrays at what its write-backs make of it and every other buffer
  as it was. Every region's record is its pipeline's body obligation with the buffers split into the pipeline's arrays
  and the rest on entry and joined again on exit. The run then ends with every buffer at the last boundary's contents;
  no segment writes an argument, so each argument ends as launched.
-/
import proofs.«122759_j29180007809406_2_alg».proof.Proof.K.Reg0
import proofs.«122759_j29180007809406_2_alg».proof.Proof.K.Reg1
import proofs.«122759_j29180007809406_2_alg».proof.Proof.K.Reg2
import proofs.«122759_j29180007809406_2_alg».proof.Proof.K.Reg3
import proofs.«122759_j29180007809406_2_alg».proof.Proof.K.Reg4
import proofs.«122759_j29180007809406_2_alg».proof.Proof.K.Reg5
import proofs.«122759_j29180007809406_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- The same read at the TensorCore's references. -/
abbrev U0 : (c : Dev nD) → (b : Ref sig .tc) → Buf (Elt F) ((c : Thread nD τ).loc b) := fun c b => W0 m ρ c b

/-- After the host stretch hostOps0. -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- Region 0 changes no buffer but its output array: an input window's array ends as entered, and so does a buffer no window stages. -/
theorem keep0 (c : Dev nD) (b : Ref sig .tc) (hb : Pipeline.arrRef spec0 3 ≠ b) :
    W2 m ρ c (Proc.devRef .tc b) = W1 m ρ c (Proc.devRef .tc b) := by
  by_cases h : ∀ w, Pipeline.arrRef spec0 w ≠ b
  · exact W2_of_ne m ρ c b h
  · obtain ⟨w, hw⟩ := not_forall.mp h
    obtain rfl := not_not.mp hw
    match w with
    | ⟨0, _⟩ => exact (W2_arr m ρ c 0).trans (((dat0 (U1 m ρ) c).arrAt_in 0 rfl _).trans (A_eq0 (U1 m ρ) c 0))
    | ⟨1, _⟩ => exact (W2_arr m ρ c 1).trans (((dat0 (U1 m ρ) c).arrAt_in 1 rfl _).trans (A_eq0 (U1 m ρ) c 1))
    | ⟨2, _⟩ => exact (W2_arr m ρ c 2).trans (((dat0 (U1 m ρ) c).arrAt_in 2 rfl _).trans (A_eq0 (U1 m ρ) c 2))
    | ⟨3, _⟩ => exact absurd rfl hb
    | ⟨n + 4, hn⟩ => exact absurd hn (Nat.not_lt.2 (Nat.le_add_left _ _))

/-- After the host stretch hostOps1. -/
abbrev W3 : Dev nD → Valuation τ sig (Elt F) := fun c => StableHlo.after hostOps1 (W2 m ρ c)
/-- The same read at the TensorCore's references. -/
abbrev U3 : (c : Dev nD) → (b : Ref sig .tc) → Buf (Elt F) ((c : Thread nD τ).loc b) := fun c b => W3 m ρ c b

/-- At region 1's exit: its arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)
/-- Region 1 changes no buffer but its output array: an input window's array ends as entered, and so does a buffer no window stages. -/
theorem keep1 (c : Dev nD) (b : Ref sig .tc) (hb : Pipeline.arrRef spec1 4 ≠ b) :
    W4 m ρ c (Proc.devRef .tc b) = W3 m ρ c (Proc.devRef .tc b) := by
  by_cases h : ∀ w, Pipeline.arrRef spec1 w ≠ b
  · exact W4_of_ne m ρ c b h
  · obtain ⟨w, hw⟩ := not_forall.mp h
    obtain rfl := not_not.mp hw
    match w with
    | ⟨0, _⟩ => exact (W4_arr m ρ c 0).trans (((dat1 (U3 m ρ) c).arrAt_in 0 rfl _).trans (A_eq1 (U3 m ρ) c 0))
    | ⟨1, _⟩ => exact (W4_arr m ρ c 1).trans (((dat1 (U3 m ρ) c).arrAt_in 1 rfl _).trans (A_eq1 (U3 m ρ) c 1))
    | ⟨2, _⟩ => exact (W4_arr m ρ c 2).trans (((dat1 (U3 m ρ) c).arrAt_in 2 rfl _).trans (A_eq1 (U3 m ρ) c 2))
    | ⟨3, _⟩ => exact (W4_arr m ρ c 3).trans (((dat1 (U3 m ρ) c).arrAt_in 3 rfl _).trans (A_eq1 (U3 m ρ) c 3))
    | ⟨4, _⟩ => exact absurd rfl hb
    | ⟨n + 5, hn⟩ => exact absurd hn (Nat.not_lt.2 (Nat.le_add_left _ _))

/-- At region 2's exit: its arrays at what the pipeline leaves, every other buffer as entered. -/
def W5 (c : Dev nD) : Valuation τ sig (Elt F) :=
  Pipeline.withArrays spec2 c (W4 m ρ c) fun w => (dat2 (U4 m ρ) c).arrAt w cfg2.N
theorem W5_arr (c : Dev nD) (w : Fin cfg2.W) :
    W5 m ρ c (Proc.devRef .tc (Pipeline.arrRef spec2 w)) = (dat2 (U4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev U5 : (c : Dev nD) → (b : Ref sig .tc) → Buf (Elt F) ((c : Thread nD τ).loc b) := fun c b => W5 m ρ c b
theorem hF2 (c : Dev nD) (w : Fin cfg2.W) : (dat2 (U4 m ρ) c).arrAt w cfg2.N = U5 m ρ c (Pipeline.arrRef spec2 w) :=
  (W5_arr m ρ c w).symm
theorem hrest2 (c : Dev nD) : ∀ b, b ∉ Finset.univ.image (Pipeline.arrRef spec2) → U5 m ρ c b = U4 m ρ c b :=
  fun b hb => W5_of_ne m ρ c b fun w e => hb (Finset.mem_image.mpr ⟨w, Finset.mem_univ _, e⟩)
/-- Region 2 changes no buffer but its output array: an input window's array ends as entered, and so does a buffer no window stages. -/
theorem keep2 (c : Dev nD) (b : Ref sig .tc) (hb : Pipeline.arrRef spec2 3 ≠ b) :
    W5 m ρ c (Proc.devRef .tc b) = W4 m ρ c (Proc.devRef .tc b) := by
  by_cases h : ∀ w, Pipeline.arrRef spec2 w ≠ b
  · exact W5_of_ne m ρ c b h
  · obtain ⟨w, hw⟩ := not_forall.mp h
    obtain rfl := not_not.mp hw
    match w with
    | ⟨0, _⟩ => exact (W5_arr m ρ c 0).trans (((dat2 (U4 m ρ) c).arrAt_in 0 rfl _).trans (A_eq2 (U4 m ρ) c 0))
    | ⟨1, _⟩ => exact (W5_arr m ρ c 1).trans (((dat2 (U4 m ρ) c).arrAt_in 1 rfl _).trans (A_eq2 (U4 m ρ) c 1))
    | ⟨2, _⟩ => exact (W5_arr m ρ c 2).trans (((dat2 (U4 m ρ) c).arrAt_in 2 rfl _).trans (A_eq2 (U4 m ρ) c 2))
    | ⟨3, _⟩ => exact absurd rfl hb
    | ⟨n + 4, hn⟩ => exact absurd hn (Nat.not_lt.2 (Nat.le_add_left _ _))

/-- After the host stretch hostOps3. -/
abbrev W6 : Dev nD → Valuation τ sig (Elt F) := fun c => StableHlo.after hostOps3 (W5 m ρ c)
/-- The same read at the TensorCore's references. -/
abbrev U6 : (c : Dev nD) → (b : Ref sig .tc) → Buf (Elt F) ((c : Thread nD τ).loc b) := fun c b => W6 m ρ c b

/-- At region 3's exit: its arrays at what the pipeline leaves, every other buffer as entered. -/
def W7 (c : Dev nD) : Valuation τ sig (Elt F) :=
  Pipeline.withArrays spec3 c (W6 m ρ c) fun w => (dat3 (U6 m ρ) c).arrAt w cfg3.N
theorem W7_arr (c : Dev nD) (w : Fin cfg3.W) :
    W7 m ρ c (Proc.devRef .tc (Pipeline.arrRef spec3 w)) = (dat3 (U6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references. -/
abbrev U7 : (c : Dev nD) → (b : Ref sig .tc) → Buf (Elt F) ((c : Thread nD τ).loc b) := fun c b => W7 m ρ c b
theorem hF3 (c : Dev nD) (w : Fin cfg3.W) : (dat3 (U6 m ρ) c).arrAt w cfg3.N = U7 m ρ c (Pipeline.arrRef spec3 w) :=
  (W7_arr m ρ c w).symm
theorem hrest3 (c : Dev nD) : ∀ b, b ∉ Finset.univ.image (Pipeline.arrRef spec3) → U7 m ρ c b = U6 m ρ c b :=
  fun b hb => W7_of_ne m ρ c b fun w e => hb (Finset.mem_image.mpr ⟨w, Finset.mem_univ _, e⟩)
/-- Region 3 changes no buffer but its output array: an input window's array ends as entered, and so does a buffer no window stages. -/
theorem keep3 (c : Dev nD) (b : Ref sig .tc) (hb : Pipeline.arrRef spec3 4 ≠ b) :
    W7 m ρ c (Proc.devRef .tc b) = W6 m ρ c (Proc.devRef .tc b) := by
  by_cases h : ∀ w, Pipeline.arrRef spec3 w ≠ b
  · exact W7_of_ne m ρ c b h
  · obtain ⟨w, hw⟩ := not_forall.mp h
    obtain rfl := not_not.mp hw
    match w with
    | ⟨0, _⟩ => exact (W7_arr m ρ c 0).trans (((dat3 (U6 m ρ) c).arrAt_in 0 rfl _).trans (A_eq3 (U6 m ρ) c 0))
    | ⟨1, _⟩ => exact (W7_arr m ρ c 1).trans (((dat3 (U6 m ρ) c).arrAt_in 1 rfl _).trans (A_eq3 (U6 m ρ) c 1))
    | ⟨2, _⟩ => exact (W7_arr m ρ c 2).trans (((dat3 (U6 m ρ) c).arrAt_in 2 rfl _).trans (A_eq3 (U6 m ρ) c 2))
    | ⟨3, _⟩ => exact (W7_arr m ρ c 3).trans (((dat3 (U6 m ρ) c).arrAt_in 3 rfl _).trans (A_eq3 (U6 m ρ) c 3))
    | ⟨4, _⟩ => exact absurd rfl hb
    | ⟨n + 5, hn⟩ => exact absurd hn (Nat.not_lt.2 (Nat.le_add_left _ _))

/-- At region 4's exit: its arrays at what the pipeline leaves, every other buffer as entered. -/
def W8 (c : Dev nD) : Valuation τ sig (Elt F) :=
  Pipeline.withArrays spec4 c (W7 m ρ c) fun w => (dat4 (U7 m ρ) c).arrAt w cfg4.N
theorem W8_arr (c : Dev nD) (w : Fin cfg4.W) :
    W8 m ρ c (Proc.devRef .tc (Pipeline.arrRef spec4 w)) = (dat4 (U7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
/-- The same read at the TensorCore's references. -/
abbrev U8 : (c : Dev nD) → (b : Ref sig .tc) → Buf (Elt F) ((c : Thread nD τ).loc b) := fun c b => W8 m ρ c b
theorem hF4 (c : Dev nD) (w : Fin cfg4.W) : (dat4 (U7 m ρ) c).arrAt w cfg4.N = U8 m ρ c (Pipeline.arrRef spec4 w) :=
  (W8_arr m ρ c w).symm
theorem hrest4 (c : Dev nD) : ∀ b, b ∉ Finset.univ.image (Pipeline.arrRef spec4) → U8 m ρ c b = U7 m ρ c b :=
  fun b hb => W8_of_ne m ρ c b fun w e => hb (Finset.mem_image.mpr ⟨w, Finset.mem_univ _, e⟩)
/-- Region 4 changes no buffer but its output array: an input window's array ends as entered, and so does a buffer no window stages. -/
theorem keep4 (c : Dev nD) (b : Ref sig .tc) (hb : Pipeline.arrRef spec4 3 ≠ b) :
    W8 m ρ c (Proc.devRef .tc b) = W7 m ρ c (Proc.devRef .tc b) := by
  by_cases h : ∀ w, Pipeline.arrRef spec4 w ≠ b
  · exact W8_of_ne m ρ c b h
  · obtain ⟨w, hw⟩ := not_forall.mp h
    obtain rfl := not_not.mp hw
    match w with
    | ⟨0, _⟩ => exact (W8_arr m ρ c 0).trans (((dat4 (U7 m ρ) c).arrAt_in 0 rfl _).trans (A_eq4 (U7 m ρ) c 0))
    | ⟨1, _⟩ => exact (W8_arr m ρ c 1).trans (((dat4 (U7 m ρ) c).arrAt_in 1 rfl _).trans (A_eq4 (U7 m ρ) c 1))
    | ⟨2, _⟩ => exact (W8_arr m ρ c 2).trans (((dat4 (U7 m ρ) c).arrAt_in 2 rfl _).trans (A_eq4 (U7 m ρ) c 2))
    | ⟨3, _⟩ => exact absurd rfl hb
    | ⟨n + 4, hn⟩ => exact absurd hn (Nat.not_lt.2 (Nat.le_add_left _ _))

/-- After the host stretch hostOps5. -/
abbrev W9 : Dev nD → Valuation τ sig (Elt F) := fun c => StableHlo.after hostOps5 (W8 m ρ c)
/-- The same read at the TensorCore's references. -/
abbrev U9 : (c : Dev nD) → (b : Ref sig .tc) → Buf (Elt F) ((c : Thread nD τ).loc b) := fun c b => W9 m ρ c b

/-- At region 5's exit: its arrays at what the pipeline leaves, every other buffer as entered. -/
def W10 (c : Dev nD) : Valuation τ sig (Elt F) :=
  Pipeline.withArrays spec5 c (W9 m ρ c) fun w => (dat5 (U9 m ρ) c).arrAt w cfg5.N
theorem W10_arr (c : Dev nD) (w : Fin cfg5.W) :
    W10 m ρ c (Proc.devRef .tc (Pipeline.arrRef spec5 w)) = (dat5 (U9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
/-- The same read at the TensorCore's references. -/
abbrev U10 : (c : Dev nD) → (b : Ref sig .tc) → Buf (Elt F) ((c : Thread nD τ).loc b) := fun c b => W10 m ρ c b
theorem hF5 (c : Dev nD) (w : Fin cfg5.W) : (dat5 (U9 m ρ) c).arrAt w cfg5.N = U10 m ρ c (Pipeline.arrRef spec5 w) :=
  (W10_arr m ρ c w).symm
theorem hrest5 (c : Dev nD) : ∀ b, b ∉ Finset.univ.image (Pipeline.arrRef spec5) → U10 m ρ c b = U9 m ρ c b :=
  fun b hb => W10_of_ne m ρ c b fun w e => hb (Finset.mem_image.mpr ⟨w, Finset.mem_univ _, e⟩)
/-- Region 5 changes no buffer but its output array: an input window's array ends as entered, and so does a buffer no window stages. -/
theorem keep5 (c : Dev nD) (b : Ref sig .tc) (hb : Pipeline.arrRef spec5 4 ≠ b) :
    W10 m ρ c (Proc.devRef .tc b) = W9 m ρ c (Proc.devRef .tc b) := by
  by_cases h : ∀ w, Pipeline.arrRef spec5 w ≠ b
  · exact W10_of_ne m ρ c b h
  · obtain ⟨w, hw⟩ := not_forall.mp h
    obtain rfl := not_not.mp hw
    match w with
    | ⟨0, _⟩ => exact (W10_arr m ρ c 0).trans (((dat5 (U9 m ρ) c).arrAt_in 0 rfl _).trans (A_eq5 (U9 m ρ) c 0))
    | ⟨1, _⟩ => exact (W10_arr m ρ c 1).trans (((dat5 (U9 m ρ) c).arrAt_in 1 rfl _).trans (A_eq5 (U9 m ρ) c 1))
    | ⟨2, _⟩ => exact (W10_arr m ρ c 2).trans (((dat5 (U9 m ρ) c).arrAt_in 2 rfl _).trans (A_eq5 (U9 m ρ) c 2))
    | ⟨3, _⟩ => exact (W10_arr m ρ c 3).trans (((dat5 (U9 m ρ) c).arrAt_in 3 rfl _).trans (A_eq5 (U9 m ρ) c 3))
    | ⟨4, _⟩ => exact absurd rfl hb
    | ⟨n + 5, hn⟩ => exact absurd hn (Nat.not_lt.2 (Nat.le_add_left _ _))

/-- After the host stretch hostOps6. -/
abbrev W11 : Dev nD → Valuation τ sig (Elt F) := fun c => StableHlo.after hostOps6 (W10 m ρ c)
/-- The same read at the TensorCore's references. -/
abbrev U11 : (c : Dev nD) → (b : Ref sig .tc) → Buf (Elt F) ((c : Thread nD τ).loc b) := fun c b => W11 m ρ c b

/-! ## A host stretch leaves a buffer it does not write as it was -/

theorem host0_keep (c : Dev nD) (r : Ref sig .tc) (hr : r ∉ hostOps0_W) : W1 m ρ c (Proc.devRef .tc r) = W0 m ρ c (Proc.devRef .tc r) :=
  StableHlo.after_of_writes_sub hostOps0 _ hostOps0_writes hr
theorem host1_keep (c : Dev nD) (r : Ref sig .tc) (hr : r ∉ hostOps1_W) : W3 m ρ c (Proc.devRef .tc r) = W2 m ρ c (Proc.devRef .tc r) :=
  StableHlo.after_of_writes_sub hostOps1 _ hostOps1_writes hr
theorem host3_keep (c : Dev nD) (r : Ref sig .tc) (hr : r ∉ hostOps3_W) : W6 m ρ c (Proc.devRef .tc r) = W5 m ρ c (Proc.devRef .tc r) :=
  StableHlo.after_of_writes_sub hostOps3 _ hostOps3_writes hr
theorem host5_keep (c : Dev nD) (r : Ref sig .tc) (hr : r ∉ hostOps5_W) : W9 m ρ c (Proc.devRef .tc r) = W8 m ρ c (Proc.devRef .tc r) :=
  StableHlo.after_of_writes_sub hostOps5 _ hostOps5_writes hr
theorem host6_keep (c : Dev nD) (r : Ref sig .tc) (hr : r ∉ hostOps6_W) : W11 m ρ c (Proc.devRef .tc r) = W10 m ρ c (Proc.devRef .tc r) :=
  StableHlo.after_of_writes_sub hostOps6 _ hostOps6_writes hr

/-! ## The arguments end as launched -/

theorem W11_main_arg0 (c : Dev nD) : W11 m ρ c (Proc.devRef .tc main_arg0) = m ((c : Thread nD τ).loc main_arg0) :=
  (host6_keep m ρ c main_arg0 (by decide)).trans <| (keep5 m ρ c main_arg0 (by decide)).trans <| (host5_keep m ρ c main_arg0 (by decide)).trans <|
  (keep4 m ρ c main_arg0 (by decide)).trans <| (keep3 m ρ c main_arg0 (by decide)).trans <| (host3_keep m ρ c main_arg0 (by decide)).trans <|
  (keep2 m ρ c main_arg0 (by decide)).trans <| (keep1 m ρ c main_arg0 (by decide)).trans <| (host1_keep m ρ c main_arg0 (by decide)).trans <|
  (keep0 m ρ c main_arg0 (by decide)).trans <| (host0_keep m ρ c main_arg0 (by decide)).trans rfl
theorem W11_main_arg1 (c : Dev nD) : W11 m ρ c (Proc.devRef .tc main_arg1) = m ((c : Thread nD τ).loc main_arg1) :=
  (host6_keep m ρ c main_arg1 (by decide)).trans <| (keep5 m ρ c main_arg1 (by decide)).trans <| (host5_keep m ρ c main_arg1 (by decide)).trans <|
  (keep4 m ρ c main_arg1 (by decide)).trans <| (keep3 m ρ c main_arg1 (by decide)).trans <| (host3_keep m ρ c main_arg1 (by decide)).trans <|
  (keep2 m ρ c main_arg1 (by decide)).trans <| (keep1 m ρ c main_arg1 (by decide)).trans <| (host1_keep m ρ c main_arg1 (by decide)).trans <|
  (keep0 m ρ c main_arg1 (by decide)).trans <| (host0_keep m ρ c main_arg1 (by decide)).trans rfl
theorem W11_main_arg2 (c : Dev nD) : W11 m ρ c (Proc.devRef .tc main_arg2) = m ((c : Thread nD τ).loc main_arg2) :=
  (host6_keep m ρ c main_arg2 (by decide)).trans <| (keep5 m ρ c main_arg2 (by decide)).trans <| (host5_keep m ρ c main_arg2 (by decide)).trans <|
  (keep4 m ρ c main_arg2 (by decide)).trans <| (keep3 m ρ c main_arg2 (by decide)).trans <| (host3_keep m ρ c main_arg2 (by decide)).trans <|
  (keep2 m ρ c main_arg2 (by decide)).trans <| (keep1 m ρ c main_arg2 (by decide)).trans <| (host1_keep m ρ c main_arg2 (by decide)).trans <|
  (keep0 m ρ c main_arg2 (by decide)).trans <| (host0_keep m ρ c main_arg2 (by decide)).trans rfl
theorem W11_main_arg3 (c : Dev nD) : W11 m ρ c (Proc.devRef .tc main_arg3) = m ((c : Thread nD τ).loc main_arg3) :=
  (host6_keep m ρ c main_arg3 (by decide)).trans <| (keep5 m ρ c main_arg3 (by decide)).trans <| (host5_keep m ρ c main_arg3 (by decide)).trans <|
  (keep4 m ρ c main_arg3 (by decide)).trans <| (keep3 m ρ c main_arg3 (by decide)).trans <| (host3_keep m ρ c main_arg3 (by decide)).trans <|
  (keep2 m ρ c main_arg3 (by decide)).trans <| (keep1 m ρ c main_arg3 (by decide)).trans <| (host1_keep m ρ c main_arg3 (by decide)).trans <|
  (keep0 m ρ c main_arg3 (by decide)).trans <| (host0_keep m ρ c main_arg3 (by decide)).trans rfl
theorem W11_main_arg4 (c : Dev nD) : W11 m ρ c (Proc.devRef .tc main_arg4) = m ((c : Thread nD τ).loc main_arg4) :=
  (host6_keep m ρ c main_arg4 (by decide)).trans <| (keep5 m ρ c main_arg4 (by decide)).trans <| (host5_keep m ρ c main_arg4 (by decide)).trans <|
  (keep4 m ρ c main_arg4 (by decide)).trans <| (keep3 m ρ c main_arg4 (by decide)).trans <| (host3_keep m ρ c main_arg4 (by decide)).trans <|
  (keep2 m ρ c main_arg4 (by decide)).trans <| (keep1 m ρ c main_arg4 (by decide)).trans <| (host1_keep m ρ c main_arg4 (by decide)).trans <|
  (keep0 m ρ c main_arg4 (by decide)).trans <| (host0_keep m ρ c main_arg4 (by decide)).trans rfl
theorem W11_main_arg5 (c : Dev nD) : W11 m ρ c (Proc.devRef .tc main_arg5) = m ((c : Thread nD τ).loc main_arg5) :=
  (host6_keep m ρ c main_arg5 (by decide)).trans <| (keep5 m ρ c main_arg5 (by decide)).trans <| (host5_keep m ρ c main_arg5 (by decide)).trans <|
  (keep4 m ρ c main_arg5 (by decide)).trans <| (keep3 m ρ c main_arg5 (by decide)).trans <| (host3_keep m ρ c main_arg5 (by decide)).trans <|
  (keep2 m ρ c main_arg5 (by decide)).trans <| (keep1 m ρ c main_arg5 (by decide)).trans <| (host1_keep m ρ c main_arg5 (by decide)).trans <|
  (keep0 m ρ c main_arg5 (by decide)).trans <| (host0_keep m ρ c main_arg5 (by decide)).trans rfl
theorem W11_main_arg6 (c : Dev nD) : W11 m ρ c (Proc.devRef .tc main_arg6) = m ((c : Thread nD τ).loc main_arg6) :=
  (host6_keep m ρ c main_arg6 (by decide)).trans <| (keep5 m ρ c main_arg6 (by decide)).trans <| (host5_keep m ρ c main_arg6 (by decide)).trans <|
  (keep4 m ρ c main_arg6 (by decide)).trans <| (keep3 m ρ c main_arg6 (by decide)).trans <| (host3_keep m ρ c main_arg6 (by decide)).trans <|
  (keep2 m ρ c main_arg6 (by decide)).trans <| (keep1 m ρ c main_arg6 (by decide)).trans <| (host1_keep m ρ c main_arg6 (by decide)).trans <|
  (keep0 m ρ c main_arg6 (by decide)).trans <| (host0_keep m ρ c main_arg6 (by decide)).trans rfl
theorem W11_main_arg7 (c : Dev nD) : W11 m ρ c (Proc.devRef .tc main_arg7) = m ((c : Thread nD τ).loc main_arg7) :=
  (host6_keep m ρ c main_arg7 (by decide)).trans <| (keep5 m ρ c main_arg7 (by decide)).trans <| (host5_keep m ρ c main_arg7 (by decide)).trans <|
  (keep4 m ρ c main_arg7 (by decide)).trans <| (keep3 m ρ c main_arg7 (by decide)).trans <| (host3_keep m ρ c main_arg7 (by decide)).trans <|
  (keep2 m ρ c main_arg7 (by decide)).trans <| (keep1 m ρ c main_arg7 (by decide)).trans <| (host1_keep m ρ c main_arg7 (by decide)).trans <|
  (keep0 m ρ c main_arg7 (by decide)).trans <| (host0_keep m ρ c main_arg7 (by decide)).trans rfl

/-! ## The proof data family and the thread state -/

/-- Every pipeline's proof data, each at its region's entry contents. -/
def fpdats : (p : Fin 6) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U4 m ρ) c
  | ⟨3, _⟩ => fun c => dat3 (U6 m ρ) c
  | ⟨4, _⟩ => fun c => dat4 (U7 m ρ) c
  | ⟨5, _⟩ => fun c => dat5 (U9 m ρ) c
abbrev 𝒱₀ : Variants := Variants.none
/-- No core owes another anything. -/
abbrev fL : GSem nD τ sig → Finset Unit := fun _ => ∅
abbrev flv : GSem nD τ sig → Unit → ℕ := fun _ _ => 0
/-- What rides beside the buffers through every segment: the core's generator register at some state and nothing owed. -/
abbrev Rr (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ fL flv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator register at some state. -/
abbrev Tn (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered from every unscoped buffer at `W1`, left at `W2`. -/
def freg0 : Pipeline.RegionSeg (pcfgs (F := F)) adm (fpdats m ρ) () defs₀ 𝒱₀ fL flv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ fL flv 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (fpdats m ρ) launch0.win launch0.arr_whole c
      ((fpdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fpdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (fpdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (fpdats m ρ) ((fpdats m ρ 0 c).share_full fun _ => rfl)
      (U1 m ρ c) (U2 m ρ c) ((fpdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def freg1 : Pipeline.RegionSeg (pcfgs (F := F)) adm (fpdats m ρ) () defs₀ 𝒱₀ fL flv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ fL flv 1 fun _ _ => rfl
  pre c := iprop(StableHlo.held (c : Thread nD τ) (Pipeline.ucRefs τ sig) (W3 m ρ c) ∗ Rr c)
  post c := iprop(StableHlo.held (c : Thread nD τ) (Pipeline.ucRefs τ sig) (W4 m ρ c) ∗ Rr c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (fpdats m ρ) launch1.win launch1.arr_whole c
      ((fpdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fpdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (fpdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (fpdats m ρ) ((fpdats m ρ 1 c).share_full fun _ => rfl)
      (U3 m ρ c) (U4 m ρ c) ((fpdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. -/
def freg2 : Pipeline.RegionSeg (pcfgs (F := F)) adm (fpdats m ρ) () defs₀ 𝒱₀ fL flv 2 where
  win := launch2.win.to₀
  block_pos := launch2.block_pos
  stage_whole := launch2.stage_whole
  K := PEmpty
  osem k := k.elim
  ho := Pipeline.OwnSemFacts.none _
  hbody c := (body_obligation2 (U4 m ρ) c).loose
  hwaits := Pipeline.hwaits_of_owed_zero _ _ _ _ fL flv 2 fun _ _ => rfl
  pre c := iprop(StableHlo.held (c : Thread nD τ) (Pipeline.ucRefs τ sig) (W4 m ρ c) ∗ Rr c)
  post c := iprop(StableHlo.held (c : Thread nD τ) (Pipeline.ucRefs τ sig) (W5 m ρ c) ∗ Rr c)
  X c := iprop(∃ r, prngReg c r)
  Y c := iprop(∃ r, prngReg c r)
  Z c := Pipeline.unscopedRest (Ix := Unit) (Name := ℕ) (U := UR sig nD τ) (Lvl := ℕ) spec2 c (U4 m ρ c)
  hentry c := by
    rw [Pipeline.ownSems0_none]
    have hsplit := Pipeline.arrays_of_unscopedBufs (p := 2) (pcfgs (F := F)) adm (fpdats m ρ) launch2.win launch2.arr_whole c
      ((fpdats m ρ 2 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fpdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (fpdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (fpdats m ρ) ((fpdats m ρ 2 c).share_full fun _ => rfl)
      (U4 m ρ c) (U5 m ρ c) ((fpdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W6`, left at `W7`. -/
def freg3 : Pipeline.RegionSeg (pcfgs (F := F)) adm (fpdats m ρ) () defs₀ 𝒱₀ fL flv 3 where
  win := launch3.win.to₀
  block_pos := launch3.block_pos
  stage_whole := launch3.stage_whole
  K := PEmpty
  osem k := k.elim
  ho := Pipeline.OwnSemFacts.none _
  hbody c := (body_obligation3 (U6 m ρ) c).loose
  hwaits := Pipeline.hwaits_of_owed_zero _ _ _ _ fL flv 3 fun _ _ => rfl
  pre c := iprop(StableHlo.held (c : Thread nD τ) (Pipeline.ucRefs τ sig) (W6 m ρ c) ∗ Rr c)
  post c := iprop(StableHlo.held (c : Thread nD τ) (Pipeline.ucRefs τ sig) (W7 m ρ c) ∗ Rr c)
  X c := iprop(∃ r, prngReg c r)
  Y c := iprop(∃ r, prngReg c r)
  Z c := Pipeline.unscopedRest (Ix := Unit) (Name := ℕ) (U := UR sig nD τ) (Lvl := ℕ) spec3 c (U6 m ρ c)
  hentry c := by
    rw [Pipeline.ownSems0_none]
    have hsplit := Pipeline.arrays_of_unscopedBufs (p := 3) (pcfgs (F := F)) adm (fpdats m ρ) launch3.win launch3.arr_whole c
      ((fpdats m ρ 3 c).share_full fun _ => rfl) (U6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fpdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (fpdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (fpdats m ρ) ((fpdats m ρ 3 c).share_full fun _ => rfl)
      (U6 m ρ c) (U7 m ρ c) ((fpdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W7`, left at `W8`. -/
def freg4 : Pipeline.RegionSeg (pcfgs (F := F)) adm (fpdats m ρ) () defs₀ 𝒱₀ fL flv 4 where
  win := launch4.win.to₀
  block_pos := launch4.block_pos
  stage_whole := launch4.stage_whole
  K := PEmpty
  osem k := k.elim
  ho := Pipeline.OwnSemFacts.none _
  hbody c := (body_obligation4 (U7 m ρ) c).loose
  hwaits := Pipeline.hwaits_of_owed_zero _ _ _ _ fL flv 4 fun _ _ => rfl
  pre c := iprop(StableHlo.held (c : Thread nD τ) (Pipeline.ucRefs τ sig) (W7 m ρ c) ∗ Rr c)
  post c := iprop(StableHlo.held (c : Thread nD τ) (Pipeline.ucRefs τ sig) (W8 m ρ c) ∗ Rr c)
  X c := iprop(∃ r, prngReg c r)
  Y c := iprop(∃ r, prngReg c r)
  Z c := Pipeline.unscopedRest (Ix := Unit) (Name := ℕ) (U := UR sig nD τ) (Lvl := ℕ) spec4 c (U7 m ρ c)
  hentry c := by
    rw [Pipeline.ownSems0_none]
    have hsplit := Pipeline.arrays_of_unscopedBufs (p := 4) (pcfgs (F := F)) adm (fpdats m ρ) launch4.win launch4.arr_whole c
      ((fpdats m ρ 4 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fpdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (fpdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (fpdats m ρ) ((fpdats m ρ 4 c).share_full fun _ => rfl)
      (U7 m ρ c) (U8 m ρ c) ((fpdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W9`, left at `W10`. -/
def freg5 : Pipeline.RegionSeg (pcfgs (F := F)) adm (fpdats m ρ) () defs₀ 𝒱₀ fL flv 5 where
  win := launch5.win.to₀
  block_pos := launch5.block_pos
  stage_whole := launch5.stage_whole
  K := PEmpty
  osem k := k.elim
  ho := Pipeline.OwnSemFacts.none _
  hbody c := (body_obligation5 (U9 m ρ) c).loose
  hwaits := Pipeline.hwaits_of_owed_zero _ _ _ _ fL flv 5 fun _ _ => rfl
  pre c := iprop(StableHlo.held (c : Thread nD τ) (Pipeline.ucRefs τ sig) (W9 m ρ c) ∗ Rr c)
  post c := iprop(StableHlo.held (c : Thread nD τ) (Pipeline.ucRefs τ sig) (W10 m ρ c) ∗ Rr c)
  X c := iprop(∃ r, prngReg c r)
  Y c := iprop(∃ r, prngReg c r)
  Z c := Pipeline.unscopedRest (Ix := Unit) (Name := ℕ) (U := UR sig nD τ) (Lvl := ℕ) spec5 c (U9 m ρ c)
  hentry c := by
    rw [Pipeline.ownSems0_none]
    have hsplit := Pipeline.arrays_of_unscopedBufs (p := 5) (pcfgs (F := F)) adm (fpdats m ρ) launch5.win launch5.arr_whole c
      ((fpdats m ρ 5 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fpdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (fpdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (fpdats m ρ) ((fpdats m ρ 5 c).share_full fun _ => rfl)
      (U9 m ρ c) (U10 m ρ c) ((fpdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev fsegs : List (Pipeline.Seg (pcfgs (F := F)) adm (fpdats m ρ) () defs₀ 𝒱₀ fL flv) :=
  [ .host (hseg hostOps0 hostOps0_sub hostOps0_fresh (W0 m ρ)),
    .region (freg0 m ρ),
    .host (hseg hostOps1 hostOps1_sub hostOps1_fresh (W2 m ρ)),
    .region (freg1 m ρ),
    .region (freg2 m ρ),
    .host (hseg hostOps3 hostOps3_sub hostOps3_fresh (W5 m ρ)),
    .region (freg3 m ρ),
    .region (freg4 m ρ),
    .host (hseg hostOps5 hostOps5_sub hostOps5_fresh (W8 m ρ)),
    .region (freg5 m ρ),
    .host (hseg hostOps6 hostOps6_sub hostOps6_fresh (W10 m ρ)) ]

/-- The program is the run of its segments. -/
theorem main_run (c : Dev nD) : main (F := F) c = Pipeline.Seg.run (fsegs m ρ) := (main_chain c).trans (by chain_rfl)

set_option backward.isDefEq.respectTransparency.types false in
/-- Every weakly fair execution of the program from memory `m` with zero counters terminates, nothing faulting, and every
    final state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (fpdats m ρ) () cellOf_inj emb₁ defs₀ 𝒱₀ fL flv m ρ main (fsegs m ρ)
    (fun c Q => by rw [main_run m ρ c])
    (by simp only [fsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tn m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m ρ c) ∗ Rr c)
          ⊢ iprop(Tn m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach fL flv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
    (h c _ (mem_uc main_arg0 (by decide))).trans (W11_main_arg0 m ρ c),
    (h c _ (mem_uc main_arg1 (by decide))).trans (W11_main_arg1 m ρ c),
    (h c _ (mem_uc main_arg2 (by decide))).trans (W11_main_arg2 m ρ c),
    (h c _ (mem_uc main_arg3 (by decide))).trans (W11_main_arg3 m ρ c),
    (h c _ (mem_uc main_arg4 (by decide))).trans (W11_main_arg4 m ρ c),
    (h c _ (mem_uc main_arg5 (by decide))).trans (W11_main_arg5 m ρ c),
    (h c _ (mem_uc main_arg6 (by decide))).trans (W11_main_arg6 m ρ c),
    (h c _ (mem_uc main_arg7 (by decide))).trans (W11_main_arg7 m ρ c)⟩) (run_all m ρ)

end Cert.Kernel.Fr

end
-- ==== Proof.KI.Reg0.lean ====
/-
  Region 0 of the program: the row-scaled linear projection, each block of 5000 rows times the weight matrix, every row then scaled by its node's normaliser.
  The kernel body reads each input block whole and stores the output block whole, so what the output buffer holds after the
  body is one function of the input blocks; the pipeline's proof data record it, and the body obligation follows from the
  body's run on whole buffers.
-/
import proofs.«122759_j29180007809406_2_alg».proof.Proof.Gen.KernelIdeal.Launch
import proofs.«122759_j29180007809406_2_alg».proof.Proof.Gen.KernelIdeal.Skeleton
import proofs.«122759_j29180007809406_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: pipeline 0 runs `cc0__linear_scaled_kernel` over 20 row blocks, at the entry contents `V` -/

section Region0
variable (V : (c : Dev nD) → (b : Ref sig .tc) → Buf (Elt F) ((c : Thread nD τ).loc b))

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of region 0: its current staging buffer holds its block of the entry contents at every point,
    whether the pipeline fetched it there or kept it from an earlier point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 of region 0: its current staging buffer holds its block of the entry contents at every point,
    whether the pipeline fetched it there or kept it from an earlier point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 of region 0: its current staging buffer holds its block of the entry contents at every point,
    whether the pipeline fetched it there or kept it from an earlier point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The output block after the body: its one whole-block store, as a function of the input blocks. -/
def out0_3 (x0 : Vec F S5000x64 .f32) (x1 : Vec F S64x64 .f32) (x2 : Vec F S5000x1 .f32) : Vec F S5000x64 .f32 :=
  View.canon [⟨(Rect.unit (s := S5000x64) ![0, 0] S5000x64.size inb_S5000x64_S5000x64_0_0), k0_pay1 (View.ld x0 (Rect.unit (s := S5000x64) ![0, 0] S5000x64.size inb_S5000x64_S5000x64_0_0)) (View.ld x1 (Rect.unit (s := S64x64) ![0, 0] S64x64.size inb_S64x64_S64x64_0_0)) (View.ld x2 (Rect.unit (s := S5000x1) ![0, 0] S5000x1.size inb_S5000x1_S5000x1_0_0))⟩]

/-- That one store covers the whole block. -/
theorem cover0_3 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 4000000 in
/-- The body on whole staging buffers: the inputs are read and left as they were, the output buffer ends at `out0_3`
    of the inputs, whatever it held before. -/
theorem sound_kernel0 (c : Dev nD) (E : Set ℕ) (i : grid0.Coords) (arg1 : Memref sig .tc .vmem S5000x64 .f32) (harg1 : arg1.IsWhole) (arg2 : Memref sig .tc .vmem S64x64 .f32) (harg2 : arg2.IsWhole) (arg3 : Memref sig .tc .vmem S5000x1 .f32) (harg3 : arg3.IsWhole) (arg4 : Memref sig .tc .vmem S5000x64 .f32) (harg4 : arg4.IsWhole)
    (x0 : Vec F S5000x64 .f32) (x1 : Vec F S64x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_scaled_kernel i arg1 harg1 arg2 harg2 arg3 harg3 arg4 harg4) K := by
  simp only [cc0__linear_scaled_kernel_eq_skeleton]; unfold cc0__linear_scaled_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body at point `t` each
    input buffer still holds its block and the output buffer holds `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the input buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.KI.Reg1.lean ====
/-
  Region 1 of the program: the layer's epilogue, normaliser · (aggregate + own row) + bias, clipped below at zero.
  The kernel body reads each input block whole and stores the output block whole, so what the output buffer holds after the
  body is one function of the input blocks; the pipeline's proof data record it, and the body obligation follows from the
  body's run on whole buffers.
-/
import proofs.«122759_j29180007809406_2_alg».proof.Proof.Gen.KernelIdeal.Launch
import proofs.«122759_j29180007809406_2_alg».proof.Proof.Gen.KernelIdeal.Skeleton
import proofs.«122759_j29180007809406_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: pipeline 1 runs `cc1__kernel` over 20 row blocks, at the entry contents `V` -/

section Region1
variable (V : (c : Dev nD) → (b : Ref sig .tc) → Buf (Elt F) ((c : Thread nD τ).loc b))

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of region 1: its current staging buffer holds its block of the entry contents at every point,
    whether the pipeline fetched it there or kept it from an earlier point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 of region 1: its current staging buffer holds its block of the entry contents at every point,
    whether the pipeline fetched it there or kept it from an earlier point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 of region 1: its current staging buffer holds its block of the entry contents at every point,
    whether the pipeline fetched it there or kept it from an earlier point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 of region 1: its current staging buffer holds its block of the entry contents at every point,
    whether the pipeline fetched it there or kept it from an earlier point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The output block after the body: its one whole-block store, as a function of the input blocks. -/
def out1_4 (x0 : Vec F S5000x64 .f32) (x1 : Vec F S5000x64 .f32) (x2 : Vec F S5000x1 .f32) (x3 : Vec F S1x64 .f32) : Vec F S5000x64 .f32 :=
  View.canon [⟨(Rect.unit (s := S5000x64) ![0, 0] S5000x64.size inb_S5000x64_S5000x64_0_0), k1_pay1 (View.ld x2 (Rect.unit (s := S5000x1) ![0, 0] S5000x1.size inb_S5000x1_S5000x1_0_0)) (View.ld x3 (Rect.unit (s := S1x64) ![0, 0] S1x64.size inb_S1x64_S1x64_0_0)) (View.ld x0 (Rect.unit (s := S5000x64) ![0, 0] S5000x64.size inb_S5000x64_S5000x64_0_0)) (View.ld x1 (Rect.unit (s := S5000x64) ![0, 0] S5000x64.size inb_S5000x64_S5000x64_0_0))⟩]

/-- That one store covers the whole block. -/
theorem cover1_4 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 4000000 in
/-- The body on whole staging buffers: the inputs are read and left as they were, the output buffer ends at `out1_4`
    of the inputs, whatever it held before. -/
theorem sound_kernel1 (c : Dev nD) (E : Set ℕ) (i : grid1.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S5000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__kernel i arg1 harg1 arg2 harg2 arg3 harg3 arg4 harg4 arg5 harg5) K := by
  simp only [cc1__kernel_eq_skeleton]; unfold cc1__kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-- The proof data of pipeline 1 on core `c`: the arrays as the region finds them; after the body at point `t` each
    input buffer still holds its block and the output buffer holds `out1_4` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the input buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Fr

end
-- ==== Proof.KI.Reg2.lean ====
/-
  Region 2 of the program: the row-scaled linear projection, each block of 5000 rows times the weight matrix, every row then scaled by its node's normaliser.
  The kernel body reads each input block whole and stores the output block whole, so what the output buffer holds after the
  body is one function of the input blocks; the pipeline's proof data record it, and the body obligation follows from the
  body's run on whole buffers.
-/
import proofs.«122759_j29180007809406_2_alg».proof.Proof.Gen.KernelIdeal.Launch
import proofs.«122759_j29180007809406_2_alg».proof.Proof.Gen.KernelIdeal.Skeleton
import proofs.«122759_j29180007809406_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: pipeline 2 runs `cc2__linear_scaled_kernel` over 20 row blocks, at the entry contents `V` -/

section Region2
variable (V : (c : Dev nD) → (b : Ref sig .tc) → Buf (Elt F) ((c : Thread nD τ).loc b))

/-- Window `w`'s block at point `t` of region 2, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 of region 2: its current staging buffer holds its block of the entry contents at every point,
    whether the pipeline fetched it there or kept it from an earlier point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1 of region 2: its current staging buffer holds its block of the entry contents at every point,
    whether the pipeline fetched it there or kept it from an earlier point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2 of region 2: its current staging buffer holds its block of the entry contents at every point,
    whether the pipeline fetched it there or kept it from an earlier point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The output block after the body: its one whole-block store, as a function of the input blocks. -/
def out2_3 (x0 : Vec F S5000x64 .f32) (x1 : Vec F S64x64 .f32) (x2 : Vec F S5000x1 .f32) : Vec F S5000x64 .f32 :=
  View.canon [⟨(Rect.unit (s := S5000x64) ![0, 0] S5000x64.size inb_S5000x64_S5000x64_0_0), k2_pay1 (View.ld x0 (Rect.unit (s := S5000x64) ![0, 0] S5000x64.size inb_S5000x64_S5000x64_0_0)) (View.ld x1 (Rect.unit (s := S64x64) ![0, 0] S64x64.size inb_S64x64_S64x64_0_0)) (View.ld x2 (Rect.unit (s := S5000x1) ![0, 0] S5000x1.size inb_S5000x1_S5000x1_0_0))⟩]

/-- That one store covers the whole block. -/
theorem cover2_3 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 4000000 in
/-- The body on whole staging buffers: the inputs are read and left as they were, the output buffer ends at `out2_3`
    of the inputs, whatever it held before. -/
theorem sound_kernel2 (c : Dev nD) (E : Set ℕ) (i : grid2.Coords) (arg1 : Memref sig .tc .vmem S5000x64 .f32) (harg1 : arg1.IsWhole) (arg2 : Memref sig .tc .vmem S64x64 .f32) (harg2 : arg2.IsWhole) (arg3 : Memref sig .tc .vmem S5000x1 .f32) (harg3 : arg3.IsWhole) (arg4 : Memref sig .tc .vmem S5000x64 .f32) (harg4 : arg4.IsWhole)
    (x0 : Vec F S5000x64 .f32) (x1 : Vec F S64x64 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_scaled_kernel i arg1 harg1 arg2 harg2 arg3 harg3 arg4 harg4) K := by
  simp only [cc2__linear_scaled_kernel_eq_skeleton]; unfold cc2__linear_scaled_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of pipeline 2 on core `c`: the arrays as the region finds them; after the body at point `t` each
    input buffer still holds its block and the output buffer holds `out2_3` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Fr

end
-- ==== Proof.KI.Reg3.lean ====
/-
  Region 3 of the program: the layer's epilogue, normaliser · (aggregate + own row) + bias, clipped below at zero.
  The kernel body reads each input block whole and stores the output block whole, so what the output buffer holds after the
  body is one function of the input blocks; the pipeline's proof data record it, and the body obligation follows from the
  body's run on whole buffers.
-/
import proofs.«122759_j29180007809406_2_alg».proof.Proof.Gen.KernelIdeal.Launch
import proofs.«122759_j29180007809406_2_alg».proof.Proof.Gen.KernelIdeal.Skeleton
import proofs.«122759_j29180007809406_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: pipeline 3 runs `cc3__kernel` over 20 row blocks, at the entry contents `V` -/

section Region3
variable (V : (c : Dev nD) → (b : Ref sig .tc) → Buf (Elt F) ((c : Thread nD τ).loc b))

/-- Window `w`'s block at point `t` of region 3, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0 of region 3: its current staging buffer holds its block of the entry contents at every point,
    whether the pipeline fetched it there or kept it from an earlier point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1 of region 3: its current staging buffer holds its block of the entry contents at every point,
    whether the pipeline fetched it there or kept it from an earlier point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2 of region 3: its current staging buffer holds its block of the entry contents at every point,
    whether the pipeline fetched it there or kept it from an earlier point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3 of region 3: its current staging buffer holds its block of the entry contents at every point,
    whether the pipeline fetched it there or kept it from an earlier point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The output block after the body: its one whole-block store, as a function of the input blocks. -/
def out3_4 (x0 : Vec F S5000x64 .f32) (x1 : Vec F S5000x64 .f32) (x2 : Vec F S5000x1 .f32) (x3 : Vec F S1x64 .f32) : Vec F S5000x64 .f32 :=
  View.canon [⟨(Rect.unit (s := S5000x64) ![0, 0] S5000x64.size inb_S5000x64_S5000x64_0_0), k3_pay1 (View.ld x2 (Rect.unit (s := S5000x1) ![0, 0] S5000x1.size inb_S5000x1_S5000x1_0_0)) (View.ld x3 (Rect.unit (s := S1x64) ![0, 0] S1x64.size inb_S1x64_S1x64_0_0)) (View.ld x0 (Rect.unit (s := S5000x64) ![0, 0] S5000x64.size inb_S5000x64_S5000x64_0_0)) (View.ld x1 (Rect.unit (s := S5000x64) ![0, 0] S5000x64.size inb_S5000x64_S5000x64_0_0))⟩]

/-- That one store covers the whole block. -/
theorem cover3_4 (p0 : Vec F S5000x64 .f32) (y : S5000x64.Idx) :
    ∃ pc ∈ ([⟨(Rect.unit (s := S5000x64) ![0, 0] S5000x64.size inb_S5000x64_S5000x64_0_0), p0⟩] : List (View.Piece (Elt F) S5000x64 .f32)), y ∈ pc.1.set :=
  View.cover_of_tiled [⟨(Rect.unit (s := S5000x64) ![0, 0] S5000x64.size inb_S5000x64_S5000x64_0_0), p0⟩] S5000x64.size (by rfl) y

set_option maxHeartbeats 4000000 in
/-- The body on whole staging buffers: the inputs are read and left as they were, the output buffer ends at `out3_4`
    of the inputs, whatever it held before. -/
theorem sound_kernel3 (c : Dev nD) (E : Set ℕ) (i : grid3.Coords) (arg1 : Memref sig .tc .vmem S5000x64 .f32) (harg1 : arg1.IsWhole) (arg2 : Memref sig .tc .vmem S5000x64 .f32) (harg2 : arg2.IsWhole) (arg3 : Memref sig .tc .vmem S5000x1 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S5000x64 .f32) (x2 : Vec F S5000x1 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__kernel i arg1 harg1 arg2 harg2 arg3 harg3 arg4 harg4 arg5 harg5) K := by
  simp only [cc3__kernel_eq_skeleton]; unfold cc3__kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The proof data of pipeline 3 on core `c`: the arrays as the region finds them; after the body at point `t` each
    input buffer still holds its block and the output buffer holds `out3_4` of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the input buffers hold their blocks, so `sound_kernel3` applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Fr

end
-- ==== Proof.KI.Reg4.lean ====
/-
  Region 4 of the program: the row-scaled linear projection, each block of 5000 rows times the weight matrix, every row then scaled by its node's normaliser.
  The kernel body reads each input block whole and stores the output block whole, so what the output buffer holds after the
  body is one function of the input blocks; the pipeline's proof data record it, and the body obligation follows from the
  body's run on whole buffers.
-/
import proofs.«122759_j29180007809406_2_alg».proof.Proof.Gen.KernelIdeal.Launch
import proofs.«122759_j29180007809406_2_alg».proof.Proof.Gen.KernelIdeal.Skeleton
import proofs.«122759_j29180007809406_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: pipeline 4 runs `cc4__linear_scaled_kernel` over 20 row blocks, at the entry contents `V` -/

section Region4
variable (V : (c : Dev nD) → (b : Ref sig .tc) → Buf (Elt F) ((c : Thread nD τ).loc b))

/-- Window `w`'s block at point `t` of region 4, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0 of region 4: its current staging buffer holds its block of the entry contents at every point,
    whether the pipeline fetched it there or kept it from an earlier point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1 of region 4: its current staging buffer holds its block of the entry contents at every point,
    whether the pipeline fetched it there or kept it from an earlier point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- Input window 2 of region 4: its current staging buffer holds its block of the entry contents at every point,
    whether the pipeline fetched it there or kept it from an earlier point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The output block after the body: its one whole-block store, as a function of the input blocks. -/
def out4_3 (x0 : Vec F S5000x64 .f32) (x1 : Vec F S64x32 .f32) (x2 : Vec F S5000x1 .f32) : Vec F S5000x32 .f32 :=
  View.canon [⟨(Rect.unit (s := S5000x32) ![0, 0] S5000x32.size inb_S5000x32_S5000x32_0_0), k4_pay1 (View.ld x0 (Rect.unit (s := S5000x64) ![0, 0] S5000x64.size inb_S5000x64_S5000x64_0_0)) (View.ld x1 (Rect.unit (s := S64x32) ![0, 0] S64x32.size inb_S64x32_S64x32_0_0)) (View.ld x2 (Rect.unit (s := S5000x1) ![0, 0] S5000x1.size inb_S5000x1_S5000x1_0_0))⟩]

/-- That one store covers the whole block. -/
theorem cover4_3 (p0 : Vec F S5000x32 .f32) (y : S5000x32.Idx) :
    ∃ pc ∈ ([⟨(Rect.unit (s := S5000x32) ![0, 0] S5000x32.size inb_S5000x32_S5000x32_0_0), p0⟩] : List (View.Piece (Elt F) S5000x32 .f32)), y ∈ pc.1.set :=
  View.cover_of_tiled [⟨(Rect.unit (s := S5000x32) ![0, 0] S5000x32.size inb_S5000x32_S5000x32_0_0), p0⟩] S5000x32.size (by rfl) y

set_option maxHeartbeats 4000000 in
/-- The body on whole staging buffers: the inputs are read and left as they were, the output buffer ends at `out4_3`
    of the inputs, whatever it held before. -/
theorem sound_kernel4 (c : Dev nD) (E : Set ℕ) (i : grid4.Coords) (arg1 : Memref sig .tc .vmem S5000x64 .f32) (harg1 : arg1.IsWhole) (arg2 : Memref sig .tc .vmem S64x32 .f32) (harg2 : arg2.IsWhole) (arg3 : Memref sig .tc .vmem S5000x1 .f32) (harg3 : arg3.IsWhole) (arg4 : Memref sig .tc .vmem S5000x32 .f32) (harg4 : arg4.IsWhole)
    (x0 : Vec F S5000x64 .f32) (x1 : Vec F S64x32 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__linear_scaled_kernel i arg1 harg1 arg2 harg2 arg3 harg3 arg4 harg4) K := by
  simp only [cc4__linear_scaled_kernel_eq_skeleton]; unfold cc4__linear_scaled_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The proof data of pipeline 4 on core `c`: the arrays as the region finds them; after the body at point `t` each
    input buffer still holds its block and the output buffer holds `out4_3` of the input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the input buffers hold their blocks, so `sound_kernel4` applies. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.KernelIdeal.Fr

end
-- ==== Proof.KI.Reg5.lean ====
/-
  Region 5 of the program: the layer's epilogue, normaliser · (aggregate + own row) + bias.
  The kernel body reads each input block whole and stores the output block whole, so what the output buffer holds after the
  body is one function of the input blocks; the pipeline's proof data record it, and the body obligation follows from the
  body's run on whole buffers.
-/
import proofs.«122759_j29180007809406_2_alg».proof.Proof.Gen.KernelIdeal.Launch
import proofs.«122759_j29180007809406_2_alg».proof.Proof.Gen.KernelIdeal.Skeleton
import proofs.«122759_j29180007809406_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5: pipeline 5 runs `cc5__kernel` over 20 row blocks, at the entry contents `V` -/

section Region5
variable (V : (c : Dev nD) → (b : Ref sig .tc) → Buf (Elt F) ((c : Thread nD τ).loc b))

/-- Window `w`'s block at point `t` of region 5, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0 of region 5: its current staging buffer holds its block of the entry contents at every point,
    whether the pipeline fetched it there or kept it from an earlier point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
/-- Input window 1 of region 5: its current staging buffer holds its block of the entry contents at every point,
    whether the pipeline fetched it there or kept it from an earlier point. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
/-- Input window 2 of region 5: its current staging buffer holds its block of the entry contents at every point,
    whether the pipeline fetched it there or kept it from an earlier point. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
/-- Input window 3 of region 5: its current staging buffer holds its block of the entry contents at every point,
    whether the pipeline fetched it there or kept it from an earlier point. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- The output block after the body: its one whole-block store, as a function of the input blocks. -/
def out5_4 (x0 : Vec F S5000x32 .f32) (x1 : Vec F S5000x32 .f32) (x2 : Vec F S5000x1 .f32) (x3 : Vec F S1x32 .f32) : Vec F S5000x32 .f32 :=
  View.canon [⟨(Rect.unit (s := S5000x32) ![0, 0] S5000x32.size inb_S5000x32_S5000x32_0_0), k5_pay1 (View.ld x2 (Rect.unit (s := S5000x1) ![0, 0] S5000x1.size inb_S5000x1_S5000x1_0_0)) (View.ld x3 (Rect.unit (s := S1x32) ![0, 0] S1x32.size inb_S1x32_S1x32_0_0)) (View.ld x0 (Rect.unit (s := S5000x32) ![0, 0] S5000x32.size inb_S5000x32_S5000x32_0_0)) (View.ld x1 (Rect.unit (s := S5000x32) ![0, 0] S5000x32.size inb_S5000x32_S5000x32_0_0))⟩]

/-- That one store covers the whole block. -/
theorem cover5_4 (p0 : Vec F S5000x32 .f32) (y : S5000x32.Idx) :
    ∃ pc ∈ ([⟨(Rect.unit (s := S5000x32) ![0, 0] S5000x32.size inb_S5000x32_S5000x32_0_0), p0⟩] : List (View.Piece (Elt F) S5000x32 .f32)), y ∈ pc.1.set :=
  View.cover_of_tiled [⟨(Rect.unit (s := S5000x32) ![0, 0] S5000x32.size inb_S5000x32_S5000x32_0_0), p0⟩] S5000x32.size (by rfl) y

set_option maxHeartbeats 4000000 in
/-- The body on whole staging buffers: the inputs are read and left as they were, the output buffer ends at `out5_4`
    of the inputs, whatever it held before. -/
theorem sound_kernel5 (c : Dev nD) (E : Set ℕ) (i : grid5.Coords) (arg1 : Memref sig .tc .vmem S5000x32 .f32) (harg1 : arg1.IsWhole) (arg2 : Memref sig .tc .vmem S5000x32 .f32) (harg2 : arg2.IsWhole) (arg3 : Memref sig .tc .vmem S5000x1 .f32) (harg3 : arg3.IsWhole) (arg4 : Memref sig .tc .vmem S1x32 .f32) (harg4 : arg4.IsWhole) (arg5 : Memref sig .tc .vmem S5000x32 .f32) (harg5 : arg5.IsWhole)
    (x0 : Vec F S5000x32 .f32) (x1 : Vec F S5000x32 .f32) (x2 : Vec F S5000x1 .f32) (x3 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__kernel i arg1 harg1 arg2 harg2 arg3 harg3 arg4 harg4 arg5 harg5) K := by
  simp only [cc5__kernel_eq_skeleton]; unfold cc5__kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-- The proof data of pipeline 5 on core `c`: the arrays as the region finds them; after the body at point `t` each
    input buffer still holds its block and the output buffer holds `out5_4` of the input blocks. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the input buffers hold their blocks, so `sound_kernel5` applies. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.KernelIdeal.Fr

end
-- ==== Proof.KI.Run.lean ====
/-
  The whole program as eleven segments: five stretches of host operations and six kernel regions, in order.
  The contents of a core's buffers at each of the twelve boundaries are a fold from the launch memory: a host stretch
  applies its operations, a region leaves each of its arrays at what its write-backs make of it and every other buffer
  as it was. Every region's record is its pipeline's body obligation with the buffers split into the pipeline's arrays
  and the rest on entry and joined again on exit. The run then ends with every buffer at the last boundary's contents;
  no segment writes an argument, so each argument ends as launched.
-/
import proofs.«122759_j29180007809406_2_alg».proof.Proof.KI.Reg0
import proofs.«122759_j29180007809406_2_alg».proof.Proof.KI.Reg1
import proofs.«122759_j29180007809406_2_alg».proof.Proof.KI.Reg2
import proofs.«122759_j29180007809406_2_alg».proof.Proof.KI.Reg3
import proofs.«122759_j29180007809406_2_alg».proof.Proof.KI.Reg4
import proofs.«122759_j29180007809406_2_alg».proof.Proof.KI.Reg5
import proofs.«122759_j29180007809406_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- The same read at the TensorCore's references. -/
abbrev U0 : (c : Dev nD) → (b : Ref sig .tc) → Buf (Elt F) ((c : Thread nD τ).loc b) := fun c b => W0 m ρ c b

/-- After the host stretch hostOps0. -/
abbrev W1 : Dev nD → Valuation τ sig (Elt F) := fun c => StableHlo.after hostOps0 (W0 m ρ c)
/-- The same read at the TensorCore's references. -/
abbrev U1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)
/-- Region 0 changes no buffer but its output array: an input window's array ends as entered, and so does a buffer no window stages. -/
theorem keep0 (c : Dev nD) (b : Ref sig .tc) (hb : Pipeline.arrRef spec0 3 ≠ b) :
    W2 m ρ c (Proc.devRef .tc b) = W1 m ρ c (Proc.devRef .tc b) := by
  by_cases h : ∀ w, Pipeline.arrRef spec0 w ≠ b
  · exact W2_of_ne m ρ c b h
  · obtain ⟨w, hw⟩ := not_forall.mp h
    obtain rfl := not_not.mp hw
    match w with
    | ⟨0, _⟩ => exact (W2_arr m ρ c 0).trans (((dat0 (U1 m ρ) c).arrAt_in 0 rfl _).trans (A_eq0 (U1 m ρ) c 0))
    | ⟨1, _⟩ => exact (W2_arr m ρ c 1).trans (((dat0 (U1 m ρ) c).arrAt_in 1 rfl _).trans (A_eq0 (U1 m ρ) c 1))
    | ⟨2, _⟩ => exact (W2_arr m ρ c 2).trans (((dat0 (U1 m ρ) c).arrAt_in 2 rfl _).trans (A_eq0 (U1 m ρ) c 2))
    | ⟨3, _⟩ => exact absurd rfl hb
    | ⟨n + 4, hn⟩ => exact absurd hn (Nat.not_lt.2 (Nat.le_add_left _ _))

/-- After the host stretch hostOps1. -/
abbrev W3 : Dev nD → Valuation τ sig (Elt F) := fun c => StableHlo.after hostOps1 (W2 m ρ c)
/-- The same read at the TensorCore's references. -/
abbrev U3 : (c : Dev nD) → (b : Ref sig .tc) → Buf (Elt F) ((c : Thread nD τ).loc b) := fun c b => W3 m ρ c b

/-- At region 1's exit: its arrays at what the pipeline leaves, every other buffer as entered. -/
def W4 (c : Dev nD) : Valuation τ sig (Elt F) :=
  Pipeline.withArrays spec1 c (W3 m ρ c) fun w => (dat1 (U3 m ρ) c).arrAt w cfg1.N
theorem W4_arr (c : Dev nD) (w : Fin cfg1.W) :
    W4 m ρ c (Proc.devRef .tc (Pipeline.arrRef spec1 w)) = (dat1 (U3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev U4 : (c : Dev nD) → (b : Ref sig .tc) → Buf (Elt F) ((c : Thread nD τ).loc b) := fun c b => W4 m ρ c b
theorem hF1 (c : Dev nD) (w : Fin cfg1.W) : (dat1 (U3 m ρ) c).arrAt w cfg1.N = U4 m ρ c (Pipeline.arrRef spec1 w) :=
  (W4_arr m ρ c w).symm
theorem hrest1 (c : Dev nD) : ∀ b, b ∉ Finset.univ.image (Pipeline.arrRef spec1) → U4 m ρ c b = U3 m ρ c b :=
  fun b hb => W4_of_ne m ρ c b fun w e => hb (Finset.mem_image.mpr ⟨w, Finset.mem_univ _, e⟩)
/-- Region 1 changes no buffer but its output array: an input window's array ends as entered, and so does a buffer no window stages. -/
theorem keep1 (c : Dev nD) (b : Ref sig .tc) (hb : Pipeline.arrRef spec1 4 ≠ b) :
    W4 m ρ c (Proc.devRef .tc b) = W3 m ρ c (Proc.devRef .tc b) := by
  by_cases h : ∀ w, Pipeline.arrRef spec1 w ≠ b
  · exact W4_of_ne m ρ c b h
  · obtain ⟨w, hw⟩ := not_forall.mp h
    obtain rfl := not_not.mp hw
    match w with
    | ⟨0, _⟩ => exact (W4_arr m ρ c 0).trans (((dat1 (U3 m ρ) c).arrAt_in 0 rfl _).trans (A_eq1 (U3 m ρ) c 0))
    | ⟨1, _⟩ => exact (W4_arr m ρ c 1).trans (((dat1 (U3 m ρ) c).arrAt_in 1 rfl _).trans (A_eq1 (U3 m ρ) c 1))
    | ⟨2, _⟩ => exact (W4_arr m ρ c 2).trans (((dat1 (U3 m ρ) c).arrAt_in 2 rfl _).trans (A_eq1 (U3 m ρ) c 2))
    | ⟨3, _⟩ => exact (W4_arr m ρ c 3).trans (((dat1 (U3 m ρ) c).arrAt_in 3 rfl _).trans (A_eq1 (U3 m ρ) c 3))
    | ⟨4, _⟩ => exact absurd rfl hb
    | ⟨n + 5, hn⟩ => exact absurd hn (Nat.not_lt.2 (Nat.le_add_left _ _))

/-- At region 2's exit: its arrays at what the pipeline leaves, every other buffer as entered. -/
def W5 (c : Dev nD) : Valuation τ sig (Elt F) :=
  Pipeline.withArrays spec2 c (W4 m ρ c) fun w => (dat2 (U4 m ρ) c).arrAt w cfg2.N
theorem W5_arr (c : Dev nD) (w : Fin cfg2.W) :
    W5 m ρ c (Proc.devRef .tc (Pipeline.arrRef spec2 w)) = (dat2 (U4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev U5 : (c : Dev nD) → (b : Ref sig .tc) → Buf (Elt F) ((c : Thread nD τ).loc b) := fun c b => W5 m ρ c b
theorem hF2 (c : Dev nD) (w : Fin cfg2.W) : (dat2 (U4 m ρ) c).arrAt w cfg2.N = U5 m ρ c (Pipeline.arrRef spec2 w) :=
  (W5_arr m ρ c w).symm
theorem hrest2 (c : Dev nD) : ∀ b, b ∉ Finset.univ.image (Pipeline.arrRef spec2) → U5 m ρ c b = U4 m ρ c b :=
  fun b hb => W5_of_ne m ρ c b fun w e => hb (Finset.mem_image.mpr ⟨w, Finset.mem_univ _, e⟩)
/-- Region 2 changes no buffer but its output array: an input window's array ends as entered, and so does a buffer no window stages. -/
theorem keep2 (c : Dev nD) (b : Ref sig .tc) (hb : Pipeline.arrRef spec2 3 ≠ b) :
    W5 m ρ c (Proc.devRef .tc b) = W4 m ρ c (Proc.devRef .tc b) := by
  by_cases h : ∀ w, Pipeline.arrRef spec2 w ≠ b
  · exact W5_of_ne m ρ c b h
  · obtain ⟨w, hw⟩ := not_forall.mp h
    obtain rfl := not_not.mp hw
    match w with
    | ⟨0, _⟩ => exact (W5_arr m ρ c 0).trans (((dat2 (U4 m ρ) c).arrAt_in 0 rfl _).trans (A_eq2 (U4 m ρ) c 0))
    | ⟨1, _⟩ => exact (W5_arr m ρ c 1).trans (((dat2 (U4 m ρ) c).arrAt_in 1 rfl _).trans (A_eq2 (U4 m ρ) c 1))
    | ⟨2, _⟩ => exact (W5_arr m ρ c 2).trans (((dat2 (U4 m ρ) c).arrAt_in 2 rfl _).trans (A_eq2 (U4 m ρ) c 2))
    | ⟨3, _⟩ => exact absurd rfl hb
    | ⟨n + 4, hn⟩ => exact absurd hn (Nat.not_lt.2 (Nat.le_add_left _ _))

/-- After the host stretch hostOps3. -/
abbrev W6 : Dev nD → Valuation τ sig (Elt F) := fun c => StableHlo.after hostOps3 (W5 m ρ c)
/-- The same read at the TensorCore's references. -/
abbrev U6 : (c : Dev nD) → (b : Ref sig .tc) → Buf (Elt F) ((c : Thread nD τ).loc b) := fun c b => W6 m ρ c b

/-- At region 3's exit: its arrays at what the pipeline leaves, every other buffer as entered. -/
def W7 (c : Dev nD) : Valuation τ sig (Elt F) :=
  Pipeline.withArrays spec3 c (W6 m ρ c) fun w => (dat3 (U6 m ρ) c).arrAt w cfg3.N
theorem W7_arr (c : Dev nD) (w : Fin cfg3.W) :
    W7 m ρ c (Proc.devRef .tc (Pipeline.arrRef spec3 w)) = (dat3 (U6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references. -/
abbrev U7 : (c : Dev nD) → (b : Ref sig .tc) → Buf (Elt F) ((c : Thread nD τ).loc b) := fun c b => W7 m ρ c b
theorem hF3 (c : Dev nD) (w : Fin cfg3.W) : (dat3 (U6 m ρ) c).arrAt w cfg3.N = U7 m ρ c (Pipeline.arrRef spec3 w) :=
  (W7_arr m ρ c w).symm
theorem hrest3 (c : Dev nD) : ∀ b, b ∉ Finset.univ.image (Pipeline.arrRef spec3) → U7 m ρ c b = U6 m ρ c b :=
  fun b hb => W7_of_ne m ρ c b fun w e => hb (Finset.mem_image.mpr ⟨w, Finset.mem_univ _, e⟩)
/-- Region 3 changes no buffer but its output array: an input window's array ends as entered, and so does a buffer no window stages. -/
theorem keep3 (c : Dev nD) (b : Ref sig .tc) (hb : Pipeline.arrRef spec3 4 ≠ b) :
    W7 m ρ c (Proc.devRef .tc b) = W6 m ρ c (Proc.devRef .tc b) := by
  by_cases h : ∀ w, Pipeline.arrRef spec3 w ≠ b
  · exact W7_of_ne m ρ c b h
  · obtain ⟨w, hw⟩ := not_forall.mp h
    obtain rfl := not_not.mp hw
    match w with
    | ⟨0, _⟩ => exact (W7_arr m ρ c 0).trans (((dat3 (U6 m ρ) c).arrAt_in 0 rfl _).trans (A_eq3 (U6 m ρ) c 0))
    | ⟨1, _⟩ => exact (W7_arr m ρ c 1).trans (((dat3 (U6 m ρ) c).arrAt_in 1 rfl _).trans (A_eq3 (U6 m ρ) c 1))
    | ⟨2, _⟩ => exact (W7_arr m ρ c 2).trans (((dat3 (U6 m ρ) c).arrAt_in 2 rfl _).trans (A_eq3 (U6 m ρ) c 2))
    | ⟨3, _⟩ => exact (W7_arr m ρ c 3).trans (((dat3 (U6 m ρ) c).arrAt_in 3 rfl _).trans (A_eq3 (U6 m ρ) c 3))
    | ⟨4, _⟩ => exact absurd rfl hb
    | ⟨n + 5, hn⟩ => exact absurd hn (Nat.not_lt.2 (Nat.le_add_left _ _))

/-- At region 4's exit: its arrays at what the pipeline leaves, every other buffer as entered. -/
def W8 (c : Dev nD) : Valuation τ sig (Elt F) :=
  Pipeline.withArrays spec4 c (W7 m ρ c) fun w => (dat4 (U7 m ρ) c).arrAt w cfg4.N
theorem W8_arr (c : Dev nD) (w : Fin cfg4.W) :
    W8 m ρ c (Proc.devRef .tc (Pipeline.arrRef spec4 w)) = (dat4 (U7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
/-- The same read at the TensorCore's references. -/
abbrev U8 : (c : Dev nD) → (b : Ref sig .tc) → Buf (Elt F) ((c : Thread nD τ).loc b) := fun c b => W8 m ρ c b
theorem hF4 (c : Dev nD) (w : Fin cfg4.W) : (dat4 (U7 m ρ) c).arrAt w cfg4.N = U8 m ρ c (Pipeline.arrRef spec4 w) :=
  (W8_arr m ρ c w).symm
theorem hrest4 (c : Dev nD) : ∀ b, b ∉ Finset.univ.image (Pipeline.arrRef spec4) → U8 m ρ c b = U7 m ρ c b :=
  fun b hb => W8_of_ne m ρ c b fun w e => hb (Finset.mem_image.mpr ⟨w, Finset.mem_univ _, e⟩)
/-- Region 4 changes no buffer but its output array: an input window's array ends as entered, and so does a buffer no window stages. -/
theorem keep4 (c : Dev nD) (b : Ref sig .tc) (hb : Pipeline.arrRef spec4 3 ≠ b) :
    W8 m ρ c (Proc.devRef .tc b) = W7 m ρ c (Proc.devRef .tc b) := by
  by_cases h : ∀ w, Pipeline.arrRef spec4 w ≠ b
  · exact W8_of_ne m ρ c b h
  · obtain ⟨w, hw⟩ := not_forall.mp h
    obtain rfl := not_not.mp hw
    match w with
    | ⟨0, _⟩ => exact (W8_arr m ρ c 0).trans (((dat4 (U7 m ρ) c).arrAt_in 0 rfl _).trans (A_eq4 (U7 m ρ) c 0))
    | ⟨1, _⟩ => exact (W8_arr m ρ c 1).trans (((dat4 (U7 m ρ) c).arrAt_in 1 rfl _).trans (A_eq4 (U7 m ρ) c 1))
    | ⟨2, _⟩ => exact (W8_arr m ρ c 2).trans (((dat4 (U7 m ρ) c).arrAt_in 2 rfl _).trans (A_eq4 (U7 m ρ) c 2))
    | ⟨3, _⟩ => exact absurd rfl hb
    | ⟨n + 4, hn⟩ => exact absurd hn (Nat.not_lt.2 (Nat.le_add_left _ _))

/-- After the host stretch hostOps5. -/
abbrev W9 : Dev nD → Valuation τ sig (Elt F) := fun c => StableHlo.after hostOps5 (W8 m ρ c)
/-- The same read at the TensorCore's references. -/
abbrev U9 : (c : Dev nD) → (b : Ref sig .tc) → Buf (Elt F) ((c : Thread nD τ).loc b) := fun c b => W9 m ρ c b

/-- At region 5's exit: its arrays at what the pipeline leaves, every other buffer as entered. -/
def W10 (c : Dev nD) : Valuation τ sig (Elt F) :=
  Pipeline.withArrays spec5 c (W9 m ρ c) fun w => (dat5 (U9 m ρ) c).arrAt w cfg5.N
theorem W10_arr (c : Dev nD) (w : Fin cfg5.W) :
    W10 m ρ c (Proc.devRef .tc (Pipeline.arrRef spec5 w)) = (dat5 (U9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
/-- The same read at the TensorCore's references. -/
abbrev U10 : (c : Dev nD) → (b : Ref sig .tc) → Buf (Elt F) ((c : Thread nD τ).loc b) := fun c b => W10 m ρ c b
theorem hF5 (c : Dev nD) (w : Fin cfg5.W) : (dat5 (U9 m ρ) c).arrAt w cfg5.N = U10 m ρ c (Pipeline.arrRef spec5 w) :=
  (W10_arr m ρ c w).symm
theorem hrest5 (c : Dev nD) : ∀ b, b ∉ Finset.univ.image (Pipeline.arrRef spec5) → U10 m ρ c b = U9 m ρ c b :=
  fun b hb => W10_of_ne m ρ c b fun w e => hb (Finset.mem_image.mpr ⟨w, Finset.mem_univ _, e⟩)
/-- Region 5 changes no buffer but its output array: an input window's array ends as entered, and so does a buffer no window stages. -/
theorem keep5 (c : Dev nD) (b : Ref sig .tc) (hb : Pipeline.arrRef spec5 4 ≠ b) :
    W10 m ρ c (Proc.devRef .tc b) = W9 m ρ c (Proc.devRef .tc b) := by
  by_cases h : ∀ w, Pipeline.arrRef spec5 w ≠ b
  · exact W10_of_ne m ρ c b h
  · obtain ⟨w, hw⟩ := not_forall.mp h
    obtain rfl := not_not.mp hw
    match w with
    | ⟨0, _⟩ => exact (W10_arr m ρ c 0).trans (((dat5 (U9 m ρ) c).arrAt_in 0 rfl _).trans (A_eq5 (U9 m ρ) c 0))
    | ⟨1, _⟩ => exact (W10_arr m ρ c 1).trans (((dat5 (U9 m ρ) c).arrAt_in 1 rfl _).trans (A_eq5 (U9 m ρ) c 1))
    | ⟨2, _⟩ => exact (W10_arr m ρ c 2).trans (((dat5 (U9 m ρ) c).arrAt_in 2 rfl _).trans (A_eq5 (U9 m ρ) c 2))
    | ⟨3, _⟩ => exact (W10_arr m ρ c 3).trans (((dat5 (U9 m ρ) c).arrAt_in 3 rfl _).trans (A_eq5 (U9 m ρ) c 3))
    | ⟨4, _⟩ => exact absurd rfl hb
    | ⟨n + 5, hn⟩ => exact absurd hn (Nat.not_lt.2 (Nat.le_add_left _ _))

/-- After the host stretch hostOps6. -/
abbrev W11 : Dev nD → Valuation τ sig (Elt F) := fun c => StableHlo.after hostOps6 (W10 m ρ c)
/-- The same read at the TensorCore's references. -/
abbrev U11 : (c : Dev nD) → (b : Ref sig .tc) → Buf (Elt F) ((c : Thread nD τ).loc b) := fun c b => W11 m ρ c b

/-! ## A host stretch leaves a buffer it does not write as it was -/

theorem host0_keep (c : Dev nD) (r : Ref sig .tc) (hr : r ∉ hostOps0_W) : W1 m ρ c (Proc.devRef .tc r) = W0 m ρ c (Proc.devRef .tc r) :=
  StableHlo.after_of_writes_sub hostOps0 _ hostOps0_writes hr
theorem host1_keep (c : Dev nD) (r : Ref sig .tc) (hr : r ∉ hostOps1_W) : W3 m ρ c (Proc.devRef .tc r) = W2 m ρ c (Proc.devRef .tc r) :=
  StableHlo.after_of_writes_sub hostOps1 _ hostOps1_writes hr
theorem host3_keep (c : Dev nD) (r : Ref sig .tc) (hr : r ∉ hostOps3_W) : W6 m ρ c (Proc.devRef .tc r) = W5 m ρ c (Proc.devRef .tc r) :=
  StableHlo.after_of_writes_sub hostOps3 _ hostOps3_writes hr
theorem host5_keep (c : Dev nD) (r : Ref sig .tc) (hr : r ∉ hostOps5_W) : W9 m ρ c (Proc.devRef .tc r) = W8 m ρ c (Proc.devRef .tc r) :=
  StableHlo.after_of_writes_sub hostOps5 _ hostOps5_writes hr
theorem host6_keep (c : Dev nD) (r : Ref sig .tc) (hr : r ∉ hostOps6_W) : W11 m ρ c (Proc.devRef .tc r) = W10 m ρ c (Proc.devRef .tc r) :=
  StableHlo.after_of_writes_sub hostOps6 _ hostOps6_writes hr

/-! ## The arguments end as launched -/

theorem W11_main_arg0 (c : Dev nD) : W11 m ρ c (Proc.devRef .tc main_arg0) = m ((c : Thread nD τ).loc main_arg0) :=
  (host6_keep m ρ c main_arg0 (by decide)).trans <| (keep5 m ρ c main_arg0 (by decide)).trans <| (host5_keep m ρ c main_arg0 (by decide)).trans <|
  (keep4 m ρ c main_arg0 (by decide)).trans <| (keep3 m ρ c main_arg0 (by decide)).trans <| (host3_keep m ρ c main_arg0 (by decide)).trans <|
  (keep2 m ρ c main_arg0 (by decide)).trans <| (keep1 m ρ c main_arg0 (by decide)).trans <| (host1_keep m ρ c main_arg0 (by decide)).trans <|
  (keep0 m ρ c main_arg0 (by decide)).trans <| (host0_keep m ρ c main_arg0 (by decide)).trans rfl
theorem W11_main_arg1 (c : Dev nD) : W11 m ρ c (Proc.devRef .tc main_arg1) = m ((c : Thread nD τ).loc main_arg1) :=
  (host6_keep m ρ c main_arg1 (by decide)).trans <| (keep5 m ρ c main_arg1 (by decide)).trans <| (host5_keep m ρ c main_arg1 (by decide)).trans <|
  (keep4 m ρ c main_arg1 (by decide)).trans <| (keep3 m ρ c main_arg1 (by decide)).trans <| (host3_keep m ρ c main_arg1 (by decide)).trans <|
  (keep2 m ρ c main_arg1 (by decide)).trans <| (keep1 m ρ c main_arg1 (by decide)).trans <| (host1_keep m ρ c main_arg1 (by decide)).trans <|
  (keep0 m ρ c main_arg1 (by decide)).trans <| (host0_keep m ρ c main_arg1 (by decide)).trans rfl
theorem W11_main_arg2 (c : Dev nD) : W11 m ρ c (Proc.devRef .tc main_arg2) = m ((c : Thread nD τ).loc main_arg2) :=
  (host6_keep m ρ c main_arg2 (by decide)).trans <| (keep5 m ρ c main_arg2 (by decide)).trans <| (host5_keep m ρ c main_arg2 (by decide)).trans <|
  (keep4 m ρ c main_arg2 (by decide)).trans <| (keep3 m ρ c main_arg2 (by decide)).trans <| (host3_keep m ρ c main_arg2 (by decide)).trans <|
  (keep2 m ρ c main_arg2 (by decide)).trans <| (keep1 m ρ c main_arg2 (by decide)).trans <| (host1_keep m ρ c main_arg2 (by decide)).trans <|
  (keep0 m ρ c main_arg2 (by decide)).trans <| (host0_keep m ρ c main_arg2 (by decide)).trans rfl
theorem W11_main_arg3 (c : Dev nD) : W11 m ρ c (Proc.devRef .tc main_arg3) = m ((c : Thread nD τ).loc main_arg3) :=
  (host6_keep m ρ c main_arg3 (by decide)).trans <| (keep5 m ρ c main_arg3 (by decide)).trans <| (host5_keep m ρ c main_arg3 (by decide)).trans <|
  (keep4 m ρ c main_arg3 (by decide)).trans <| (keep3 m ρ c main_arg3 (by decide)).trans <| (host3_keep m ρ c main_arg3 (by decide)).trans <|
  (keep2 m ρ c main_arg3 (by decide)).trans <| (keep1 m ρ c main_arg3 (by decide)).trans <| (host1_keep m ρ c main_arg3 (by decide)).trans <|
  (keep0 m ρ c main_arg3 (by decide)).trans <| (host0_keep m ρ c main_arg3 (by decide)).trans rfl
theorem W11_main_arg4 (c : Dev nD) : W11 m ρ c (Proc.devRef .tc main_arg4) = m ((c : Thread nD τ).loc main_arg4) :=
  (host6_keep m ρ c main_arg4 (by decide)).trans <| (keep5 m ρ c main_arg4 (by decide)).trans <| (host5_keep m ρ c main_arg4 (by decide)).trans <|
  (keep4 m ρ c main_arg4 (by decide)).trans <| (keep3 m ρ c main_arg4 (by decide)).trans <| (host3_keep m ρ c main_arg4 (by decide)).trans <|
  (keep2 m ρ c main_arg4 (by decide)).trans <| (keep1 m ρ c main_arg4 (by decide)).trans <| (host1_keep m ρ c main_arg4 (by decide)).trans <|
  (keep0 m ρ c main_arg4 (by decide)).trans <| (host0_keep m ρ c main_arg4 (by decide)).trans rfl
theorem W11_main_arg5 (c : Dev nD) : W11 m ρ c (Proc.devRef .tc main_arg5) = m ((c : Thread nD τ).loc main_arg5) :=
  (host6_keep m ρ c main_arg5 (by decide)).trans <| (keep5 m ρ c main_arg5 (by decide)).trans <| (host5_keep m ρ c main_arg5 (by decide)).trans <|
  (keep4 m ρ c main_arg5 (by decide)).trans <| (keep3 m ρ c main_arg5 (by decide)).trans <| (host3_keep m ρ c main_arg5 (by decide)).trans <|
  (keep2 m ρ c main_arg5 (by decide)).trans <| (keep1 m ρ c main_arg5 (by decide)).trans <| (host1_keep m ρ c main_arg5 (by decide)).trans <|
  (keep0 m ρ c main_arg5 (by decide)).trans <| (host0_keep m ρ c main_arg5 (by decide)).trans rfl
theorem W11_main_arg6 (c : Dev nD) : W11 m ρ c (Proc.devRef .tc main_arg6) = m ((c : Thread nD τ).loc main_arg6) :=
  (host6_keep m ρ c main_arg6 (by decide)).trans <| (keep5 m ρ c main_arg6 (by decide)).trans <| (host5_keep m ρ c main_arg6 (by decide)).trans <|
  (keep4 m ρ c main_arg6 (by decide)).trans <| (keep3 m ρ c main_arg6 (by decide)).trans <| (host3_keep m ρ c main_arg6 (by decide)).trans <|
  (keep2 m ρ c main_arg6 (by decide)).trans <| (keep1 m ρ c main_arg6 (by decide)).trans <| (host1_keep m ρ c main_arg6 (by decide)).trans <|
  (keep0 m ρ c main_arg6 (by decide)).trans <| (host0_keep m ρ c main_arg6 (by decide)).trans rfl
theorem W11_main_arg7 (c : Dev nD) : W11 m ρ c (Proc.devRef .tc main_arg7) = m ((c : Thread nD τ).loc main_arg7) :=
  (host6_keep m ρ c main_arg7 (by decide)).trans <| (keep5 m ρ c main_arg7 (by decide)).trans <| (host5_keep m ρ c main_arg7 (by decide)).trans <|
  (keep4 m ρ c main_arg7 (by decide)).trans <| (keep3 m ρ c main_arg7 (by decide)).trans <| (host3_keep m ρ c main_arg7 (by decide)).trans <|
  (keep2 m ρ c main_arg7 (by decide)).trans <| (keep1 m ρ c main_arg7 (by decide)).trans <| (host1_keep m ρ c main_arg7 (by decide)).trans <|
  (keep0 m ρ c main_arg7 (by decide)).trans <| (host0_keep m ρ c main_arg7 (by decide)).trans rfl

/-! ## The proof data family and the thread state -/

/-- Every pipeline's proof data, each at its region's entry contents. -/
def fpdats : (p : Fin 6) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U3 m ρ) c
  | ⟨2, _⟩ => fun c => dat2 (U4 m ρ) c
  | ⟨3, _⟩ => fun c => dat3 (U6 m ρ) c
  | ⟨4, _⟩ => fun c => dat4 (U7 m ρ) c
  | ⟨5, _⟩ => fun c => dat5 (U9 m ρ) c
abbrev 𝒱₀ : Variants := Variants.none
/-- No core owes another anything. -/
abbrev fL : GSem nD τ sig → Finset Unit := fun _ => ∅
abbrev flv : GSem nD τ sig → Unit → ℕ := fun _ _ => 0
/-- What rides beside the buffers through every segment: the core's generator register at some state and nothing owed. -/
abbrev Rr (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ fL flv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator register at some state. -/
abbrev Tn (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered from every unscoped buffer at `W1`, left at `W2`. -/
def freg0 : Pipeline.RegionSeg (pcfgs (F := F)) adm (fpdats m ρ) () defs₀ 𝒱₀ fL flv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ fL flv 0 fun _ _ => rfl
  pre c := iprop(StableHlo.held (c : Thread nD τ) (Pipeline.ucRefs τ sig) (W1 m ρ c) ∗ Rr c)
  post c := iprop(StableHlo.held (c : Thread nD τ) (Pipeline.ucRefs τ sig) (W2 m ρ c) ∗ Rr c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (fpdats m ρ) launch0.win launch0.arr_whole c
      ((fpdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fpdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (fpdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (fpdats m ρ) ((fpdats m ρ 0 c).share_full fun _ => rfl)
      (U1 m ρ c) (U2 m ρ c) ((fpdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def freg1 : Pipeline.RegionSeg (pcfgs (F := F)) adm (fpdats m ρ) () defs₀ 𝒱₀ fL flv 1 where
  win := launch1.win.to₀
  block_pos := launch1.block_pos
  stage_whole := launch1.stage_whole
  K := PEmpty
  osem k := k.elim
  ho := Pipeline.OwnSemFacts.none _
  hbody c := (body_obligation1 (U3 m ρ) c).loose
  hwaits := Pipeline.hwaits_of_owed_zero _ _ _ _ fL flv 1 fun _ _ => rfl
  pre c := iprop(StableHlo.held (c : Thread nD τ) (Pipeline.ucRefs τ sig) (W3 m ρ c) ∗ Rr c)
  post c := iprop(StableHlo.held (c : Thread nD τ) (Pipeline.ucRefs τ sig) (W4 m ρ c) ∗ Rr c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hsplit := Pipeline.arrays_of_unscopedBufs (p := 1) (pcfgs (F := F)) adm (fpdats m ρ) launch1.win launch1.arr_whole c
      ((fpdats m ρ 1 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fpdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (fpdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (fpdats m ρ) ((fpdats m ρ 1 c).share_full fun _ => rfl)
      (U3 m ρ c) (U4 m ρ c) ((fpdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W4`, left at `W5`. -/
def freg2 : Pipeline.RegionSeg (pcfgs (F := F)) adm (fpdats m ρ) () defs₀ 𝒱₀ fL flv 2 where
  win := launch2.win.to₀
  block_pos := launch2.block_pos
  stage_whole := launch2.stage_whole
  K := PEmpty
  osem k := k.elim
  ho := Pipeline.OwnSemFacts.none _
  hbody c := (body_obligation2 (U4 m ρ) c).loose
  hwaits := Pipeline.hwaits_of_owed_zero _ _ _ _ fL flv 2 fun _ _ => rfl
  pre c := iprop(StableHlo.held (c : Thread nD τ) (Pipeline.ucRefs τ sig) (W4 m ρ c) ∗ Rr c)
  post c := iprop(StableHlo.held (c : Thread nD τ) (Pipeline.ucRefs τ sig) (W5 m ρ c) ∗ Rr c)
  X c := iprop(∃ r, prngReg c r)
  Y c := iprop(∃ r, prngReg c r)
  Z c := Pipeline.unscopedRest (Ix := Unit) (Name := ℕ) (U := UR sig nD τ) (Lvl := ℕ) spec2 c (U4 m ρ c)
  hentry c := by
    rw [Pipeline.ownSems0_none]
    have hsplit := Pipeline.arrays_of_unscopedBufs (p := 2) (pcfgs (F := F)) adm (fpdats m ρ) launch2.win launch2.arr_whole c
      ((fpdats m ρ 2 c).share_full fun _ => rfl) (U4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fpdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (fpdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (fpdats m ρ) ((fpdats m ρ 2 c).share_full fun _ => rfl)
      (U4 m ρ c) (U5 m ρ c) ((fpdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W6`, left at `W7`. -/
def freg3 : Pipeline.RegionSeg (pcfgs (F := F)) adm (fpdats m ρ) () defs₀ 𝒱₀ fL flv 3 where
  win := launch3.win.to₀
  block_pos := launch3.block_pos
  stage_whole := launch3.stage_whole
  K := PEmpty
  osem k := k.elim
  ho := Pipeline.OwnSemFacts.none _
  hbody c := (body_obligation3 (U6 m ρ) c).loose
  hwaits := Pipeline.hwaits_of_owed_zero _ _ _ _ fL flv 3 fun _ _ => rfl
  pre c := iprop(StableHlo.held (c : Thread nD τ) (Pipeline.ucRefs τ sig) (W6 m ρ c) ∗ Rr c)
  post c := iprop(StableHlo.held (c : Thread nD τ) (Pipeline.ucRefs τ sig) (W7 m ρ c) ∗ Rr c)
  X c := iprop(∃ r, prngReg c r)
  Y c := iprop(∃ r, prngReg c r)
  Z c := Pipeline.unscopedRest (Ix := Unit) (Name := ℕ) (U := UR sig nD τ) (Lvl := ℕ) spec3 c (U6 m ρ c)
  hentry c := by
    rw [Pipeline.ownSems0_none]
    have hsplit := Pipeline.arrays_of_unscopedBufs (p := 3) (pcfgs (F := F)) adm (fpdats m ρ) launch3.win launch3.arr_whole c
      ((fpdats m ρ 3 c).share_full fun _ => rfl) (U6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fpdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (fpdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (fpdats m ρ) ((fpdats m ρ 3 c).share_full fun _ => rfl)
      (U6 m ρ c) (U7 m ρ c) ((fpdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W7`, left at `W8`. -/
def freg4 : Pipeline.RegionSeg (pcfgs (F := F)) adm (fpdats m ρ) () defs₀ 𝒱₀ fL flv 4 where
  win := launch4.win.to₀
  block_pos := launch4.block_pos
  stage_whole := launch4.stage_whole
  K := PEmpty
  osem k := k.elim
  ho := Pipeline.OwnSemFacts.none _
  hbody c := (body_obligation4 (U7 m ρ) c).loose
  hwaits := Pipeline.hwaits_of_owed_zero _ _ _ _ fL flv 4 fun _ _ => rfl
  pre c := iprop(StableHlo.held (c : Thread nD τ) (Pipeline.ucRefs τ sig) (W7 m ρ c) ∗ Rr c)
  post c := iprop(StableHlo.held (c : Thread nD τ) (Pipeline.ucRefs τ sig) (W8 m ρ c) ∗ Rr c)
  X c := iprop(∃ r, prngReg c r)
  Y c := iprop(∃ r, prngReg c r)
  Z c := Pipeline.unscopedRest (Ix := Unit) (Name := ℕ) (U := UR sig nD τ) (Lvl := ℕ) spec4 c (U7 m ρ c)
  hentry c := by
    rw [Pipeline.ownSems0_none]
    have hsplit := Pipeline.arrays_of_unscopedBufs (p := 4) (pcfgs (F := F)) adm (fpdats m ρ) launch4.win launch4.arr_whole c
      ((fpdats m ρ 4 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fpdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (fpdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (fpdats m ρ) ((fpdats m ρ 4 c).share_full fun _ => rfl)
      (U7 m ρ c) (U8 m ρ c) ((fpdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W9`, left at `W10`. -/
def freg5 : Pipeline.RegionSeg (pcfgs (F := F)) adm (fpdats m ρ) () defs₀ 𝒱₀ fL flv 5 where
  win := launch5.win.to₀
  block_pos := launch5.block_pos
  stage_whole := launch5.stage_whole
  K := PEmpty
  osem k := k.elim
  ho := Pipeline.OwnSemFacts.none _
  hbody c := (body_obligation5 (U9 m ρ) c).loose
  hwaits := Pipeline.hwaits_of_owed_zero _ _ _ _ fL flv 5 fun _ _ => rfl
  pre c := iprop(StableHlo.held (c : Thread nD τ) (Pipeline.ucRefs τ sig) (W9 m ρ c) ∗ Rr c)
  post c := iprop(StableHlo.held (c : Thread nD τ) (Pipeline.ucRefs τ sig) (W10 m ρ c) ∗ Rr c)
  X c := iprop(∃ r, prngReg c r)
  Y c := iprop(∃ r, prngReg c r)
  Z c := Pipeline.unscopedRest (Ix := Unit) (Name := ℕ) (U := UR sig nD τ) (Lvl := ℕ) spec5 c (U9 m ρ c)
  hentry c := by
    rw [Pipeline.ownSems0_none]
    have hsplit := Pipeline.arrays_of_unscopedBufs (p := 5) (pcfgs (F := F)) adm (fpdats m ρ) launch5.win launch5.arr_whole c
      ((fpdats m ρ 5 c).share_full fun _ => rfl) (U9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (fpdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (fpdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (fpdats m ρ) ((fpdats m ρ 5 c).share_full fun _ => rfl)
      (U9 m ρ c) (U10 m ρ c) ((fpdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev fsegs : List (Pipeline.Seg (pcfgs (F := F)) adm (fpdats m ρ) () defs₀ 𝒱₀ fL flv) :=
  [ .host (hseg hostOps0 hostOps0_sub hostOps0_fresh (W0 m ρ)),
    .region (freg0 m ρ),
    .host (hseg hostOps1 hostOps1_sub hostOps1_fresh (W2 m ρ)),
    .region (freg1 m ρ),
    .region (freg2 m ρ),
    .host (hseg hostOps3 hostOps3_sub hostOps3_fresh (W5 m ρ)),
    .region (freg3 m ρ),
    .region (freg4 m ρ),
    .host (hseg hostOps5 hostOps5_sub hostOps5_fresh (W8 m ρ)),
    .region (freg5 m ρ),
    .host (hseg hostOps6 hostOps6_sub hostOps6_fresh (W10 m ρ)) ]

/-- The program is the run of its segments. -/
theorem main_run (c : Dev nD) : main (F := F) c = Pipeline.Seg.run (fsegs m ρ) := (main_chain c).trans (by chain_rfl)

set_option backward.isDefEq.respectTransparency.types false in
/-- Every weakly fair execution of the program from memory `m` with zero counters terminates, nothing faulting, and every
    final state holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (fpdats m ρ) () cellOf_inj emb₁ defs₀ 𝒱₀ fL flv m ρ main (fsegs m ρ)
    (fun c Q => by rw [main_run m ρ c])
    (by simp only [fsegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rr c)) (Tₙ := Tn m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m ρ c) ∗ Rr c)
          ⊢ iprop(Tn m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach fL flv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
    (h c _ (mem_uc main_arg0 (by decide))).trans (W11_main_arg0 m ρ c),
    (h c _ (mem_uc main_arg1 (by decide))).trans (W11_main_arg1 m ρ c),
    (h c _ (mem_uc main_arg2 (by decide))).trans (W11_main_arg2 m ρ c),
    (h c _ (mem_uc main_arg3 (by decide))).trans (W11_main_arg3 m ρ c),
    (h c _ (mem_uc main_arg4 (by decide))).trans (W11_main_arg4 m ρ c),
    (h c _ (mem_uc main_arg5 (by decide))).trans (W11_main_arg5 m ρ c),
    (h c _ (mem_uc main_arg6 (by decide))).trans (W11_main_arg6 m ρ c),
    (h c _ (mem_uc main_arg7 (by decide))).trans (W11_main_arg7 m ρ c)⟩) (run_all m ρ)

end Cert.KernelIdeal.Fr

end
-- ==== Proof.KI.Chain.lean ====
/-
  What the host stretches of the kernel program leave, read at the buffers the regions and the later stretches take.
  The two rows of the edge list and the degree normaliser are the same operations of the edge list as the reference
  applies, so they are the reference's own stages of that argument; no later segment writes them, nor an argument, so
  they are read unchanged at every later boundary. Each layer's aggregate is the segment sum, over the wrapped target
  column, of the rows of the region's output gathered at the wrapped source column; each bias is laid as a row; the
  result is the three layers' outputs side by side.
-/
import proofs.«122759_j29180007809406_2_alg».proof.Proof.KI.Run
import proofs.«122759_j29180007809406_2_alg».proof.Proof.Gen.ReferenceIdeal.Read
import Idealize.ShloMosaic.Lib.StableHlo.Run
import Idealize.ShloMosaic.Lib.ValueLayout

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.Sem
open Cert.ReferenceIdeal.Read

variable (m : (ℓ : Loc nD τ sig) → Buf (Elt Ideal) ℓ) (ρ : Dev nD → PrngReg)

set_option maxHeartbeats 8000000 in
/-- The normaliser column after the first host stretch: the reference's normaliser of the same edge list, as a column. -/
theorem dis_col (c : Dev nD) : W1 m ρ c (Proc.devRef .tc main_v16)
    = shapeCast S100000x1 (val_main_v15 (F := Ideal) (m ((c : Thread nD τ).loc main_arg1))) shapeCasts_S100000_S100000x1 := by
  show StableHlo.after hostOps0 (W0 m ρ c) (Proc.devRef .tc main_v16) = _
  after_results_simp
  rfl

set_option maxHeartbeats 8000000 in
/-- The source row of the edge list. -/
theorem src_vec (c : Dev nD) : W1 m ρ c (Proc.devRef .tc main_v1)
    = val_main_v1 (F := Ideal) (m ((c : Thread nD τ).loc main_arg1)) := by
  show StableHlo.after hostOps0 (W0 m ρ c) (Proc.devRef .tc main_v1) = _
  after_results_simp
  rfl

set_option maxHeartbeats 8000000 in
/-- The target row of the edge list. -/
theorem dst_vec (c : Dev nD) : W1 m ρ c (Proc.devRef .tc main_v3)
    = val_main_v3 (F := Ideal) (m ((c : Thread nD τ).loc main_arg1)) := by
  show StableHlo.after hostOps0 (W0 m ρ c) (Proc.devRef .tc main_v3) = _
  after_results_simp
  rfl

theorem src_at2 (c : Dev nD) : W2 m ρ c (Proc.devRef .tc main_v1) = val_main_v1 (F := Ideal) (m ((c : Thread nD τ).loc main_arg1)) :=
  (keep0 m ρ c main_v1 (by decide)).trans <| src_vec m ρ c
theorem dst_at2 (c : Dev nD) : W2 m ρ c (Proc.devRef .tc main_v3) = val_main_v3 (F := Ideal) (m ((c : Thread nD τ).loc main_arg1)) :=
  (keep0 m ρ c main_v3 (by decide)).trans <| dst_vec m ρ c
theorem src_at5 (c : Dev nD) : W5 m ρ c (Proc.devRef .tc main_v1) = val_main_v1 (F := Ideal) (m ((c : Thread nD τ).loc main_arg1)) :=
  (keep2 m ρ c main_v1 (by decide)).trans <| (keep1 m ρ c main_v1 (by decide)).trans <| (host1_keep m ρ c main_v1 (by decide)).trans <| (keep0 m ρ c main_v1 (by decide)).trans <| src_vec m ρ c
theorem dst_at5 (c : Dev nD) : W5 m ρ c (Proc.devRef .tc main_v3) = val_main_v3 (F := Ideal) (m ((c : Thread nD τ).loc main_arg1)) :=
  (keep2 m ρ c main_v3 (by decide)).trans <| (keep1 m ρ c main_v3 (by decide)).trans <| (host1_keep m ρ c main_v3 (by decide)).trans <| (keep0 m ρ c main_v3 (by decide)).trans <| dst_vec m ρ c
theorem src_at8 (c : Dev nD) : W8 m ρ c (Proc.devRef .tc main_v1) = val_main_v1 (F := Ideal) (m ((c : Thread nD τ).loc main_arg1)) :=
  (keep4 m ρ c main_v1 (by decide)).trans <| (keep3 m ρ c main_v1 (by decide)).trans <| (host3_keep m ρ c main_v1 (by decide)).trans <| (keep2 m ρ c main_v1 (by decide)).trans <| (keep1 m ρ c main_v1 (by decide)).trans <| (host1_keep m ρ c main_v1 (by decide)).trans <| (keep0 m ρ c main_v1 (by decide)).trans <| src_vec m ρ c
theorem dst_at8 (c : Dev nD) : W8 m ρ c (Proc.devRef .tc main_v3) = val_main_v3 (F := Ideal) (m ((c : Thread nD τ).loc main_arg1)) :=
  (keep4 m ρ c main_v3 (by decide)).trans <| (keep3 m ρ c main_v3 (by decide)).trans <| (host3_keep m ρ c main_v3 (by decide)).trans <| (keep2 m ρ c main_v3 (by decide)).trans <| (keep1 m ρ c main_v3 (by decide)).trans <| (host1_keep m ρ c main_v3 (by decide)).trans <| (keep0 m ρ c main_v3 (by decide)).trans <| dst_vec m ρ c
theorem dis_at3 (c : Dev nD) : W3 m ρ c (Proc.devRef .tc main_v16)
    = shapeCast S100000x1 (val_main_v15 (F := Ideal) (m ((c : Thread nD τ).loc main_arg1))) shapeCasts_S100000_S100000x1 :=
  (host1_keep m ρ c main_v16 (by decide)).trans <| (keep0 m ρ c main_v16 (by decide)).trans <| dis_col m ρ c
theorem dis_at4 (c : Dev nD) : W4 m ρ c (Proc.devRef .tc main_v16)
    = shapeCast S100000x1 (val_main_v15 (F := Ideal) (m ((c : Thread nD τ).loc main_arg1))) shapeCasts_S100000_S100000x1 :=
  (keep1 m ρ c main_v16 (by decide)).trans <| (host1_keep m ρ c main_v16 (by decide)).trans <| (keep0 m ρ c main_v16 (by decide)).trans <| dis_col m ρ c
theorem dis_at6 (c : Dev nD) : W6 m ρ c (Proc.devRef .tc main_v16)
    = shapeCast S100000x1 (val_main_v15 (F := Ideal) (m ((c : Thread nD τ).loc main_arg1))) shapeCasts_S100000_S100000x1 :=
  (host3_keep m ρ c main_v16 (by decide)).trans <| (keep2 m ρ c main_v16 (by decide)).trans <| (keep1 m ρ c main_v16 (by decide)).trans <| (host1_keep m ρ c main_v16 (by decide)).trans <| (keep0 m ρ c main_v16 (by decide)).trans <| dis_col m ρ c
theorem dis_at7 (c : Dev nD) : W7 m ρ c (Proc.devRef .tc main_v16)
    = shapeCast S100000x1 (val_main_v15 (F := Ideal) (m ((c : Thread nD τ).loc main_arg1))) shapeCasts_S100000_S100000x1 :=
  (keep3 m ρ c main_v16 (by decide)).trans <| (host3_keep m ρ c main_v16 (by decide)).trans <| (keep2 m ρ c main_v16 (by decide)).trans <| (keep1 m ρ c main_v16 (by decide)).trans <| (host1_keep m ρ c main_v16 (by decide)).trans <| (keep0 m ρ c main_v16 (by decide)).trans <| dis_col m ρ c
theorem dis_at9 (c : Dev nD) : W9 m ρ c (Proc.devRef .tc main_v16)
    = shapeCast S100000x1 (val_main_v15 (F := Ideal) (m ((c : Thread nD τ).loc main_arg1))) shapeCasts_S100000_S100000x1 :=
  (host5_keep m ρ c main_v16 (by decide)).trans <| (keep4 m ρ c main_v16 (by decide)).trans <| (keep3 m ρ c main_v16 (by decide)).trans <| (host3_keep m ρ c main_v16 (by decide)).trans <| (keep2 m ρ c main_v16 (by decide)).trans <| (keep1 m ρ c main_v16 (by decide)).trans <| (host1_keep m ρ c main_v16 (by decide)).trans <| (keep0 m ρ c main_v16 (by decide)).trans <| dis_col m ρ c
theorem arg0_at1 (c : Dev nD) : W1 m ρ c (Proc.devRef .tc main_arg0) = (m ((c : Thread nD τ).loc main_arg0)) :=
  (host0_keep m ρ c main_arg0 (by decide)).trans rfl
theorem arg2_at1 (c : Dev nD) : W1 m ρ c (Proc.devRef .tc main_arg2) = (m ((c : Thread nD τ).loc main_arg2)) :=
  (host0_keep m ρ c main_arg2 (by decide)).trans rfl
theorem arg3_at2 (c : Dev nD) : W2 m ρ c (Proc.devRef .tc main_arg3) = (m ((c : Thread nD τ).loc main_arg3)) :=
  (keep0 m ρ c main_arg3 (by decide)).trans <| (host0_keep m ρ c main_arg3 (by decide)).trans rfl
theorem arg4_at4 (c : Dev nD) : W4 m ρ c (Proc.devRef .tc main_arg4) = (m ((c : Thread nD τ).loc main_arg4)) :=
  (keep1 m ρ c main_arg4 (by decide)).trans <| (host1_keep m ρ c main_arg4 (by decide)).trans <| (keep0 m ρ c main_arg4 (by decide)).trans <| (host0_keep m ρ c main_arg4 (by decide)).trans rfl
theorem arg5_at5 (c : Dev nD) : W5 m ρ c (Proc.devRef .tc main_arg5) = (m ((c : Thread nD τ).loc main_arg5)) :=
  (keep2 m ρ c main_arg5 (by decide)).trans <| (keep1 m ρ c main_arg5 (by decide)).trans <| (host1_keep m ρ c main_arg5 (by decide)).trans <| (keep0 m ρ c main_arg5 (by decide)).trans <| (host0_keep m ρ c main_arg5 (by decide)).trans rfl
theorem arg6_at7 (c : Dev nD) : W7 m ρ c (Proc.devRef .tc main_arg6) = (m ((c : Thread nD τ).loc main_arg6)) :=
  (keep3 m ρ c main_arg6 (by decide)).trans <| (host3_keep m ρ c main_arg6 (by decide)).trans <| (keep2 m ρ c main_arg6 (by decide)).trans <| (keep1 m ρ c main_arg6 (by decide)).trans <| (host1_keep m ρ c main_arg6 (by decide)).trans <| (keep0 m ρ c main_arg6 (by decide)).trans <| (host0_keep m ρ c main_arg6 (by decide)).trans rfl
theorem arg7_at8 (c : Dev nD) : W8 m ρ c (Proc.devRef .tc main_arg7) = (m ((c : Thread nD τ).loc main_arg7)) :=
  (keep4 m ρ c main_arg7 (by decide)).trans <| (keep3 m ρ c main_arg7 (by decide)).trans <| (host3_keep m ρ c main_arg7 (by decide)).trans <| (keep2 m ρ c main_arg7 (by decide)).trans <| (keep1 m ρ c main_arg7 (by decide)).trans <| (host1_keep m ρ c main_arg7 (by decide)).trans <| (keep0 m ρ c main_arg7 (by decide)).trans <| (host0_keep m ρ c main_arg7 (by decide)).trans rfl

set_option maxHeartbeats 8000000 in
/-- The aggregate of a layer: the rows of the projected, scaled features gathered at the source column and summed onto the target column. -/
theorem agg1 (c : Dev nD) : W3 m ρ c (Proc.devRef .tc main_v32)
    = Host.scatterAdd (F := Ideal) scatter_S100000x64_S1600000x1_S1600000x64_1_0_0_1 (broadcastInDim S100000x64 ![] bcast_S_S100000x64 (constant (F := Ideal) S_ .f32 0x00000000#32)) (val_main_v48 (F := Ideal) (m ((c : Thread nD τ).loc main_arg1)))
        (Host.gather gather_S100000x64_S1600000x1_S1600000x64_1_0_n_n_0_1_164 (W2 m ρ c (Proc.devRef .tc main_v17)) (val_main_v38 (F := Ideal) (m ((c : Thread nD τ).loc main_arg1)))) := by
  show StableHlo.after hostOps1 (W2 m ρ c) (Proc.devRef .tc main_v32) = _
  after_results_simp
  rw [src_at2 m ρ c, dst_at2 m ρ c]
  rfl

set_option maxHeartbeats 8000000 in
/-- The first bias laid as a row. -/
theorem bias1 (c : Dev nD) : W3 m ρ c (Proc.devRef .tc main_v33)
    = shapeCast S1x64 (m ((c : Thread nD τ).loc main_arg3)) shapeCasts_S64_S1x64 := by
  show StableHlo.after hostOps1 (W2 m ρ c) (Proc.devRef .tc main_v33) = _
  after_results_simp
  rw [arg3_at2 m ρ c]
  rfl

set_option maxHeartbeats 8000000 in
/-- The aggregate of a layer: the rows of the projected, scaled features gathered at the source column and summed onto the target column. -/
theorem agg2 (c : Dev nD) : W6 m ρ c (Proc.devRef .tc main_v50)
    = Host.scatterAdd (F := Ideal) scatter_S100000x64_S1600000x1_S1600000x64_1_0_0_1 (broadcastInDim S100000x64 ![] bcast_S_S100000x64 (constant (F := Ideal) S_ .f32 0x00000000#32)) (val_main_v48 (F := Ideal) (m ((c : Thread nD τ).loc main_arg1)))
        (Host.gather gather_S100000x64_S1600000x1_S1600000x64_1_0_n_n_0_1_164 (W5 m ρ c (Proc.devRef .tc main_v35)) (val_main_v38 (F := Ideal) (m ((c : Thread nD τ).loc main_arg1)))) := by
  show StableHlo.after hostOps3 (W5 m ρ c) (Proc.devRef .tc main_v50) = _
  after_results_simp
  rw [src_at5 m ρ c, dst_at5 m ρ c]
  rfl

set_option maxHeartbeats 8000000 in
/-- The second bias laid as a row. -/
theorem bias2 (c : Dev nD) : W6 m ρ c (Proc.devRef .tc main_v51)
    = shapeCast S1x64 (m ((c : Thread nD τ).loc main_arg5)) shapeCasts_S64_S1x64 := by
  show StableHlo.after hostOps3 (W5 m ρ c) (Proc.devRef .tc main_v51) = _
  after_results_simp
  rw [arg5_at5 m ρ c]
  rfl

set_option maxHeartbeats 8000000 in
/-- The aggregate of a layer: the rows of the projected, scaled features gathered at the source column and summed onto the target column. -/
theorem agg3 (c : Dev nD) : W9 m ρ c (Proc.devRef .tc main_v68)
    = Host.scatterAdd (F := Ideal) scatter_S100000x32_S1600000x1_S1600000x32_1_0_0_1 (broadcastInDim S100000x32 ![] bcast_S_S100000x32 (constant (F := Ideal) S_ .f32 0x00000000#32)) (val_main_v48 (F := Ideal) (m ((c : Thread nD τ).loc main_arg1)))
        (Host.gather gather_S100000x32_S1600000x1_S1600000x32_1_0_n_n_0_1_132 (W8 m ρ c (Proc.devRef .tc main_v53)) (val_main_v38 (F := Ideal) (m ((c : Thread nD τ).loc main_arg1)))) := by
  show StableHlo.after hostOps5 (W8 m ρ c) (Proc.devRef .tc main_v68) = _
  after_results_simp
  rw [src_at8 m ρ c, dst_at8 m ρ c]
  rfl

set_option maxHeartbeats 8000000 in
/-- The third bias laid as a row. -/
theorem bias3 (c : Dev nD) : W9 m ρ c (Proc.devRef .tc main_v69)
    = shapeCast S1x32 (m ((c : Thread nD τ).loc main_arg7)) shapeCasts_S32_S1x32 := by
  show StableHlo.after hostOps5 (W8 m ρ c) (Proc.devRef .tc main_v69) = _
  after_results_simp
  rw [arg7_at8 m ρ c]
  rfl

set_option maxHeartbeats 8000000 in
/-- The result: the three layers' outputs side by side, last layer first. -/
theorem out_cat (c : Dev nD) : W11 m ρ c (Proc.devRef .tc main_v71)
    = concatenate S100000x160 1 [⟨S100000x32, W10 m ρ c (Proc.devRef .tc main_v70)⟩, ⟨S100000x64, W10 m ρ c (Proc.devRef .tc main_v52)⟩, ⟨S100000x64, W10 m ρ c (Proc.devRef .tc main_v34)⟩] concatenates_S100000x32_S100000x64_S100000x64_S100000x160_d1 := by
  show StableHlo.after hostOps6 (W10 m ρ c) (Proc.devRef .tc main_v71) = _
  after_results_simp
  rfl

end Cert.KernelIdeal.Fr

end
-- ==== Proof.LibDot.lean ====
/-
  A matrix product with one contracted axis, read at an entry: the sum over the contraction index of a
  dimension-numbers record is the sum over `k : Fin K` of row entry `(r, k)` times column entry `(k, c)`,
  for rank-two operands [M, K] × [K, N] → [M, N] whose record contracts axis 1 of the left operand with
  axis 0 of the right one. The four coordinate facts about the record's operand indices are hypotheses; for a
  record with literal dimension lists each is `fun _ _ => rfl` or the library's single-axis lemma. The kernel's
  product into a zero accumulator (`matmul_ix2`) and the host's product (`dotGeneral_ix2`) are both that sum.
-/
import Mathlib
import Idealize.ShloMosaic.Lib.ValueIdx
import Idealize.ShloMosaic.PureOps.Ideal.Laws

namespace Cert.LibDot

open Idealize.ShloMosaic Idealize.ShloMosaic.ValueIdx

/-- The coordinate facts of a plain rows-by-columns product's dimension numbers. -/
structure Plain {M K N : Nat} (d : DotDims ⟨2, ![M, K]⟩ ⟨2, ![K, N]⟩ ⟨2, ![M, N]⟩) : Prop where
  hrank : d.contr.rank = 1
  hs : d.contr.size ⟨0, by omega⟩ = K
  hl0 : ∀ j k, (d.lhsIdx j k 0).val = (j 0).val
  hl1 : ∀ j k, (d.lhsIdx j k 1).val = (k ⟨0, by omega⟩).val
  hr0 : ∀ j k, (d.rhsIdx j k 0).val = (k ⟨0, by omega⟩).val
  hr1 : ∀ j k, (d.rhsIdx j k 1).val = (j 1).val

theorem dot_sum {M K N : Nat} {d : DotDims ⟨2, ![M, K]⟩ ⟨2, ![K, N]⟩ ⟨2, ![M, N]⟩} (hd : Plain d)
    (lhs : (⟨2, ![M, K]⟩ : Shape).Idx → EReal) (rhs : (⟨2, ![K, N]⟩ : Shape).Idx → EReal)
    (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K hd.hrank hd.hs).symm]
  refine Finset.sum_congr rfl fun k _ => ?_
  have e := contrEquiv1_symm_val d K hd.hrank hd.hs k
  have el : d.lhsIdx (ix2 r c) ((contrEquiv1 d K hd.hrank hd.hs).symm k) = ix2 r k := by
    funext a; apply Fin.ext
    match a with
    | ⟨0, _⟩ => exact hd.hl0 _ _
    | ⟨1, _⟩ => exact (hd.hl1 _ _).trans e
  have er : d.rhsIdx (ix2 r c) ((contrEquiv1 d K hd.hrank hd.hs).symm k) = ix2 k c := by
    funext a; apply Fin.ext
    match a with
    | ⟨0, _⟩ => exact (hd.hr0 _ _).trans e
    | ⟨1, _⟩ => exact hd.hr1 _ _
  rw [el, er]

/-- The kernel's matrix product into a zero accumulator, at entry (r, c). -/
theorem matmul_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    matmul d prec a b (constant ⟨2, ![M, N]⟩ .f32 0x00000000#32) (ix2 r c) = ∑ k : Fin K, a (ix2 r k) * b (ix2 k c) :=
  (Ideal.matmul_constant_zero_apply d prec a b (ix2 r c)).trans (dot_sum hd a b r c)

/-- The host's matrix product, at entry (r, c). -/
theorem dotGeneral_ix2 {M K N : Nat} {d : DotDims ⟨2, ![M, K]⟩ ⟨2, ![K, N]⟩ ⟨2, ![M, N]⟩} (hd : Plain d)
    {φ₁ φ₂ : FTy} (prec : Option ContractPrecision) (a : FVec Ideal ⟨2, ![M, K]⟩ φ₁) (b : FVec Ideal ⟨2, ![K, N]⟩ φ₂)
    (r : Fin M) (c : Fin N) :
    Host.dotGeneral d prec a b (ix2 r c) = ∑ k : Fin K, a (ix2 r k) * b (ix2 k c) :=
  (Ideal.dotGeneral_apply d prec _ a b (ix2 r c)).trans (dot_sum hd a b r c)

end Cert.LibDot
-- ==== Proof.LibColumn.lean ====
/-
  Layout operations of a keepdims row reduction, read at an index given by coordinates: a vector [a] viewed as the
  column [a, 1], and that column broadcast along the second axis to [a, b]. (The library's layout file has the row
  forms [a] → [1, a] and [1, b] → [a, b]; these are the column ones, in the same style.)
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Val.Pay.lean ====
/-
  The stored values of the six kernel bodies, read at an entry (p, q) of the output block, at the ideal values.
  The row-scaled projection stores (∑ₖ x(p,k) · w(k,q)) · s(p,0): a change of float format is the identity there, the
  product into a zero accumulator is the sum over the contracted index, and the normaliser column is broadcast along
  the rows. The epilogue stores s(p,0) · (a(p,q) + b(p,q)) + β(0,q), bounded below by 0 in the two hidden layers.
-/
import proofs.«122759_j29180007809406_2_alg».proof.Proof.Gen.KernelIdeal.Skeleton
import proofs.«122759_j29180007809406_2_alg».proof.Proof.LibDot
import proofs.«122759_j29180007809406_2_alg».proof.Proof.LibColumn
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.Fr

open Idealize.ShloMosaic Idealize.ShloMosaic.ValueIdx Cert.KernelIdeal Cert.KernelIdeal.Gen

/-- The offsets of a whole-block rectangle are all zero. -/
theorem hz : (![0, 0] : Fin 2 → Nat) = fun _ => 0 := funext fun a => by fin_cases a <;> rfl

/-- The [5000,64] × [64,64] product contracts the left operand's columns with the right operand's rows. -/
theorem plain_dot64 : Cert.LibDot.Plain dot_S5000x64_S64x64_S5000x64_1_0_0_1_n_n where
  hrank := rfl
  hs := rfl
  hl0 := fun j k => by
    unfold DotDims.lhsIdx
    rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
    rfl
  hl1 := fun j k => dot_S5000x64_S64x64_S5000x64_1_0_0_1_n_n.lhsIdx_val_of_single rfl j k
  hr0 := fun j k => dot_S5000x64_S64x64_S5000x64_1_0_0_1_n_n.rhsIdx_val_of_single rfl j k
  hr1 := fun j k => by
    unfold DotDims.rhsIdx
    rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
    rfl

/-- The [5000,64] × [64,32] product likewise. -/
theorem plain_dot32 : Cert.LibDot.Plain dot_S5000x64_S64x32_S5000x32_1_0_0_1_n_n where
  hrank := rfl
  hs := rfl
  hl0 := fun j k => by
    unfold DotDims.lhsIdx
    rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
    rfl
  hl1 := fun j k => dot_S5000x64_S64x32_S5000x32_1_0_0_1_n_n.lhsIdx_val_of_single rfl j k
  hr0 := fun j k => dot_S5000x64_S64x32_S5000x32_1_0_0_1_n_n.rhsIdx_val_of_single rfl j k
  hr1 := fun j k => by
    unfold DotDims.rhsIdx
    rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
    rfl

/-- Region 0's stored block at (p, q). -/
theorem pay0_apply (x0 : Vec Ideal S5000x64 .f32) (x1 : Vec Ideal S64x64 .f32) (x2 : Vec Ideal S5000x1 .f32)
    (p : Fin 5000) (q : Fin 64) :
    k0_pay1 (F := Ideal) x0 x1 x2 (ix2 p q) = (∑ k : Fin 64, x0 (ix2 p k) * x1 (ix2 k q)) * x2 (ix2 p (0 : Fin 1)) := by
  unfold k0_pay1
  rw [mulf_apply, Cert.LibDot.matmul_ix2 plain_dot64, broadcastTo_a1_ab_apply, shapeCast_self, shapeCast_self]
  rfl

/-- Region 2's stored block at (p, q). -/
theorem pay2_apply (x0 : Vec Ideal S5000x64 .f32) (x1 : Vec Ideal S64x64 .f32) (x2 : Vec Ideal S5000x1 .f32)
    (p : Fin 5000) (q : Fin 64) :
    k2_pay1 (F := Ideal) x0 x1 x2 (ix2 p q) = (∑ k : Fin 64, x0 (ix2 p k) * x1 (ix2 k q)) * x2 (ix2 p (0 : Fin 1)) := by
  unfold k2_pay1
  rw [mulf_apply, Cert.LibDot.matmul_ix2 plain_dot64, broadcastTo_a1_ab_apply, shapeCast_self, shapeCast_self, shapeCast_self]
  rfl

/-- Region 4's stored block at (p, q). -/
theorem pay4_apply (x0 : Vec Ideal S5000x64 .f32) (x1 : Vec Ideal S64x32 .f32) (x2 : Vec Ideal S5000x1 .f32)
    (p : Fin 5000) (q : Fin 32) :
    k4_pay1 (F := Ideal) x0 x1 x2 (ix2 p q) = (∑ k : Fin 64, x0 (ix2 p k) * x1 (ix2 k q)) * x2 (ix2 p (0 : Fin 1)) := by
  unfold k4_pay1
  rw [mulf_apply, Cert.LibDot.matmul_ix2 plain_dot32, broadcastTo_a1_ab_apply, shapeCast_self, shapeCast_self, shapeCast_self]
  rfl

/-- Region 1's stored block at (p, q): normaliser column s, bias row b, aggregate a, own rows o. -/
theorem pay1_apply (s : Vec Ideal S5000x1 .f32) (b : Vec Ideal S1x64 .f32) (a : Vec Ideal S5000x64 .f32) (o : Vec Ideal S5000x64 .f32)
    (p : Fin 5000) (q : Fin 64) :
    k1_pay1 (F := Ideal) s b a o (ix2 p q)
      = max (s (ix2 p (0 : Fin 1)) * (a (ix2 p q) + o (ix2 p q)) + b (ix2 (0 : Fin 1) q)) 0 := by
  unfold k1_pay1
  rw [maximumf_apply, addf_apply, mulf_apply, addf_apply, broadcastTo_a1_ab_apply, broadcastTo_1b_ab_apply, broadcast_apply]
  simp only [shapeCast_self]
  exact congrArg _ Ideal.ofBits_zero_f32

/-- Region 3's stored block at (p, q). -/
theorem pay3_apply (s : Vec Ideal S5000x1 .f32) (b : Vec Ideal S1x64 .f32) (a : Vec Ideal S5000x64 .f32) (o : Vec Ideal S5000x64 .f32)
    (p : Fin 5000) (q : Fin 64) :
    k3_pay1 (F := Ideal) s b a o (ix2 p q)
      = max (s (ix2 p (0 : Fin 1)) * (a (ix2 p q) + o (ix2 p q)) + b (ix2 (0 : Fin 1) q)) 0 := by
  unfold k3_pay1
  rw [maximumf_apply, addf_apply, mulf_apply, addf_apply, broadcastTo_a1_ab_apply, broadcastTo_1b_ab_apply, broadcast_apply]
  simp only [shapeCast_self]
  exact congrArg _ Ideal.ofBits_zero_f32

/-- Region 5's stored block at (p, q): the last layer has no lower bound. -/
theorem pay5_apply (s : Vec Ideal S5000x1 .f32) (b : Vec Ideal S1x32 .f32) (a : Vec Ideal S5000x32 .f32) (o : Vec Ideal S5000x32 .f32)
    (p : Fin 5000) (q : Fin 32) :
    k5_pay1 (F := Ideal) s b a o (ix2 p q)
      = s (ix2 p (0 : Fin 1)) * (a (ix2 p q) + o (ix2 p q)) + b (ix2 (0 : Fin 1) q) := by
  unfold k5_pay1
  rw [addf_apply, mulf_apply, addf_apply, broadcastTo_a1_ab_apply, broadcastTo_1b_ab_apply]
  simp only [shapeCast_self]

/-! ## The two layer formulas, entry by entry, over arrays of extended reals -/

/-- Entry (p, q) of the row-scaled projection of x : [100000,64] by w : [64,C] and the column s : [100000,1]:
    (∑ₖ x(p,k) · w(k,q)) · s(p,0). -/
def projAt (C : Nat) (x : (⟨2, ![100000, 64]⟩ : Shape).Idx → EReal) (w : (⟨2, ![64, C]⟩ : Shape).Idx → EReal)
    (s : (⟨2, ![100000, 1]⟩ : Shape).Idx → EReal) (p : Fin 100000) (q : Fin C) : EReal :=
  (∑ k : Fin 64, x (ix2 p k) * w (ix2 k q)) * s (ix2 p (0 : Fin 1))

theorem projAt_def (C : Nat) (x : (⟨2, ![100000, 64]⟩ : Shape).Idx → EReal) (w : (⟨2, ![64, C]⟩ : Shape).Idx → EReal)
    (s : (⟨2, ![100000, 1]⟩ : Shape).Idx → EReal) (p : Fin 100000) (q : Fin C) :
    projAt C x w s p q = (∑ k : Fin 64, x (ix2 p k) * w (ix2 k q)) * s (ix2 p (0 : Fin 1)) := rfl

/-- Entry (p, q) of the epilogue of the column s : [100000,1], the aggregate a and own rows o : [100000,C] and the
    bias row b : [1,C]: s(p,0) · (a(p,q) + o(p,q)) + b(0,q). -/
def epiAt (C : Nat) (s : (⟨2, ![100000, 1]⟩ : Shape).Idx → EReal) (a o : (⟨2, ![100000, C]⟩ : Shape).Idx → EReal)
    (b : (⟨2, ![1, C]⟩ : Shape).Idx → EReal) (p : Fin 100000) (q : Fin C) : EReal :=
  s (ix2 p (0 : Fin 1)) * (a (ix2 p q) + o (ix2 p q)) + b (ix2 (0 : Fin 1) q)

theorem epiAt_def (C : Nat) (s : (⟨2, ![100000, 1]⟩ : Shape).Idx → EReal) (a o : (⟨2, ![100000, C]⟩ : Shape).Idx → EReal)
    (b : (⟨2, ![1, C]⟩ : Shape).Idx → EReal) (p : Fin 100000) (q : Fin C) :
    epiAt C s a o b p q = s (ix2 p (0 : Fin 1)) * (a (ix2 p q) + o (ix2 p q)) + b (ix2 (0 : Fin 1) q) := rfl

end Cert.KernelIdeal.Fr

end
-- ==== Proof.LibRowSum.lean ====
/-
  Indices named by their coordinates, and a sum along the second axis of a matrix read at a row.

  An index of a rank-1 or rank-2 shape is determined by its coordinates' values, whatever term spells it (a composed
  index map of a broadcast, a lifted index of a reduction, a block's embedded index).  A lane reduction
  `multi_reduction <add>` of an [a, K] array along its second axis, from the zero word, read at row r over the
  extended reals, is the sum over k of the entries (r, k).
-/
import Idealize.ShloMosaic.PureOps.Ideal.Laws
import Idealize.ShloMosaic.Lib.ValueIdx

namespace Idealize.ShloMosaic.ValueIdx

open Idealize.ShloMosaic

/-- An index of a rank-2 shape is the one with the same two coordinates. -/
theorem idx2_ext {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-- An index of a rank-1 shape is the one with the same coordinate. -/
theorem idx1_ext {n : Nat} (j : (⟨1, ![n]⟩ : Shape).Idx) (a : Fin n) (h0 : (j 0).val = a.val) : j = ix1 a :=
  funext fun d => Fin.ext (by match d with | ⟨0, _⟩ => exact h0)

/-- A sum along the second axis of an [a, K] array, from the zero word, read at row `r`: `∑ k, src (r, k)`. The shape
    fact, the format fact and the accumulator's neutrality are whatever proofs the printed operation carries. -/
theorem multiReduction_add_rows_apply {a K : ℕ} (src : FVec Ideal ⟨2, ![a, K]⟩ .f32)
    (hr : (⟨2, ![a, K]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 hr hφ hacc (ix1 r) = ∑ k : Fin K, src (ix2 r k) :=
  (Ideal.multiReduction_add_single src _ hr hφ hacc (ix1 r)).trans
    (Finset.sum_congr rfl fun k _ => congrArg src (idx2_ext _ r k rfl rfl))

end Idealize.ShloMosaic.ValueIdx
-- ==== Proof.Val.Fin0.lean ====
/-
  Region 0 on the whole array: after its twenty row blocks the projected array holds, at row p and column q,
  (∑ₖ x(p,k) · w(k,q)) · s(p,0) of the arrays the region was entered with. Each point writes back its block of that
  one function of the entry arrays (row r of the array is row r mod 5000 of block r / 5000), and the blocks cover
  the array.
-/
import proofs.«122759_j29180007809406_2_alg».proof.Proof.KI.Reg0
import proofs.«122759_j29180007809406_2_alg».proof.Proof.Val.Pay
import proofs.«122759_j29180007809406_2_alg».proof.Proof.LibRowSum
import Idealize.ShloMosaic.Lib.Pipeline.Value

set_option maxRecDepth 16384

noncomputable section

namespace Cert.KernelIdeal.Fr

open Idealize.ShloMosaic Idealize.ShloMosaic.TcCoe Idealize.ShloMosaic.ValueIdx Cert.KernelIdeal Cert.KernelIdeal.Gen
open Idealize.ShloMosaic.Pipeline (Dat)

section Final0
variable (V : (c : Dev nD) → (b : Ref sig .tc) → Buf (Elt Ideal) ((c : Thread nD τ).loc b))

/-- The whole array of the row-scaled projection's entries. -/
def G0 (x : S100000x64.Idx → EReal) (w : S64x64.Idx → EReal) (s : S100000x1.Idx → EReal) : S100000x64.Idx → EReal :=
  fun i => projAt 64 x w s (i 0) (i 1)

/-- The block index maps over the grid: the row-block windows sit at block (t, 0), the weight at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of block t is row 5000 t + p of the array. -/
theorem row_lt0 (t : Fin cfg0.N) (p : Fin 5000) : t.val * 5000 + p.val < 100000 := by
  have hN : cfg0.N = 20 := N_0
  have := t.isLt; have := p.isLt; omega

/-- The x block at point t, entry (p, k). -/
theorem iblk0_0_apply (c : Dev nD) (t : Fin cfg0.N) (p : Fin 5000) (k : Fin 64) :
    iblk0 V c 0 t (ix2 p k) = V c main_arg0 (ix2 (⟨t.val * 5000 + p.val, row_lt0 t p⟩ : Fin 100000) k) := by
  obtain ⟨e0, e1, e2, e3, e4, e5, e6, e7⟩ := idx_facts0 t
  show V c main_arg0 (((cfg0.win 0).blk t).view.emb (ix2 p k)) = _
  refine congrArg (V c main_arg0) (idx2_ext _ _ _ ?_ ?_)
  · show win0_0.index t (0 : Fin 2) * 5000 + 1 * p.val = t.val * 5000 + p.val; omega
  · show win0_0.index t (1 : Fin 2) * 64 + 1 * k.val = k.val; omega

/-- The weight block at any point is the weight. -/
theorem iblk0_1_apply (c : Dev nD) (t : Fin cfg0.N) (k : Fin 64) (q : Fin 64) :
    iblk0 V c 1 t (ix2 k q) = V c main_arg2 (ix2 k q) := by
  obtain ⟨e0, e1, e2, e3, e4, e5, e6, e7⟩ := idx_facts0 t
  show V c main_arg2 (((cfg0.win 1).blk t).view.emb (ix2 k q)) = _
  refine congrArg (V c main_arg2) (idx2_ext _ _ _ ?_ ?_)
  · show win0_1.index t (0 : Fin 2) * 64 + 1 * k.val = k.val; omega
  · show win0_1.index t (1 : Fin 2) * 64 + 1 * q.val = q.val; omega

/-- The normaliser block at point t, row p. -/
theorem iblk0_2_apply (c : Dev nD) (t : Fin cfg0.N) (p : Fin 5000) :
    iblk0 V c 2 t (ix2 p (0 : Fin 1)) = V c main_v16 (ix2 (⟨t.val * 5000 + p.val, row_lt0 t p⟩ : Fin 100000) (0 : Fin 1)) := by
  obtain ⟨e0, e1, e2, e3, e4, e5, e6, e7⟩ := idx_facts0 t
  show V c main_v16 (((cfg0.win 2).blk t).view.emb (ix2 p (0 : Fin 1))) = _
  refine congrArg (V c main_v16) (idx2_ext _ _ _ ?_ ?_)
  · show win0_2.index t (0 : Fin 2) * 5000 + 1 * p.val = t.val * 5000 + p.val; omega
  · show win0_2.index t (1 : Fin 2) * 1 + 1 * 0 = 0; omega

/-- What point t writes back is block t of the row-scaled projection of the entry arrays. -/
theorem flushed0_eq (c : Dev nD) (t : Fin cfg0.N) :
    (dat0 V c).flushed 3 t = ((cfg0.win 3).blk t).view.read (Elt Ideal) (G0 (V c main_arg0) (V c main_arg2) (V c main_v16)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz, View.ld_unit_zero (S := S5000x1) hz]
  obtain ⟨e0, e1, e2, e3, e4, e5, e6, e7⟩ := idx_facts0 t
  funext j
  obtain ⟨p, q, rfl⟩ : ∃ (p : Fin 5000) (q : Fin 64), j = ix2 p q := ⟨j 0, j 1, eq_ix2 j⟩
  have hE : ((cfg0.win 3).blk t).view.emb (ix2 p q) = ix2 (⟨t.val * 5000 + p.val, row_lt0 t p⟩ : Fin 100000) q := by
    refine idx2_ext _ _ _ ?_ ?_
    · show win0_3.index t (0 : Fin 2) * 5000 + 1 * p.val = t.val * 5000 + p.val; omega
    · show win0_3.index t (1 : Fin 2) * 64 + 1 * q.val = q.val; omega
  refine (pay0_apply (iblk0 V c 0 t) (iblk0 V c 1 t) (iblk0 V c 2 t) p q).trans ?_
  refine Eq.trans ?_ (congrArg (G0 (V c main_arg0) (V c main_arg2) (V c main_v16)) hE).symm
  show _ = projAt 64 (V c main_arg0) (V c main_arg2) (V c main_v16) (⟨t.val * 5000 + p.val, row_lt0 t p⟩ : Fin 100000) q
  unfold projAt
  rw [iblk0_2_apply]
  refine congrArg (· * _) (Finset.sum_congr rfl fun k _ => ?_)
  rw [iblk0_0_apply, iblk0_1_apply]

/-- An index of the array is in point t's block iff each coordinate is in the block's range on its axis. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v17).slice (win0_3.rect t)).set ↔ _
  rw [View.set_slice_whole, Rect.mem_set_unit]
  exact Iff.rfl

/-- Row r of the array lies in the block of point r / 5000, and every point writes back. -/
theorem cover0 (i : S100000x64.Idx) : ∃ t : Fin cfg0.N, (cfg0.win 3).flush t = true ∧ i ∈ ((cfg0.win 3).blk t).view.set := by
  have hN : cfg0.N = 20 := N_0
  have h0 : (i 0).val < 100000 := idx2_lt0 i
  have h1 : (i 1).val < 64 := idx2_lt1 i
  have hlt : (i 0).val / 5000 < cfg0.N := by rw [hN]; omega
  obtain ⟨e0, e1, e2, e3, e4, e5, e6, e7⟩ := idx_facts0 ⟨(i 0).val / 5000, hlt⟩
  refine ⟨⟨(i 0).val / 5000, hlt⟩, flush0_3 _, ?_⟩
  rw [mem_blk0]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, hlt⟩ (1 : Fin 2) * 64 ≤ (i 1).val ∧ (i 1).val < win0_3.index ⟨(i 0).val / 5000, hlt⟩ (1 : Fin 2) * 64 + 64
    rw [e7]; omega

/-- The projected array after region 0, entry by entry. -/
theorem final0 (c : Dev nD) (p : Fin 100000) (q : Fin 64) :
    (dat0 (F := Ideal) V c).arrAt 3 cfg0.N (ix2 p q) = projAt 64 (V c main_arg0) (V c main_arg2) (V c main_v16) p q :=
  congrFun ((dat0 V c).arrAt_eq_of_cover 3 (G0 (V c main_arg0) (V c main_arg2) (V c main_v16)) (fun t _ => flushed0_eq V c t) (cover0)) (ix2 p q)

end Final0

end Cert.KernelIdeal.Fr

end
-- ==== Proof.Val.Fin1.lean ====
/-
  Region 1 on the whole array: after its twenty row blocks the layer's output array holds, at row p and column q,
  s(p,0) · (a(p,q) + o(p,q)) + b(0,q), bounded below by 0, of the arrays the region was entered with. Each point writes back its block
  of that one function of the entry arrays (row r of the array is row r mod 5000 of block r / 5000), and the blocks
  cover the array.
-/
import proofs.«122759_j29180007809406_2_alg».proof.Proof.KI.Reg1
import proofs.«122759_j29180007809406_2_alg».proof.Proof.Val.Pay
import proofs.«122759_j29180007809406_2_alg».proof.Proof.LibRowSum
import Idealize.ShloMosaic.Lib.Pipeline.Value

set_option maxRecDepth 16384

noncomputable section

namespace Cert.KernelIdeal.Fr

open Idealize.ShloMosaic Idealize.ShloMosaic.TcCoe Idealize.ShloMosaic.ValueIdx Cert.KernelIdeal Cert.KernelIdeal.Gen
open Idealize.ShloMosaic.Pipeline (Dat)

section Final1
variable (V : (c : Dev nD) → (b : Ref sig .tc) → Buf (Elt Ideal) ((c : Thread nD τ).loc b))

/-- The whole array of the epilogue's entries. -/
def G1 (s : S100000x1.Idx → EReal) (a o : S100000x64.Idx → EReal) (b : S1x64.Idx → EReal) : S100000x64.Idx → EReal :=
  fun i => max (epiAt 64 s a o b (i 0) (i 1)) 0

/-- The block index maps over the grid: the row-block windows sit at block (t, 0), the bias row at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row p of block t is row 5000 t + p of the array. -/
theorem row_lt1 (t : Fin cfg1.N) (p : Fin 5000) : t.val * 5000 + p.val < 100000 := by
  have hN : cfg1.N = 20 := N_1
  have := t.isLt; have := p.isLt; omega

/-- The aggregate block at point t, entry (p, q). -/
theorem iblk1_0_apply (c : Dev nD) (t : Fin cfg1.N) (p : Fin 5000) (q : Fin 64) :
    iblk1 V c 0 t (ix2 p q) = V c main_v32 (ix2 (⟨t.val * 5000 + p.val, row_lt1 t p⟩ : Fin 100000) q) := by
  obtain ⟨e0, e1, e2, e3, e4, e5, e6, e7, e8, e9⟩ := idx_facts1 t
  show V c main_v32 (((cfg1.win 0).blk t).view.emb (ix2 p q)) = _
  refine congrArg (V c main_v32) (idx2_ext _ _ _ ?_ ?_)
  · show win1_0.index t (0 : Fin 2) * 5000 + 1 * p.val = t.val * 5000 + p.val; omega
  · show win1_0.index t (1 : Fin 2) * 64 + 1 * q.val = q.val; omega

/-- The own-rows block at point t, entry (p, q). -/
theorem iblk1_1_apply (c : Dev nD) (t : Fin cfg1.N) (p : Fin 5000) (q : Fin 64) :
    iblk1 V c 1 t (ix2 p q) = V c main_v17 (ix2 (⟨t.val * 5000 + p.val, row_lt1 t p⟩ : Fin 100000) q) := by
  obtain ⟨e0, e1, e2, e3, e4, e5, e6, e7, e8, e9⟩ := idx_facts1 t
  show V c main_v17 (((cfg1.win 1).blk t).view.emb (ix2 p q)) = _
  refine congrArg (V c main_v17) (idx2_ext _ _ _ ?_ ?_)
  · show win1_1.index t (0 : Fin 2) * 5000 + 1 * p.val = t.val * 5000 + p.val; omega
  · show win1_1.index t (1 : Fin 2) * 64 + 1 * q.val = q.val; omega

/-- The normaliser block at point t, row p. -/
theorem iblk1_2_apply (c : Dev nD) (t : Fin cfg1.N) (p : Fin 5000) :
    iblk1 V c 2 t (ix2 p (0 : Fin 1)) = V c main_v16 (ix2 (⟨t.val * 5000 + p.val, row_lt1 t p⟩ : Fin 100000) (0 : Fin 1)) := by
  obtain ⟨e0, e1, e2, e3, e4, e5, e6, e7, e8, e9⟩ := idx_facts1 t
  show V c main_v16 (((cfg1.win 2).blk t).view.emb (ix2 p (0 : Fin 1))) = _
  refine congrArg (V c main_v16) (idx2_ext _ _ _ ?_ ?_)
  · show win1_2.index t (0 : Fin 2) * 5000 + 1 * p.val = t.val * 5000 + p.val; omega
  · show win1_2.index t (1 : Fin 2) * 1 + 1 * 0 = 0; omega

/-- The bias block at any point is the bias row. -/
theorem iblk1_3_apply (c : Dev nD) (t : Fin cfg1.N) (q : Fin 64) :
    iblk1 V c 3 t (ix2 (0 : Fin 1) q) = V c main_v33 (ix2 (0 : Fin 1) q) := by
  obtain ⟨e0, e1, e2, e3, e4, e5, e6, e7, e8, e9⟩ := idx_facts1 t
  show V c main_v33 (((cfg1.win 3).blk t).view.emb (ix2 (0 : Fin 1) q)) = _
  refine congrArg (V c main_v33) (idx2_ext _ _ _ ?_ ?_)
  · show win1_3.index t (0 : Fin 2) * 1 + 1 * 0 = 0; omega
  · show win1_3.index t (1 : Fin 2) * 64 + 1 * q.val = q.val; omega

/-- What point t writes back is block t of the epilogue of the entry arrays. -/
theorem flushed1_eq (c : Dev nD) (t : Fin cfg1.N) :
    (dat1 V c).flushed 4 t = ((cfg1.win 4).blk t).view.read (Elt Ideal) (G1 (V c main_v16) (V c main_v32) (V c main_v17) (V c main_v33)) := by
  show (cfg1.win 4).cut (grid1.coords t) ((dat1 V c).after 4 t) = _
  rw [after1_4]
  unfold out1_4
  rw [View.canon_unit_zero hz]
  simp only [View.ld_unit_zero (S := S5000x64) hz, View.ld_unit_zero (S := S1x64) hz, View.ld_unit_zero (S := S5000x1) hz]
  obtain ⟨e0, e1, e2, e3, e4, e5, e6, e7, e8, e9⟩ := idx_facts1 t
  funext j
  obtain ⟨p, q, rfl⟩ : ∃ (p : Fin 5000) (q : Fin 64), j = ix2 p q := ⟨j 0, j 1, eq_ix2 j⟩
  have hE : ((cfg1.win 4).blk t).view.emb (ix2 p q) = ix2 (⟨t.val * 5000 + p.val, row_lt1 t p⟩ : Fin 100000) q := by
    refine idx2_ext _ _ _ ?_ ?_
    · show win1_4.index t (0 : Fin 2) * 5000 + 1 * p.val = t.val * 5000 + p.val; omega
    · show win1_4.index t (1 : Fin 2) * 64 + 1 * q.val = q.val; omega
  refine (pay1_apply (iblk1 V c 2 t) (iblk1 V c 3 t) (iblk1 V c 0 t) (iblk1 V c 1 t) p q).trans ?_
  refine Eq.trans ?_ (congrArg (G1 (V c main_v16) (V c main_v32) (V c main_v17) (V c main_v33)) hE).symm
  show _ = max (epiAt 64 (V c main_v16) (V c main_v32) (V c main_v17) (V c main_v33) (⟨t.val * 5000 + p.val, row_lt1 t p⟩ : Fin 100000) q) 0
  unfold epiAt
  rw [iblk1_2_apply, iblk1_0_apply, iblk1_1_apply, iblk1_3_apply]

/-- An index of the array is in point t's block iff each coordinate is in the block's range on its axis. -/
theorem mem_blk1 (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v34).slice (win1_4.rect t)).set ↔ _
  rw [View.set_slice_whole, Rect.mem_set_unit]
  exact Iff.rfl

/-- Row r of the array lies in the block of point r / 5000, and every point writes back. -/
theorem cover1 (i : S100000x64.Idx) : ∃ t : Fin cfg1.N, (cfg1.win 4).flush t = true ∧ i ∈ ((cfg1.win 4).blk t).view.set := by
  have hN : cfg1.N = 20 := N_1
  have h0 : (i 0).val < 100000 := idx2_lt0 i
  have h1 : (i 1).val < 64 := idx2_lt1 i
  have hlt : (i 0).val / 5000 < cfg1.N := by rw [hN]; omega
  obtain ⟨e0, e1, e2, e3, e4, e5, e6, e7, e8, e9⟩ := idx_facts1 ⟨(i 0).val / 5000, hlt⟩
  refine ⟨⟨(i 0).val / 5000, hlt⟩, flush1_4 _, ?_⟩
  rw [mem_blk1]
  intro a
  match a with
  | ⟨0, _⟩ =>
    show win1_4.index ⟨(i 0).val / 5000, hlt⟩ (0 : Fin 2) * 5000 ≤ (i 0).val ∧ (i 0).val < win1_4.index ⟨(i 0).val / 5000, hlt⟩ (0 : Fin 2) * 5000 + 5000
    rw [e8]; show (i 0).val / 5000 * 5000 ≤ (i 0).val ∧ (i 0).val < (i 0).val / 5000 * 5000 + 5000; omega
  | ⟨1, _⟩ =>
    show win1_4.index ⟨(i 0).val / 5000, hlt⟩ (1 : Fin 2) * 64 ≤ (i 1).val ∧ (i 1).val < win1_4.index ⟨(i 0).val / 5000, hlt⟩ (1 : Fin 2) * 64 + 64
    rw [e9]; omega

/-- The layer's output array after region 1, entry by entry. -/
theorem final1 (c : Dev nD) (p : Fin 100000) (q : Fin 64) :
    (dat1 (F := Ideal) V c).arrAt 4 cfg1.N (ix2 p q) = max (epiAt 64 (V c main_v16) (V c main_v32) (V c main_v17) (V c main_v33) p q) 0 :=
  congrFun ((dat1 V c).arrAt_eq_of_cover 4 (G1 (V c main_v16) (V c main_v32) (V c main_v17) (V c main_v33)) (fun t _ => flushed1_eq V c t) (cover1)) (ix2 p q)

end Final1

end Cert.KernelIdeal.Fr

end
-- ==== Proof.Ref.L1.lean ====
/-
  Layer 1 of the reference, read entry by entry at the ideal values: the projection h is the matrix product of the
  layer's input with its weight; the accumulator starts at zero; the update of edge e is row (source of e) of h
  times the normaliser at the source times the normaliser at the target; the layer's output at (p, q) is the
  segment sum of the updates into the target rows plus h(p,q) times the squared normaliser at p plus the bias at q,
  bounded below by 0.
-/
import proofs.«122759_j29180007809406_2_alg».proof.Proof.Gen.ReferenceIdeal.Read
import proofs.«122759_j29180007809406_2_alg».proof.Proof.LibRowSum
import Idealize.ShloMosaic.PureOps.Ideal.Laws

noncomputable section

namespace Cert.RefSide

open Idealize.ShloMosaic Idealize.ShloMosaic.ValueIdx Cert.ReferenceIdeal Cert.ReferenceIdeal.Read

/-- The layer's projection at (p, q): the sum over k of input (p, k) times weight (k, q). -/
theorem r1_h (x0 : (⟨S100000x64, .f32⟩ : BufTy).Contents (Elt Ideal)) (x2 : (⟨S64x64, .f32⟩ : BufTy).Contents (Elt Ideal)) (p : Fin 100000) (q : Fin 64) :
    val_main_v16 (F := Ideal) x0 x2 (ix2 p q) = ∑ k : Fin 64, x0 (ix2 p k) * x2 (ix2 k q) :=
  (val_main_v16_apply x0 x2 (ix2 p q)).trans (Finset.sum_congr rfl fun k _ => by
    rw [show lidx_main_v16 (ix2 p q) k = ix2 p k from idx2_ext _ p k rfl rfl,
      show ridx_main_v16 (ix2 p q) k = ix2 k q from idx2_ext _ k q rfl rfl])

/-- The accumulator the segment sum starts from is zero everywhere. -/
theorem r1_zero (j : S100000x64.Idx) : val_main_v32 (F := Ideal) j = 0 := by
  rw [val_main_v32_apply, val_main_cst_7_apply]
  exact Ideal.ofBits_zero_f32

/-- The update of edge e at column c: the gathered row of the projection times the two gathered normalisers. -/
theorem r1_upd (x0 : (⟨S100000x64, .f32⟩ : BufTy).Contents (Elt Ideal)) (x1 : (⟨S2x1600000, .i32⟩ : BufTy).Contents (Elt Ideal)) (x2 : (⟨S64x64, .f32⟩ : BufTy).Contents (Elt Ideal)) (e : Fin 1600000) (c : Fin 64) :
    val_main_v42 (F := Ideal) x0 x1 x2 (ix2 e c)
      = Host.gather gather_S100000x64_S1600000x1_S1600000x64_1_0_n_n_0_1_164 (val_main_v16 (F := Ideal) x0 x2) (val_main_v38 (F := Ideal) x1) (ix2 e c)
        * (Host.gather gather_S100000_S1600000x1_S1600000_n_0_n_n_0_1_1 (val_main_v15 (F := Ideal) x1) (val_main_v38 (F := Ideal) x1) (ix1 e)
          * Host.gather gather_S100000_S1600000x1_S1600000_n_0_n_n_0_1_1 (val_main_v15 (F := Ideal) x1) (val_main_v48 (F := Ideal) x1) (ix1 e)) := by
  rw [val_main_v42_apply, val_main_v41_apply, val_main_v40_apply, val_main_v31_apply]
  rw [show idx_main_v40 (idx_main_v41 (ix2 e c)) = ix1 e from idx1_ext _ e rfl]
  unfold val_main_v39 val_main_v23 val_main_v30
  rw [show val_main_v22 (F := Ideal) x1 = val_main_v38 (F := Ideal) x1 from rfl,
    show val_main_v29 (F := Ideal) x1 = val_main_v48 (F := Ideal) x1 from rfl]
  rfl

/-- The layer's output at (p, q). -/
theorem r1_out (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (p : Fin 100000) (q : Fin 64) :
    val_main_v58 (F := Ideal) x0 x1 x2 x3 (ix2 p q)
      = max (Ideal.hostScatterAdd scatter_S100000x64_S1600000x1_S1600000x64_1_0_0_1 (val_main_v32 (F := Ideal)) (val_main_v48 (F := Ideal) x1) (val_main_v42 (F := Ideal) x0 x1 x2) (ix2 p q) + val_main_v16 (F := Ideal) x0 x2 (ix2 p q) * (val_main_v15 (F := Ideal) x1 (ix1 p) * val_main_v15 (F := Ideal) x1 (ix1 p)) + x3 (ix1 q)) 0 := by
  rw [val_main_v58_apply, val_main_v57_apply, val_main_v54_apply, val_main_v53_apply, val_main_v52_apply, val_main_v51_apply, val_main_v50_apply, val_main_v56_apply, val_main_v55_apply, val_main_call0_v0_apply, val_main_call0_cst_apply]
  rw [show idx_main_v51 (idx_main_v52 (ix2 p q)) = ix1 p from idx1_ext _ p rfl,
    show idx_main_v55 (idx_main_v56 (ix2 p q)) = ix1 q from idx1_ext _ q rfl]
  unfold val_main_v49
  have hs : (Host.scatterAdd scatter_S100000x64_S1600000x1_S1600000x64_1_0_0_1 (val_main_v32 (F := Ideal)) (val_main_v48 (F := Ideal) x1) (val_main_v42 (F := Ideal) x0 x1 x2) : FVec Ideal S100000x64 .f32)
      = Ideal.hostScatterAdd scatter_S100000x64_S1600000x1_S1600000x64_1_0_0_1 (val_main_v32 (F := Ideal)) (val_main_v48 (F := Ideal) x1) (val_main_v42 (F := Ideal) x0 x1 x2) := rfl
  rw [hs]
  generalize Ideal.hostScatterAdd scatter_S100000x64_S1600000x1_S1600000x64_1_0_0_1 (val_main_v32 (F := Ideal)) (val_main_v48 (F := Ideal) x1) (val_main_v42 (F := Ideal) x0 x1 x2) (ix2 p q) = A
  generalize val_main_v16 (F := Ideal) x0 x2 (ix2 p q) = H
  generalize val_main_v15 (F := Ideal) x1 (ix1 p) = N
  generalize x3 (ix1 q) = B
  rw [Ideal.ofBits_def, Ideal.ofBits_zero_f32]
  rfl

end Cert.RefSide

end
-- ==== Proof.LibNonnegFactor.lean ====
/-
  The one algebraic law of the graph convolution, on the extended reals.

  A node's value is the degree-normalised sum of its in-neighbours' rows: with a normaliser `dv` (one number per node),
  edges `e` with a source node `S e`, and "edge `e` lands on node `p`" a decidable relation, one side scales the rows
  before they are summed and scales the sum once more afterwards,
      dv p · Σ_{e lands on p} (M (S e) · dv (S e)),
  the other forms the edge weight dv (S e) · 1 · dv (D e) first, where `D e` is the node edge `e` lands on,
      Σ_{e lands on p} (dv (S e) · 1 · dv (D e)) · M (S e).
  On the extended reals a product distributes over a sum when the factor is a non-negative real, whatever the terms are
  (infinite ones included), so the two agree as soon as `dv p` is a non-negative real; commutativity and associativity of
  the product do the rest, and nothing is asked of `M`.
-/
import Mathlib

open scoped BigOperators

namespace Cert.LibNonnegFactor

/-- A non-negative real factor distributes over a finite sum of extended reals. -/
theorem mul_sum_of_nonneg_of_ne_top {ι : Type*} (s : Finset ι) (x : EReal) (h0 : 0 ≤ x) (ht : x ≠ ⊤) (f : ι → EReal) :
    x * ∑ i ∈ s, f i = ∑ i ∈ s, x * f i := by
  classical
  induction s using Finset.induction_on with
  | empty => simp
  | insert a s ha ih =>
    rw [Finset.sum_insert ha, Finset.sum_insert ha, EReal.left_distrib_of_nonneg_of_ne_top h0 ht, ih]

/-- The graph convolution's law: scaling the rows by the source's normaliser before the sum and the sum by the target's
    afterwards is summing the rows under the edge weights, when the target's normaliser is a non-negative real. -/
theorem layer {E N : ℕ} (hit : Fin E → Fin N → Prop) [∀ e p, Decidable (hit e p)] (S D : Fin E → Fin N)
    (hD : ∀ e p, hit e p → D e = p) (dv : Fin N → EReal) (M : Fin N → EReal) (one : EReal) (h1 : one = 1)
    (p : Fin N) (h0 : 0 ≤ dv p) (ht : dv p ≠ ⊤) :
    dv p * (0 + ∑ e : Fin E, if hit e p then M (S e) * dv (S e) else 0)
      = 0 + ∑ e : Fin E, if hit e p then (dv (S e) * one * dv (D e)) * M (S e) else 0 := by
  rw [zero_add, zero_add, mul_sum_of_nonneg_of_ne_top _ _ h0 ht]
  refine Finset.sum_congr rfl fun e _ => ?_
  by_cases h : hit e p
  · rw [if_pos h, if_pos h, hD e p h, h1, mul_one]
    rw [mul_comm (M (S e)) (dv (S e)), ← mul_assoc, mul_comm (dv p) (dv (S e))]
  · rw [if_neg h, if_neg h, mul_zero]

end Cert.LibNonnegFactor
-- ==== Proof.LibScatterAddRows.lean ====
/-
  A scatter-add of rows into a table, read at an entry. The operand is a table [N, C] (or a vector [N]), the scatter
  indices a column [E, 1], the updates [E, C] (or [E]), and the dimension numbers are those of a segment sum: the row
  axis is the one inserted window axis and the one the start index names, the column axis (if any) the one window axis.
  Update row e lands on operand row p exactly when its start index idx[e, 0], read as a signed integer and NOT clamped,
  equals p; it is dropped otherwise. So on the extended reals entry (p, k) of the result is the operand's entry plus
  the sum over the update rows e with idx[e, 0] = p of the update's entry (e, k). Stated for any record with those
  dimension numbers, whatever the number of updates.
-/
import Idealize.ShloMosaic.Lib.ValueIdx
import Idealize.ShloMosaic.PureOps.Ideal

noncomputable section

open scoped BigOperators

namespace Cert.LibScatterAddRows

open Idealize.ShloMosaic Idealize.ShloMosaic.ValueIdx

/-- The start index of update row `e` on the row axis: the scatter index `idx[e, 0]` read signed. -/
theorem rows_start0 {N C E w : Nat} (d : ScatterDims ⟨2, ![N, C]⟩ ⟨2, ![E, 1]⟩ ⟨2, ![E, C]⟩)
    (h1 : d.updateWindowDims = [1]) (h3 : d.scatterDimsToOperandDims = [0]) (h4 : d.indexVectorDim = 1)
    (idx : IVec ⟨2, ![E, 1]⟩ w) (e : Fin E) (c : Fin C) :
    d.start (ix2 e c) idx 0 = (idx (ix2 e (0 : Fin 1))).toInt := by
  obtain ⟨uw, iw, sd, iv, wf⟩ := d
  dsimp only at h1 h3 h4
  subst h1 h3 h4
  unfold ScatterDims.start
  rw [dif_pos (List.mem_singleton.mpr rfl)]
  refine congrArg (fun z : (⟨2, ![E, 1]⟩ : Shape).Idx => (idx z).toInt) ?_
  funext b; refine Fin.ext ?_
  match b with
  | ⟨0, _⟩ => rfl
  | ⟨1, _⟩ => rfl

/-- The column axis is not named by the start index: the window starts at column 0. -/
theorem rows_start1 {N C E w : Nat} (d : ScatterDims ⟨2, ![N, C]⟩ ⟨2, ![E, 1]⟩ ⟨2, ![E, C]⟩)
    (h3 : d.scatterDimsToOperandDims = [0]) (idx : IVec ⟨2, ![E, 1]⟩ w) (j : (⟨2, ![E, C]⟩ : Shape).Idx) :
    d.start j idx 1 = 0 := by
  obtain ⟨uw, iw, sd, iv, wf⟩ := d
  dsimp only at h3
  subst h3
  unfold ScatterDims.start
  rw [dif_neg (show ¬ ((1 : Fin 2) ∈ ([0] : List (Fin 2))) by decide)]

/-- The row axis is inserted: the window has no extent along it. -/
theorem rows_window0 {N C E : Nat} (d : ScatterDims ⟨2, ![N, C]⟩ ⟨2, ![E, 1]⟩ ⟨2, ![E, C]⟩)
    (h2 : d.insertedWindowDims = [0]) (j : (⟨2, ![E, C]⟩ : Shape).Idx) :
    d.window j 0 = 0 := by
  obtain ⟨uw, iw, sd, iv, wf⟩ := d
  dsimp only at h2
  subst h2
  unfold ScatterDims.window
  rw [dif_neg (by simp [ScatterDims.sKept, Shape.kept])]

/-- Along the column axis the window coordinate is the update's column. -/
theorem rows_window1 {N C E : Nat} (d : ScatterDims ⟨2, ![N, C]⟩ ⟨2, ![E, 1]⟩ ⟨2, ![E, C]⟩)
    (h1 : d.updateWindowDims = [1]) (h2 : d.insertedWindowDims = [0]) (e : Fin E) (c : Fin C) :
    d.window (ix2 e c) 1 = c.val := by
  obtain ⟨uw, iw, sd, iv, wf⟩ := d
  dsimp only at h1 h2
  subst h1 h2
  unfold ScatterDims.window
  rw [dif_pos (by simp [ScatterDims.sKept, Shape.kept])]
  rfl

/-- Update entry `(e, c)` of a row scatter lands on operand entry `(p, k)` exactly when the start index of row `e`
    is `p` and the columns agree. -/
theorem rows_resultIdx {N C E w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (idx : IVec ⟨2, ![E, 1]⟩ w) (e : Fin E) (c : Fin C) (p : Fin N) (k : Fin C) :
    d.resultIdx? (ix2 e c) idx = some (ix2 p k) ↔ (idx (ix2 e (0 : Fin 1))).toInt = (p.val : Int) ∧ c = k := by
  have hs0 := rows_start0 d h1 h3 h4 idx e c
  have hs1 := rows_start1 d h3 idx (ix2 e c)
  have hw0 := rows_window0 d h2 (ix2 e c)
  have hw1 := rows_window1 d h1 h2 e c
  constructor
  · intro h
    unfold ScatterDims.resultIdx? at h
    split at h
    · next hall =>
      have hv := Option.some.inj h
      have v0 : (d.start (ix2 e c) idx 0 + d.window (ix2 e c) 0).toNat = p.val := congrArg Fin.val (congrFun hv 0)
      have v1 : (d.start (ix2 e c) idx 1 + d.window (ix2 e c) 1).toNat = k.val := congrArg Fin.val (congrFun hv 1)
      have h0 := (hall 0).1
      rw [hs0, hw0] at v0 h0
      rw [hs1, hw1] at v1
      exact ⟨by omega, Fin.ext (by omega)⟩
    · exact absurd h (by simp)
  · rintro ⟨ht, rfl⟩
    unfold ScatterDims.resultIdx?
    have hall : ∀ a, 0 ≤ d.start (ix2 e c) idx a + d.window (ix2 e c) a ∧
        d.start (ix2 e c) idx a + d.window (ix2 e c) a < (⟨2, ![N, C]⟩ : Shape).size a := by
      intro a
      match a with
      | ⟨0, _⟩ =>
        have := p.isLt
        show 0 ≤ d.start (ix2 e c) idx 0 + d.window (ix2 e c) 0 ∧ d.start (ix2 e c) idx 0 + d.window (ix2 e c) 0 < (N : Int)
        rw [hs0, hw0, ht]; omega
      | ⟨1, _⟩ =>
        have := c.isLt
        show 0 ≤ d.start (ix2 e c) idx 1 + d.window (ix2 e c) 1 ∧ d.start (ix2 e c) idx 1 + d.window (ix2 e c) 1 < (C : Int)
        rw [hs1, hw1]; omega
    rw [dif_pos hall]
    congr 1; funext a; refine Fin.ext ?_
    match a with
    | ⟨0, _⟩ =>
      show (d.start (ix2 e c) idx 0 + d.window (ix2 e c) 0).toNat = p.val
      rw [hs0, hw0, ht]; omega
    | ⟨1, _⟩ =>
      show (d.start (ix2 e c) idx 1 + d.window (ix2 e c) 1).toNat = c.val
      rw [hs1, hw1]; omega

/-- A row scatter-add at entry `(p, k)`: the operand's entry plus the update entries `(e, k)` of the rows `e` whose
    start index is `p`. -/
theorem scatterAdd_rows_apply {N C E w : Nat} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1) (x : (⟨2, ![N, C]⟩ : Shape).Idx → EReal) (idx : IVec ⟨2, ![E, 1]⟩ w)
    (upd : (⟨2, ![E, C]⟩ : Shape).Idx → EReal) (p : Fin N) (k : Fin C) :
    Ideal.hostScatterAdd d x idx upd (ix2 p k)
      = x (ix2 p k) + ∑ e : Fin E, if (idx (ix2 e (0 : Fin 1))).toInt = (p.val : Int) then upd (ix2 e k) else 0 := by
  unfold Ideal.hostScatterAdd
  congr 1
  rw [Finset.sum_filter, sum_idx2]
  refine Finset.sum_congr rfl fun e _ => ?_
  by_cases ht : (idx (ix2 e (0 : Fin 1))).toInt = (p.val : Int)
  · rw [if_pos ht, Finset.sum_eq_single k]
    · rw [if_pos ((rows_resultIdx d h1 h2 h3 h4 idx e k p k).mpr ⟨ht, rfl⟩)]
    · intro c _ hc
      rw [if_neg (fun h => hc ((rows_resultIdx d h1 h2 h3 h4 idx e c p k).mp h).2)]
    · intro h; exact absurd (Finset.mem_univ k) h
  · rw [if_neg ht]
    refine Finset.sum_eq_zero fun c _ => ?_
    rw [if_neg (fun h => ht ((rows_resultIdx d h1 h2 h3 h4 idx e c p k).mp h).1)]

/-! ## The same for a vector: operand [N], scatter indices [E, 1], updates [E] -/

/-- A rank-1 index set is its one coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- Update entry `e` of a vector scatter lands on operand entry `p` exactly when its start index is `p`. -/
theorem elems_resultIdx {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ w) (e : Fin E) (p : Fin N) :
    d.resultIdx? (ix1 e) idx = some (ix1 p) ↔ (idx (ix2 e (0 : Fin 1))).toInt = (p.val : Int) := by
  have hs0 : d.start (ix1 e) idx 0 = (idx (ix2 e (0 : Fin 1))).toInt := by
    obtain ⟨uw, iw, sd, iv, wf⟩ := d
    dsimp only at h1 h2 h3 h4
    subst h1 h2 h3 h4
    unfold ScatterDims.start
    rw [dif_pos (List.mem_singleton.mpr rfl)]
    refine congrArg (fun z : (⟨2, ![E, 1]⟩ : Shape).Idx => (idx z).toInt) ?_
    funext b; refine Fin.ext ?_
    match b with
    | ⟨0, _⟩ => rfl
    | ⟨1, _⟩ => rfl
  have hw0 : d.window (ix1 e) 0 = 0 := by
    obtain ⟨uw, iw, sd, iv, wf⟩ := d
    dsimp only at h1 h2 h3 h4
    subst h1 h2 h3 h4
    unfold ScatterDims.window
    rw [dif_neg (by simp [ScatterDims.sKept, Shape.kept])]
  constructor
  · intro h
    unfold ScatterDims.resultIdx? at h
    split at h
    · next hall =>
      have hv := Option.some.inj h
      have v0 : (d.start (ix1 e) idx 0 + d.window (ix1 e) 0).toNat = p.val := congrArg Fin.val (congrFun hv 0)
      have h0 := (hall 0).1
      rw [hs0, hw0] at v0 h0
      omega
    · exact absurd h (by simp)
  · intro ht
    unfold ScatterDims.resultIdx?
    have hall : ∀ a, 0 ≤ d.start (ix1 e) idx a + d.window (ix1 e) a ∧
        d.start (ix1 e) idx a + d.window (ix1 e) a < (⟨1, ![N]⟩ : Shape).size a := by
      intro a
      match a with
      | ⟨0, _⟩ =>
        have := p.isLt
        show 0 ≤ d.start (ix1 e) idx 0 + d.window (ix1 e) 0 ∧ d.start (ix1 e) idx 0 + d.window (ix1 e) 0 < (N : Int)
        rw [hs0, hw0, ht]; omega
    rw [dif_pos hall]
    congr 1; funext a; refine Fin.ext ?_
    match a with
    | ⟨0, _⟩ =>
      show (d.start (ix1 e) idx 0 + d.window (ix1 e) 0).toNat = p.val
      rw [hs0, hw0, ht]; omega

/-- A vector scatter-add at entry `p`: the operand's entry plus the update entries `e` whose start index is `p`. -/
theorem scatterAdd_elems_apply {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (x : (⟨1, ![N]⟩ : Shape).Idx → EReal) (idx : IVec ⟨2, ![E, 1]⟩ w)
    (upd : (⟨1, ![E]⟩ : Shape).Idx → EReal) (p : Fin N) :
    Ideal.hostScatterAdd d x idx upd (ix1 p)
      = x (ix1 p) + ∑ e : Fin E, if (idx (ix2 e (0 : Fin 1))).toInt = (p.val : Int) then upd (ix1 e) else 0 := by
  unfold Ideal.hostScatterAdd
  congr 1
  rw [Finset.sum_filter, sum_idx1]
  refine Finset.sum_congr rfl fun e _ => ?_
  by_cases ht : (idx (ix2 e (0 : Fin 1))).toInt = (p.val : Int)
  · rw [if_pos ht, if_pos ((elems_resultIdx d h1 h2 h3 h4 idx e p).mpr ht)]
  · rw [if_neg ht, if_neg (fun h => ht ((elems_resultIdx d h1 h2 h3 h4 idx e p).mp h))]

end Cert.LibScatterAddRows

end
-- ==== Proof.Layer.lean ====
/-
  One graph-convolution layer at an entry, in the two arrangements the two programs use.

  Write dv for the degree normaliser (one number per node), M for the projected features (one row per node), S e for
  the source node of edge e, and say edge e lands on node p when its target index, read as a signed integer, is p; then
  D e, the node the target normaliser is read at, is p. One program scales the rows by the source normaliser before the
  segment sum, adds the node's own scaled row, and scales the total by the target normaliser afterwards:
      dv p · (Σ_{e lands on p} M (S e) · dv (S e)  +  M p · dv p)  +  b.
  The other weights each gathered row by dv (S e) · dv (D e), and adds the node's own row under dv p · dv p:
      Σ_{e lands on p} M (S e) · (dv (S e) · dv (D e))  +  M p · (dv p · dv p)  +  b.
  On the extended reals a product distributes over a finite sum when the factor is a non-negative real, whatever the
  terms are; so the two agree as soon as dv p is a non-negative real, and nothing is asked of M or b.
-/
import proofs.«122759_j29180007809406_2_alg».proof.Proof.LibNonnegFactor
import proofs.«122759_j29180007809406_2_alg».proof.Proof.LibScatterAddRows

open scoped BigOperators

namespace Cert.Layer

open Idealize.ShloMosaic Idealize.ShloMosaic.ValueIdx

/-- The law over an abstract "edge e lands on node p" relation. -/
theorem law {E N : ℕ} (hit : Fin E → Fin N → Prop) [∀ e p, Decidable (hit e p)] (S D : Fin E → Fin N)
    (hD : ∀ e p, hit e p → D e = p) (dv : Fin N → EReal) (M : Fin N → EReal)
    (p : Fin N) (h0 : 0 ≤ dv p) (ht : dv p ≠ ⊤) (b : EReal) :
    dv p * ((0 + ∑ e : Fin E, if hit e p then M (S e) * dv (S e) else 0) + M p * dv p) + b
      = (0 + ∑ e : Fin E, if hit e p then M (S e) * (dv (S e) * dv (D e)) else 0) + M p * (dv p * dv p) + b := by
  have e1 : dv p * (M p * dv p) = M p * (dv p * dv p) := by rw [mul_comm, mul_assoc]
  have e2 : ∀ e : Fin E, dv p * (if hit e p then M (S e) * dv (S e) else 0)
      = if hit e p then M (S e) * (dv (S e) * dv (D e)) else 0 := by
    intro e
    by_cases h : hit e p
    · rw [if_pos h, if_pos h, hD e p h, mul_comm, mul_assoc]
    · rw [if_neg h, if_neg h, mul_zero]
  rw [zero_add, zero_add, EReal.left_distrib_of_nonneg_of_ne_top h0 ht,
    LibNonnegFactor.mul_sum_of_nonneg_of_ne_top _ _ h0 ht, e1, Finset.sum_congr rfl (fun e _ => e2 e)]

/-- The same at entry (i, c) of two row segment sums over one index column, for any two records with a segment sum's
    dimension numbers. -/
theorem scatter_law {N C E w : Nat} (dK dR : ScatterDims ⟨2, ![N, C]⟩ ⟨2, ![E, 1]⟩ ⟨2, ![E, C]⟩)
    (k1 : dK.updateWindowDims = [1]) (k2 : dK.insertedWindowDims = [0]) (k3 : dK.scatterDimsToOperandDims = [0])
    (k4 : dK.indexVectorDim = 1)
    (r1 : dR.updateWindowDims = [1]) (r2 : dR.insertedWindowDims = [0]) (r3 : dR.scatterDimsToOperandDims = [0])
    (r4 : dR.indexVectorDim = 1)
    (zK zR : (⟨2, ![N, C]⟩ : Shape).Idx → EReal) (hzK : ∀ j, zK j = 0) (hzR : ∀ j, zR j = 0)
    (dst : IVec ⟨2, ![E, 1]⟩ w) (S D : Fin E → Fin N)
    (hD : ∀ e p, (dst (ix2 e (0 : Fin 1))).toInt = ((p : Fin N).val : Int) → D e = p)
    (dv : Fin N → EReal) (M : Fin N → Fin C → EReal)
    (updK updR : (⟨2, ![E, C]⟩ : Shape).Idx → EReal)
    (hK : ∀ e c, updK (ix2 e c) = M (S e) c * dv (S e))
    (hR : ∀ e c, updR (ix2 e c) = M (S e) c * (dv (S e) * dv (D e)))
    (i : Fin N) (c : Fin C) (h0 : 0 ≤ dv i) (ht : dv i ≠ ⊤) (b : EReal) :
    dv i * (Ideal.hostScatterAdd dK zK dst updK (ix2 i c) + M i c * dv i) + b
      = Ideal.hostScatterAdd dR zR dst updR (ix2 i c) + M i c * (dv i * dv i) + b := by
  rw [LibScatterAddRows.scatterAdd_rows_apply dK k1 k2 k3 k4, LibScatterAddRows.scatterAdd_rows_apply dR r1 r2 r3 r4,
    hzK, hzR]
  simp only [hK, hR]
  exact law (fun e p => (dst (ix2 e (0 : Fin 1))).toInt = ((p : Fin N).val : Int)) S D hD dv (fun p => M p c) i h0 ht b

end Cert.Layer
-- ==== Proof.LibGatherRows.lean ====
/-
  Taking rows of a table by an index column, read at an entry. The operand is a table [N, C] (or a vector [N]), the
  start indices a column [E, 1], and the dimension numbers are those of `table[idx]`: the row axis collapsed and named by
  the one start-index component, the column axis (if any) the one offset axis. Entry (e, c) of the result is the
  table's entry (r, c) with r the start index idx[e, 0] read as a signed integer and clamped into [0, N - 1]; for a
  vector, entry e is the vector's entry r. The row r is the SAME function of idx and e in both, so taking rows
  commutes with any operation that acts row by row. Stated for any record with those dimension numbers.
-/
import Idealize.ShloMosaic.Lib.ValueIdx
import Idealize.ShloMosaic.PureOps.ShapeOps

namespace Cert.LibGatherRows

open Idealize.ShloMosaic Idealize.ShloMosaic.ValueIdx

/-- The row that start index `idx[e, 0]` names in a table of `N` rows: read signed, clamped into `[0, N - 1]`. -/
def row {N E w : Nat} (hN : 0 < N) (idx : IVec ⟨2, ![E, 1]⟩ w) (e : Fin E) : Fin N :=
  ⟨min (idx (ix2 e (0 : Fin 1))).toInt.toNat (N - 1), by omega⟩

/-- Rows of a table: result entry `(e, c)` reads the operand at `(row idx e, c)`. -/
theorem rows_operandIdx {N C E w : Nat} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (idx : IVec ⟨2, ![E, 1]⟩ w) (e : Fin E) (c : Fin C) :
    d.operandIdx (ix2 e c) idx = ix2 (row hN idx e) c := by
  obtain ⟨od, cd, ob, sb, sm, iv, ss, wf⟩ := d
  dsimp only at h1 h2 h3 h4 h5 h6 h7
  subst h1 h2 h3 h4 h5 h6 h7
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z : (⟨2, ![E, 1]⟩ : Shape).Idx => min (idx z).toInt.toNat (N - 1)) ?_
    funext b; refine Fin.ext ?_
    match b with
    | ⟨0, _⟩ => rfl
    | ⟨1, _⟩ => rfl
  | ⟨1, _⟩ =>
    show GatherDims.start _ (ix2 e c) idx 1 + GatherDims.batchCoord _ (ix2 e c) 1 + GatherDims.offCoord _ (ix2 e c) 1 = _
    rw [GatherDims.batchCoord_eq_zero _ _ _ List.not_mem_nil]
    unfold GatherDims.start
    rw [dif_neg (show ¬ ((1 : Fin 2) ∈ ([0] : List (Fin 2))) by decide)]
    simp only [Nat.add_zero, Nat.zero_add]
    unfold GatherDims.offCoord
    rw [dif_pos ((GatherDims.mem_sKept _ _).mpr ⟨(show ¬ ((1 : Fin 2) ∈ ([0] : List (Fin 2))) by decide), List.not_mem_nil⟩)]
    rfl

/-- Entries of a vector: result entry `e` reads the operand at `row idx e`. -/
theorem elems_operandIdx {N E w : Nat} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (idx : IVec ⟨2, ![E, 1]⟩ w) (e : Fin E) :
    d.operandIdx (ix1 e) idx = ix1 (row hN idx e) := by
  obtain ⟨od, cd, ob, sb, sm, iv, ss, wf⟩ := d
  dsimp only at h1 h2 h3 h4 h5 h6 h7
  subst h1 h2 h3 h4 h5 h6 h7
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z : (⟨2, ![E, 1]⟩ : Shape).Idx => min (idx z).toInt.toNat (N - 1)) ?_
    funext b; refine Fin.ext ?_
    match b with
    | ⟨0, _⟩ => rfl
    | ⟨1, _⟩ => rfl

/-- The table's rows taken, at entry `(e, c)`. -/
theorem gather_rows_apply {α : Type} {N C E w : Nat} (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![E, 1]⟩ w) (e : Fin E) (c : Fin C) :
    Host.gather d x idx (ix2 e c) = x (ix2 (row hN idx e) c) := by
  unfold Host.gather
  rw [rows_operandIdx hN d h1 h2 h3 h4 h5 h6 h7 idx e c]

/-- The vector's entries taken, at entry `e`. -/
theorem gather_elems_apply {α : Type} {N E w : Nat} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![E, 1]⟩ w) (e : Fin E) :
    Host.gather d x idx (ix1 e) = x (ix1 (row hN idx e)) := by
  unfold Host.gather
  rw [elems_operandIdx hN d h1 h2 h3 h4 h5 h6 h7 idx e]

end Cert.LibGatherRows
-- ==== Proof.Bridge.lean ====
/-
  One layer of the two programs, over the same index columns, at an entry.

  Both programs wrap negative indices once and use the wrapped column for every gather and every segment sum. A gather
  reads the row the wrapped index names after clamping it into range; a segment sum lands update row e on node p when the
  wrapped index, read signed, is p, and then clamping changes nothing: the gathered target row is p. With h the projected
  features, dv the normaliser and hp = h · dv the rows one program scales before it gathers them, the layer law of the
  extended reals (a non-negative real factor distributes over any finite sum) makes
      dv p · (segsum (gather hp src) + hp) + b   and   segsum (gather h src · (gather dv src · gather dv dst)) + h · (dv · dv) + b
  equal at every entry.
-/
import proofs.«122759_j29180007809406_2_alg».proof.Proof.Layer
import proofs.«122759_j29180007809406_2_alg».proof.Proof.LibGatherRows

open scoped BigOperators

namespace Cert.Bridge

open Idealize.ShloMosaic Idealize.ShloMosaic.ValueIdx

/-- An index whose signed value is a row number is that row after clamping into range. -/
theorem row_of_int {N E w : ℕ} (hN : 0 < N) (col : IVec ⟨2, ![E, 1]⟩ w) (e : Fin E) (p : Fin N)
    (h : (col (ix2 e (0 : Fin 1))).toInt = (p.val : Int)) : LibGatherRows.row hN col e = p := by
  apply Fin.ext
  show min (col (ix2 e (0 : Fin 1))).toInt.toNat (N - 1) = p.val
  rw [h, Int.toNat_natCast]
  have := p.isLt
  omega

theorem layer {N C E : ℕ} (hN : 0 < N)
    (dK dR : ScatterDims ⟨2, ![N, C]⟩ ⟨2, ![E, 1]⟩ ⟨2, ![E, C]⟩)
    (k1 : dK.updateWindowDims = [1]) (k2 : dK.insertedWindowDims = [0]) (k3 : dK.scatterDimsToOperandDims = [0])
    (k4 : dK.indexVectorDim = 1)
    (r1 : dR.updateWindowDims = [1]) (r2 : dR.insertedWindowDims = [0]) (r3 : dR.scatterDimsToOperandDims = [0])
    (r4 : dR.indexVectorDim = 1)
    (gK gR : GatherDims ⟨2, ![N, C]⟩ ⟨2, ![E, 1]⟩ ⟨2, ![E, C]⟩)
    (a1 : gK.offsetDims = [1]) (a2 : gK.collapsedSliceDims = [0]) (a3 : gK.operandBatchingDims = [])
    (a4 : gK.startIndicesBatchingDims = []) (a5 : gK.startIndexMap = [0]) (a6 : gK.indexVectorDim = 1)
    (a7 : gK.sliceSizes = ![1, C])
    (b1 : gR.offsetDims = [1]) (b2 : gR.collapsedSliceDims = [0]) (b3 : gR.operandBatchingDims = [])
    (b4 : gR.startIndicesBatchingDims = []) (b5 : gR.startIndexMap = [0]) (b6 : gR.indexVectorDim = 1)
    (b7 : gR.sliceSizes = ![1, C])
    (g1 : GatherDims ⟨1, ![N]⟩ ⟨2, ![E, 1]⟩ ⟨1, ![E]⟩)
    (c1 : g1.offsetDims = []) (c2 : g1.collapsedSliceDims = [0]) (c3 : g1.operandBatchingDims = [])
    (c4 : g1.startIndicesBatchingDims = []) (c5 : g1.startIndexMap = [0]) (c6 : g1.indexVectorDim = 1)
    (c7 : g1.sliceSizes = ![1])
    (zK zR : (⟨2, ![N, C]⟩ : Shape).Idx → EReal) (hzK : ∀ j, zK j = 0) (hzR : ∀ j, zR j = 0)
    (scol dcol : IVec ⟨2, ![E, 1]⟩ 32)
    (dv : Fin N → EReal) (h0 : ∀ p, 0 ≤ dv p) (ht : ∀ p, dv p ≠ ⊤)
    (dis1 : (⟨1, ![N]⟩ : Shape).Idx → EReal) (hdis : ∀ p, dis1 (ix1 p) = dv p)
    (M : Fin N → Fin C → EReal)
    (hp h : (⟨2, ![N, C]⟩ : Shape).Idx → EReal) (hhp : ∀ p q, hp (ix2 p q) = M p q * dv p)
    (hh : ∀ p q, h (ix2 p q) = M p q)
    (updR : (⟨2, ![E, C]⟩ : Shape).Idx → EReal)
    (hupdR : ∀ e c, updR (ix2 e c)
      = Host.gather gR h scol (ix2 e c) * (Host.gather g1 dis1 scol (ix1 e) * Host.gather g1 dis1 dcol (ix1 e)))
    (b : EReal) (p : Fin N) (q : Fin C) :
    dv p * (Ideal.hostScatterAdd dK zK dcol (Host.gather gK hp scol) (ix2 p q) + hp (ix2 p q)) + b
      = Ideal.hostScatterAdd dR zR dcol updR (ix2 p q) + h (ix2 p q) * (dv p * dv p) + b := by
  rw [hhp, hh]
  exact Layer.scatter_law dK dR k1 k2 k3 k4 r1 r2 r3 r4 zK zR hzK hzR dcol (LibGatherRows.row hN scol)
    (LibGatherRows.row hN dcol) (fun e p h => row_of_int hN dcol e p h) dv M _ _
    (fun e c => by rw [LibGatherRows.gather_rows_apply hN gK a1 a2 a3 a4 a5 a6 a7 hp scol e c, hhp])
    (fun e c => by
      rw [hupdR, LibGatherRows.gather_rows_apply hN gR b1 b2 b3 b4 b5 b6 b7 h scol e c, hh,
        LibGatherRows.gather_elems_apply hN g1 c1 c2 c3 c4 c5 c6 c7 dis1 scol e,
        LibGatherRows.gather_elems_apply hN g1 c1 c2 c3 c4 c5 c6 c7 dis1 dcol e, hdis, hdis])
    p q (h0 p) (ht p) b

/-- The same with the first program's segment sum written as the host operation it prints as. -/
theorem layerK {N C E : ℕ} (hN : 0 < N)
    (dK dR : ScatterDims ⟨2, ![N, C]⟩ ⟨2, ![E, 1]⟩ ⟨2, ![E, C]⟩)
    (k1 : dK.updateWindowDims = [1]) (k2 : dK.insertedWindowDims = [0]) (k3 : dK.scatterDimsToOperandDims = [0])
    (k4 : dK.indexVectorDim = 1)
    (r1 : dR.updateWindowDims = [1]) (r2 : dR.insertedWindowDims = [0]) (r3 : dR.scatterDimsToOperandDims = [0])
    (r4 : dR.indexVectorDim = 1)
    (gK gR : GatherDims ⟨2, ![N, C]⟩ ⟨2, ![E, 1]⟩ ⟨2, ![E, C]⟩)
    (a1 : gK.offsetDims = [1]) (a2 : gK.collapsedSliceDims = [0]) (a3 : gK.operandBatchingDims = [])
    (a4 : gK.startIndicesBatchingDims = []) (a5 : gK.startIndexMap = [0]) (a6 : gK.indexVectorDim = 1)
    (a7 : gK.sliceSizes = ![1, C])
    (b1 : gR.offsetDims = [1]) (b2 : gR.collapsedSliceDims = [0]) (b3 : gR.operandBatchingDims = [])
    (b4 : gR.startIndicesBatchingDims = []) (b5 : gR.startIndexMap = [0]) (b6 : gR.indexVectorDim = 1)
    (b7 : gR.sliceSizes = ![1, C])
    (g1 : GatherDims ⟨1, ![N]⟩ ⟨2, ![E, 1]⟩ ⟨1, ![E]⟩)
    (c1 : g1.offsetDims = []) (c2 : g1.collapsedSliceDims = [0]) (c3 : g1.operandBatchingDims = [])
    (c4 : g1.startIndicesBatchingDims = []) (c5 : g1.startIndexMap = [0]) (c6 : g1.indexVectorDim = 1)
    (c7 : g1.sliceSizes = ![1])
    (zK : FVec Ideal ⟨2, ![N, C]⟩ .f32) (zR : (⟨2, ![N, C]⟩ : Shape).Idx → EReal) (hzK : ∀ j, zK j = 0) (hzR : ∀ j, zR j = 0)
    (scol dcol : IVec ⟨2, ![E, 1]⟩ 32)
    (dv : Fin N → EReal) (h0 : ∀ p, 0 ≤ dv p) (ht : ∀ p, dv p ≠ ⊤)
    (dis1 : (⟨1, ![N]⟩ : Shape).Idx → EReal) (hdis : ∀ p, dis1 (ix1 p) = dv p)
    (M : Fin N → Fin C → EReal)
    (hp : FVec Ideal ⟨2, ![N, C]⟩ .f32) (h : (⟨2, ![N, C]⟩ : Shape).Idx → EReal) (hhp : ∀ p q, hp (ix2 p q) = M p q * dv p)
    (hh : ∀ p q, h (ix2 p q) = M p q)
    (updR : (⟨2, ![E, C]⟩ : Shape).Idx → EReal)
    (hupdR : ∀ e c, updR (ix2 e c)
      = Host.gather gR h scol (ix2 e c) * (Host.gather g1 dis1 scol (ix1 e) * Host.gather g1 dis1 dcol (ix1 e)))
    (b : EReal) (p : Fin N) (q : Fin C) :
    dv p * (Host.scatterAdd (F := Ideal) dK zK dcol (Host.gather gK hp scol) (ix2 p q) + hp (ix2 p q)) + b
      = Ideal.hostScatterAdd dR zR dcol updR (ix2 p q) + h (ix2 p q) * (dv p * dv p) + b :=
  layer hN dK dR k1 k2 k3 k4 r1 r2 r3 r4 gK gR a1 a2 a3 a4 a5 a6 a7 b1 b2 b3 b4 b5 b6 b7 g1 c1 c2 c3 c4 c5 c6 c7
    zK zR hzK hzR scol dcol dv h0 ht dis1 hdis M hp h hhp hh updR hupdR b p q

end Cert.Bridge
-- ==== Proof.KI.Lay1.lean ====
/-
  The first layer: the kernel program's output array is the reference's.

  The linear region leaves, at entry (p, q), the projected features of node p times the node's normaliser; the host
  stretch gathers those rows at the source column and sums them onto the target column; the epilogue region leaves
  normaliser · (aggregate + own row) + bias, clipped below at zero. The reference sums the unscaled rows under the edge
  weights and adds the node's own row under the squared normaliser. The layer law joins the two at every entry, the
  normaliser being a non-negative real.
-/
import proofs.«122759_j29180007809406_2_alg».proof.Proof.KI.Chain
import proofs.«122759_j29180007809406_2_alg».proof.Proof.Val.Fin0
import proofs.«122759_j29180007809406_2_alg».proof.Proof.Val.Fin1
import proofs.«122759_j29180007809406_2_alg».proof.Proof.Ref.L1
import proofs.«122759_j29180007809406_2_alg».proof.Proof.Bridge
import proofs.«122759_j29180007809406_2_alg».proof.Proof.LibColumn
import Idealize.ShloMosaic.Lib.StableHlo.Run
import Idealize.ShloMosaic.Lib.ValueLayout

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.Sem
open Cert.ReferenceIdeal.Read Cert.RefSide

variable (m : (ℓ : Loc nD τ sig) → Buf (Elt Ideal) ℓ) (ρ : Dev nD → PrngReg)

/-- The reference's normaliser of an edge list, as an array of extended reals. -/
abbrev disR (x1 : (⟨Cert.ReferenceIdeal.S2x1600000, .i32⟩ : BufTy).Contents (Elt Ideal)) : (⟨1, ![100000]⟩ : Shape).Idx → EReal :=
  val_main_v15 (F := Ideal) x1

/-- A scalar zero broadcast to the feature table is zero at every entry. -/
theorem zeros64 (j : S100000x64.Idx) :
    broadcastInDim S100000x64 ![] bcast_S_S100000x64 (constant (F := Ideal) S_ .f32 0x00000000#32) j = 0 := by
  rw [broadcastInDim_apply _ bcast_S_S100000x64 _ j (fun a => a.elim0) (fun a => a.elim0)]
  exact Ideal.ofBits_zero_f32

/-- The projected features of the first layer, as an array of extended reals. -/
abbrev feat1 (x0 : (⟨Cert.ReferenceIdeal.S100000x64, .f32⟩ : BufTy).Contents (Elt Ideal))
    (x2 : (⟨Cert.ReferenceIdeal.S64x64, .f32⟩ : BufTy).Contents (Elt Ideal)) : (⟨2, ![100000, 64]⟩ : Shape).Idx → EReal :=
  val_main_v16 (F := Ideal) x0 x2

/-- The first linear region's output, as an array of extended reals. -/
abbrev scaled1 (c : Dev nD) : (⟨2, ![100000, 64]⟩ : Shape).Idx → EReal := W2 m ρ c (Proc.devRef .tc main_v17)

/-- The first linear region's output at (p, q): the projected features of node p, times its normaliser. -/
theorem hp1 (c : Dev nD) (p : Fin 100000) (q : Fin 64) :
    scaled1 m ρ c (ix2 p q) = feat1 (m ((c : Thread nD τ).loc main_arg0)) (m ((c : Thread nD τ).loc main_arg2)) (ix2 p q) * disR (m ((c : Thread nD τ).loc main_arg1)) (ix1 p) := by
  have e : W2 m ρ c (Proc.devRef .tc main_v17) = (dat0 (U1 m ρ) c).arrAt 3 cfg0.N := W2_arr m ρ c 3
  show W2 m ρ c (Proc.devRef .tc main_v17) (ix2 p q) = _
  rw [e, final0 (U1 m ρ) c p q]
  show projAt 64 (W1 m ρ c (Proc.devRef .tc main_arg0)) (W1 m ρ c (Proc.devRef .tc main_arg2)) (W1 m ρ c (Proc.devRef .tc main_v16)) p q = _
  rw [arg0_at1 m ρ c, arg2_at1 m ρ c, dis_col m ρ c]
  unfold projAt
  rw [shapeCast_a_a1_apply]
  show _ = val_main_v16 (F := Ideal) _ _ (ix2 p q) * _
  rw [r1_h]

/-- The first layer's output is the reference's first layer of the same arguments. -/
theorem x1_eq (h0 : ∀ x1 p, 0 ≤ disR x1 (ix1 p)) (ht : ∀ x1 p, disR x1 (ix1 p) ≠ ⊤) (c : Dev nD) :
    W4 m ρ c (Proc.devRef .tc main_v34) = val_main_v58 (F := Ideal) (m ((c : Thread nD τ).loc main_arg0)) (m ((c : Thread nD τ).loc main_arg1)) (m ((c : Thread nD τ).loc main_arg2)) (m ((c : Thread nD τ).loc main_arg3)) := by
  funext idx
  obtain ⟨p, q, rfl⟩ : ∃ (p : Fin 100000) (q : Fin 64), idx = ix2 p q := ⟨idx 0, idx 1, eq_ix2 idx⟩
  have e : W4 m ρ c (Proc.devRef .tc main_v34) = (dat1 (U3 m ρ) c).arrAt 4 cfg1.N := W4_arr m ρ c 4
  rw [e, final1 (U3 m ρ) c p q, r1_out]
  show max (epiAt 64 (W3 m ρ c (Proc.devRef .tc main_v16)) (W3 m ρ c (Proc.devRef .tc main_v32)) (W3 m ρ c (Proc.devRef .tc main_v17)) (W3 m ρ c (Proc.devRef .tc main_v33)) p q) 0 = _
  rw [dis_at3 m ρ c, agg1 m ρ c, host1_keep m ρ c main_v17 (by decide), bias1 m ρ c]
  unfold epiAt
  rw [shapeCast_a_a1_apply, shapeCast_a_1a_apply]
  refine congrArg (fun t => max t 0) ?_
  exact Bridge.layerK (N := 100000) (C := 64) (E := 1600000) (by norm_num)
    scatter_S100000x64_S1600000x1_S1600000x64_1_0_0_1 Cert.ReferenceIdeal.scatter_S100000x64_S1600000x1_S1600000x64_1_0_0_1
    rfl rfl rfl rfl rfl rfl rfl rfl
    gather_S100000x64_S1600000x1_S1600000x64_1_0_n_n_0_1_164 Cert.ReferenceIdeal.gather_S100000x64_S1600000x1_S1600000x64_1_0_n_n_0_1_164
    rfl rfl rfl rfl rfl rfl rfl rfl rfl rfl rfl rfl rfl rfl
    Cert.ReferenceIdeal.gather_S100000_S1600000x1_S1600000_n_0_n_n_0_1_1 rfl rfl rfl rfl rfl rfl rfl
    _ _ zeros64 r1_zero
    (val_main_v38 (F := Ideal) (m ((c : Thread nD τ).loc main_arg1))) (val_main_v48 (F := Ideal) (m ((c : Thread nD τ).loc main_arg1)))
    (fun p => disR (m ((c : Thread nD τ).loc main_arg1)) (ix1 p)) (h0 _) (ht _)
    (disR (m ((c : Thread nD τ).loc main_arg1))) (fun _ => rfl)
    (fun p q => feat1 (m ((c : Thread nD τ).loc main_arg0)) (m ((c : Thread nD τ).loc main_arg2)) (ix2 p q))
    (scaled1 m ρ c) (feat1 (m ((c : Thread nD τ).loc main_arg0)) (m ((c : Thread nD τ).loc main_arg2)))
    (hp1 m ρ c) (fun _ _ => rfl)
    (val_main_v42 (F := Ideal) (m ((c : Thread nD τ).loc main_arg0)) (m ((c : Thread nD τ).loc main_arg1)) (m ((c : Thread nD τ).loc main_arg2))) (r1_upd _ _ _)
    ((m ((c : Thread nD τ).loc main_arg3)) (ix1 q)) p q

end Cert.KernelIdeal.Fr

end
-- ==== Proof.Val.Fin2.lean ====
/-
  Region 2 on the whole array: after its twenty row blocks the projected array holds, at row p and column q,
  (∑ₖ x(p,k) · w(k,q)) · s(p,0) of the arrays the region was entered with. Each point writes back its block of that
  one function of the entry arrays (row r of the array is row r mod 5000 of block r / 5000), and the blocks cover
  the array.
-/
import proofs.«122759_j29180007809406_2_alg».proof.Proof.KI.Reg2
import proofs.«122759_j29180007809406_2_alg».proof.Proof.Val.Pay
import proofs.«122759_j29180007809406_2_alg».proof.Proof.LibRowSum
import Idealize.ShloMosaic.Lib.Pipeline.Value

set_option maxRecDepth 16384

noncomputable section

namespace Cert.KernelIdeal.Fr

open Idealize.ShloMosaic Idealize.ShloMosaic.TcCoe Idealize.ShloMosaic.ValueIdx Cert.KernelIdeal Cert.KernelIdeal.Gen
open Idealize.ShloMosaic.Pipeline (Dat)

section Final2
variable (V : (c : Dev nD) → (b : Ref sig .tc) → Buf (Elt Ideal) ((c : Thread nD τ).loc b))

/-- The whole array of the row-scaled projection's entries. -/
def G2 (x : S100000x64.Idx → EReal) (w : S64x64.Idx → EReal) (s : S100000x1.Idx → EReal) : S100000x64.Idx → EReal :=
  fun i => projAt 64 x w s (i 0) (i 1)

/-- The block index maps over the grid: the row-block windows sit at block (t, 0), the weight at block (0, 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Row p of block t is row 5000 t + p of the array. -/
theorem row_lt2 (t : Fin cfg2.N) (p : Fin 5000) : t.val * 5000 + p.val < 100000 := by
  have hN : cfg2.N = 20 := N_2
  have := t.isLt; have := p.isLt; omega

/-- The x block at point t, entry (p, k). -/
theorem iblk2_0_apply (c : Dev nD) (t : Fin cfg2.N) (p : Fin 5000) (k : Fin 64) :
    iblk2 V c 0 t (ix2 p k) = V c main_v34 (ix2 (⟨t.val * 5000 + p.val, row_lt2 t p⟩ : Fin 100000) k) := by
  obtain ⟨e0, e1, e2, e3, e4, e5, e6, e7⟩ := idx_facts2 t
  show V c main_v34 (((cfg2.win 0).blk t).view.emb (ix2 p k)) = _
  refine congrArg (V c main_v34) (idx2_ext _ _ _ ?_ ?_)
  · show win2_0.index t (0 : Fin 2) * 5000 + 1 * p.val = t.val * 5000 + p.val; omega
  · show win2_0.index t (1 : Fin 2) * 64 + 1 * k.val = k.val; omega

/-- The weight block at any point is the weight. -/
theorem iblk2_1_apply (c : Dev nD) (t : Fin cfg2.N) (k : Fin 64) (q : Fin 64) :
    iblk2 V c 1 t (ix2 k q) = V c main_arg4 (ix2 k q) := by
  obtain ⟨e0, e1, e2, e3, e4, e5, e6, e7⟩ := idx_facts2 t
  show V c main_arg4 (((cfg2.win 1).blk t).view.emb (ix2 k q)) = _
  refine congrArg (V c main_arg4) (idx2_ext _ _ _ ?_ ?_)
  · show win2_1.index t (0 : Fin 2) * 64 + 1 * k.val = k.val; omega
  · show win2_1.index t (1 : Fin 2) * 64 + 1 * q.val = q.val; omega

/-- The normaliser block at point t, row p. -/
theorem iblk2_2_apply (c : Dev nD) (t : Fin cfg2.N) (p : Fin 5000) :
    iblk2 V c 2 t (ix2 p (0 : Fin 1)) = V c main_v16 (ix2 (⟨t.val * 5000 + p.val, row_lt2 t p⟩ : Fin 100000) (0 : Fin 1)) := by
  obtain ⟨e0, e1, e2, e3, e4, e5, e6, e7⟩ := idx_facts2 t
  show V c main_v16 (((cfg2.win 2).blk t).view.emb (ix2 p (0 : Fin 1))) = _
  refine congrArg (V c main_v16) (idx2_ext _ _ _ ?_ ?_)
  · show win2_2.index t (0 : Fin 2) * 5000 + 1 * p.val = t.val * 5000 + p.val; omega
  · show win2_2.index t (1 : Fin 2) * 1 + 1 * 0 = 0; omega

/-- What point t writes back is block t of the row-scaled projection of the entry arrays. -/
theorem flushed2_eq (c : Dev nD) (t : Fin cfg2.N) :
    (dat2 V c).flushed 3 t = ((cfg2.win 3).blk t).view.read (Elt Ideal) (G2 (V c main_v34) (V c main_arg4) (V c main_v16)) := by
  show (cfg2.win 3).cut (grid2.coords t) ((dat2 V c).after 3 t) = _
  rw [after2_3]
  unfold out2_3
  rw [View.canon_unit_zero hz]
  simp only [View.ld_unit_zero (S := S5000x64) hz, View.ld_unit_zero (S := S64x64) hz, View.ld_unit_zero (S := S5000x1) hz]
  obtain ⟨e0, e1, e2, e3, e4, e5, e6, e7⟩ := idx_facts2 t
  funext j
  obtain ⟨p, q, rfl⟩ : ∃ (p : Fin 5000) (q : Fin 64), j = ix2 p q := ⟨j 0, j 1, eq_ix2 j⟩
  have hE : ((cfg2.win 3).blk t).view.emb (ix2 p q) = ix2 (⟨t.val * 5000 + p.val, row_lt2 t p⟩ : Fin 100000) q := by
    refine idx2_ext _ _ _ ?_ ?_
    · show win2_3.index t (0 : Fin 2) * 5000 + 1 * p.val = t.val * 5000 + p.val; omega
    · show win2_3.index t (1 : Fin 2) * 64 + 1 * q.val = q.val; omega
  refine (pay2_apply (iblk2 V c 0 t) (iblk2 V c 1 t) (iblk2 V c 2 t) p q).trans ?_
  refine Eq.trans ?_ (congrArg (G2 (V c main_v34) (V c main_arg4) (V c main_v16)) hE).symm
  show _ = projAt 64 (V c main_v34) (V c main_arg4) (V c main_v16) (⟨t.val * 5000 + p.val, row_lt2 t p⟩ : Fin 100000) q
  unfold projAt
  rw [iblk2_2_apply]
  refine congrArg (· * _) (Finset.sum_congr rfl fun k _ => ?_)
  rw [iblk2_0_apply, iblk2_1_apply]

/-- An index of the array is in point t's block iff each coordinate is in the block's range on its axis. -/
theorem mem_blk2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v35).slice (win2_3.rect t)).set ↔ _
  rw [View.set_slice_whole, Rect.mem_set_unit]
  exact Iff.rfl

/-- Row r of the array lies in the block of point r / 5000, and every point writes back. -/
theorem cover2 (i : S100000x64.Idx) : ∃ t : Fin cfg2.N, (cfg2.win 3).flush t = true ∧ i ∈ ((cfg2.win 3).blk t).view.set := by
  have hN : cfg2.N = 20 := N_2
  have h0 : (i 0).val < 100000 := idx2_lt0 i
  have h1 : (i 1).val < 64 := idx2_lt1 i
  have hlt : (i 0).val / 5000 < cfg2.N := by rw [hN]; omega
  obtain ⟨e0, e1, e2, e3, e4, e5, e6, e7⟩ := idx_facts2 ⟨(i 0).val / 5000, hlt⟩
  refine ⟨⟨(i 0).val / 5000, hlt⟩, flush2_3 _, ?_⟩
  rw [mem_blk2]
  intro a
  match a with
  | ⟨0, _⟩ =>
    show win2_3.index ⟨(i 0).val / 5000, hlt⟩ (0 : Fin 2) * 5000 ≤ (i 0).val ∧ (i 0).val < win2_3.index ⟨(i 0).val / 5000, hlt⟩ (0 : Fin 2) * 5000 + 5000
    rw [e6]; show (i 0).val / 5000 * 5000 ≤ (i 0).val ∧ (i 0).val < (i 0).val / 5000 * 5000 + 5000; omega
  | ⟨1, _⟩ =>
    show win2_3.index ⟨(i 0).val / 5000, hlt⟩ (1 : Fin 2) * 64 ≤ (i 1).val ∧ (i 1).val < win2_3.index ⟨(i 0).val / 5000, hlt⟩ (1 : Fin 2) * 64 + 64
    rw [e7]; omega

/-- The projected array after region 2, entry by entry. -/
theorem final2 (c : Dev nD) (p : Fin 100000) (q : Fin 64) :
    (dat2 (F := Ideal) V c).arrAt 3 cfg2.N (ix2 p q) = projAt 64 (V c main_v34) (V c main_arg4) (V c main_v16) p q :=
  congrFun ((dat2 V c).arrAt_eq_of_cover 3 (G2 (V c main_v34) (V c main_arg4) (V c main_v16)) (fun t _ => flushed2_eq V c t) (cover2)) (ix2 p q)

end Final2

end Cert.KernelIdeal.Fr

end
-- ==== Proof.Val.Fin3.lean ====
/-
  Region 3 on the whole array: after its twenty row blocks the layer's output array holds, at row p and column q,
  s(p,0) · (a(p,q) + o(p,q)) + b(0,q), bounded below by 0, of the arrays the region was entered with. Each point writes back its block
  of that one function of the entry arrays (row r of the array is row r mod 5000 of block r / 5000), and the blocks
  cover the array.
-/
import proofs.«122759_j29180007809406_2_alg».proof.Proof.KI.Reg3
import proofs.«122759_j29180007809406_2_alg».proof.Proof.Val.Pay
import proofs.«122759_j29180007809406_2_alg».proof.Proof.LibRowSum
import Idealize.ShloMosaic.Lib.Pipeline.Value

set_option maxRecDepth 16384

noncomputable section

namespace Cert.KernelIdeal.Fr

open Idealize.ShloMosaic Idealize.ShloMosaic.TcCoe Idealize.ShloMosaic.ValueIdx Cert.KernelIdeal Cert.KernelIdeal.Gen
open Idealize.ShloMosaic.Pipeline (Dat)

section Final3
variable (V : (c : Dev nD) → (b : Ref sig .tc) → Buf (Elt Ideal) ((c : Thread nD τ).loc b))

/-- The whole array of the epilogue's entries. -/
def G3 (s : S100000x1.Idx → EReal) (a o : S100000x64.Idx → EReal) (b : S1x64.Idx → EReal) : S100000x64.Idx → EReal :=
  fun i => max (epiAt 64 s a o b (i 0) (i 1)) 0

/-- The block index maps over the grid: the row-block windows sit at block (t, 0), the bias row at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row p of block t is row 5000 t + p of the array. -/
theorem row_lt3 (t : Fin cfg3.N) (p : Fin 5000) : t.val * 5000 + p.val < 100000 := by
  have hN : cfg3.N = 20 := N_3
  have := t.isLt; have := p.isLt; omega

/-- The aggregate block at point t, entry (p, q). -/
theorem iblk3_0_apply (c : Dev nD) (t : Fin cfg3.N) (p : Fin 5000) (q : Fin 64) :
    iblk3 V c 0 t (ix2 p q) = V c main_v50 (ix2 (⟨t.val * 5000 + p.val, row_lt3 t p⟩ : Fin 100000) q) := by
  obtain ⟨e0, e1, e2, e3, e4, e5, e6, e7, e8, e9⟩ := idx_facts3 t
  show V c main_v50 (((cfg3.win 0).blk t).view.emb (ix2 p q)) = _
  refine congrArg (V c main_v50) (idx2_ext _ _ _ ?_ ?_)
  · show win3_0.index t (0 : Fin 2) * 5000 + 1 * p.val = t.val * 5000 + p.val; omega
  · show win3_0.index t (1 : Fin 2) * 64 + 1 * q.val = q.val; omega

/-- The own-rows block at point t, entry (p, q). -/
theorem iblk3_1_apply (c : Dev nD) (t : Fin cfg3.N) (p : Fin 5000) (q : Fin 64) :
    iblk3 V c 1 t (ix2 p q) = V c main_v35 (ix2 (⟨t.val * 5000 + p.val, row_lt3 t p⟩ : Fin 100000) q) := by
  obtain ⟨e0, e1, e2, e3, e4, e5, e6, e7, e8, e9⟩ := idx_facts3 t
  show V c main_v35 (((cfg3.win 1).blk t).view.emb (ix2 p q)) = _
  refine congrArg (V c main_v35) (idx2_ext _ _ _ ?_ ?_)
  · show win3_1.index t (0 : Fin 2) * 5000 + 1 * p.val = t.val * 5000 + p.val; omega
  · show win3_1.index t (1 : Fin 2) * 64 + 1 * q.val = q.val; omega

/-- The normaliser block at point t, row p. -/
theorem iblk3_2_apply (c : Dev nD) (t : Fin cfg3.N) (p : Fin 5000) :
    iblk3 V c 2 t (ix2 p (0 : Fin 1)) = V c main_v16 (ix2 (⟨t.val * 5000 + p.val, row_lt3 t p⟩ : Fin 100000) (0 : Fin 1)) := by
  obtain ⟨e0, e1, e2, e3, e4, e5, e6, e7, e8, e9⟩ := idx_facts3 t
  show V c main_v16 (((cfg3.win 2).blk t).view.emb (ix2 p (0 : Fin 1))) = _
  refine congrArg (V c main_v16) (idx2_ext _ _ _ ?_ ?_)
  · show win3_2.index t (0 : Fin 2) * 5000 + 1 * p.val = t.val * 5000 + p.val; omega
  · show win3_2.index t (1 : Fin 2) * 1 + 1 * 0 = 0; omega

/-- The bias block at any point is the bias row. -/
theorem iblk3_3_apply (c : Dev nD) (t : Fin cfg3.N) (q : Fin 64) :
    iblk3 V c 3 t (ix2 (0 : Fin 1) q) = V c main_v51 (ix2 (0 : Fin 1) q) := by
  obtain ⟨e0, e1, e2, e3, e4, e5, e6, e7, e8, e9⟩ := idx_facts3 t
  show V c main_v51 (((cfg3.win 3).blk t).view.emb (ix2 (0 : Fin 1) q)) = _
  refine congrArg (V c main_v51) (idx2_ext _ _ _ ?_ ?_)
  · show win3_3.index t (0 : Fin 2) * 1 + 1 * 0 = 0; omega
  · show win3_3.index t (1 : Fin 2) * 64 + 1 * q.val = q.val; omega

/-- What point t writes back is block t of the epilogue of the entry arrays. -/
theorem flushed3_eq (c : Dev nD) (t : Fin cfg3.N) :
    (dat3 V c).flushed 4 t = ((cfg3.win 4).blk t).view.read (Elt Ideal) (G3 (V c main_v16) (V c main_v50) (V c main_v35) (V c main_v51)) := by
  show (cfg3.win 4).cut (grid3.coords t) ((dat3 V c).after 4 t) = _
  rw [after3_4]
  unfold out3_4
  rw [View.canon_unit_zero hz]
  simp only [View.ld_unit_zero (S := S5000x64) hz, View.ld_unit_zero (S := S1x64) hz, View.ld_unit_zero (S := S5000x1) hz]
  obtain ⟨e0, e1, e2, e3, e4, e5, e6, e7, e8, e9⟩ := idx_facts3 t
  funext j
  obtain ⟨p, q, rfl⟩ : ∃ (p : Fin 5000) (q : Fin 64), j = ix2 p q := ⟨j 0, j 1, eq_ix2 j⟩
  have hE : ((cfg3.win 4).blk t).view.emb (ix2 p q) = ix2 (⟨t.val * 5000 + p.val, row_lt3 t p⟩ : Fin 100000) q := by
    refine idx2_ext _ _ _ ?_ ?_
    · show win3_4.index t (0 : Fin 2) * 5000 + 1 * p.val = t.val * 5000 + p.val; omega
    · show win3_4.index t (1 : Fin 2) * 64 + 1 * q.val = q.val; omega
  refine (pay3_apply (iblk3 V c 2 t) (iblk3 V c 3 t) (iblk3 V c 0 t) (iblk3 V c 1 t) p q).trans ?_
  refine Eq.trans ?_ (congrArg (G3 (V c main_v16) (V c main_v50) (V c main_v35) (V c main_v51)) hE).symm
  show _ = max (epiAt 64 (V c main_v16) (V c main_v50) (V c main_v35) (V c main_v51) (⟨t.val * 5000 + p.val, row_lt3 t p⟩ : Fin 100000) q) 0
  unfold epiAt
  rw [iblk3_2_apply, iblk3_0_apply, iblk3_1_apply, iblk3_3_apply]

/-- An index of the array is in point t's block iff each coordinate is in the block's range on its axis. -/
theorem mem_blk3 (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v52).slice (win3_4.rect t)).set ↔ _
  rw [View.set_slice_whole, Rect.mem_set_unit]
  exact Iff.rfl

/-- Row r of the array lies in the block of point r / 5000, and every point writes back. -/
theorem cover3 (i : S100000x64.Idx) : ∃ t : Fin cfg3.N, (cfg3.win 4).flush t = true ∧ i ∈ ((cfg3.win 4).blk t).view.set := by
  have hN : cfg3.N = 20 := N_3
  have h0 : (i 0).val < 100000 := idx2_lt0 i
  have h1 : (i 1).val < 64 := idx2_lt1 i
  have hlt : (i 0).val / 5000 < cfg3.N := by rw [hN]; omega
  obtain ⟨e0, e1, e2, e3, e4, e5, e6, e7, e8, e9⟩ := idx_facts3 ⟨(i 0).val / 5000, hlt⟩
  refine ⟨⟨(i 0).val / 5000, hlt⟩, flush3_4 _, ?_⟩
  rw [mem_blk3]
  intro a
  match a with
  | ⟨0, _⟩ =>
    show win3_4.index ⟨(i 0).val / 5000, hlt⟩ (0 : Fin 2) * 5000 ≤ (i 0).val ∧ (i 0).val < win3_4.index ⟨(i 0).val / 5000, hlt⟩ (0 : Fin 2) * 5000 + 5000
    rw [e8]; show (i 0).val / 5000 * 5000 ≤ (i 0).val ∧ (i 0).val < (i 0).val / 5000 * 5000 + 5000; omega
  | ⟨1, _⟩ =>
    show win3_4.index ⟨(i 0).val / 5000, hlt⟩ (1 : Fin 2) * 64 ≤ (i 1).val ∧ (i 1).val < win3_4.index ⟨(i 0).val / 5000, hlt⟩ (1 : Fin 2) * 64 + 64
    rw [e9]; omega

/-- The layer's output array after region 3, entry by entry. -/
theorem final3 (c : Dev nD) (p : Fin 100000) (q : Fin 64) :
    (dat3 (F := Ideal) V c).arrAt 4 cfg3.N (ix2 p q) = max (epiAt 64 (V c main_v16) (V c main_v50) (V c main_v35) (V c main_v51) p q) 0 :=
  congrFun ((dat3 V c).arrAt_eq_of_cover 4 (G3 (V c main_v16) (V c main_v50) (V c main_v35) (V c main_v51)) (fun t _ => flushed3_eq V c t) (cover3)) (ix2 p q)

end Final3

end Cert.KernelIdeal.Fr

end
-- ==== Proof.Ref.L2.lean ====
/-
  Layer 2 of the reference, read entry by entry at the ideal values: the projection h is the matrix product of the
  layer's input with its weight; the accumulator starts at zero; the update of edge e is row (source of e) of h
  times the normaliser at the source times the normaliser at the target; the layer's output at (p, q) is the
  segment sum of the updates into the target rows plus h(p,q) times the squared normaliser at p plus the bias at q,
  bounded below by 0.
-/
import proofs.«122759_j29180007809406_2_alg».proof.Proof.Gen.ReferenceIdeal.Read
import proofs.«122759_j29180007809406_2_alg».proof.Proof.LibRowSum
import Idealize.ShloMosaic.PureOps.Ideal.Laws

noncomputable section

namespace Cert.RefSide

open Idealize.ShloMosaic Idealize.ShloMosaic.ValueIdx Cert.ReferenceIdeal Cert.ReferenceIdeal.Read

/-- The layer's projection at (p, q): the sum over k of input (p, k) times weight (k, q). -/
theorem r2_h (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (p : Fin 100000) (q : Fin 64) :
    val_main_v59 (F := Ideal) x0 x1 x2 x3 x4 (ix2 p q) = ∑ k : Fin 64, val_main_v58 (F := Ideal) x0 x1 x2 x3 (ix2 p k) * x4 (ix2 k q) :=
  (val_main_v59_apply x0 x1 x2 x3 x4 (ix2 p q)).trans (Finset.sum_congr rfl fun k _ => by
    rw [show lidx_main_v59 (ix2 p q) k = ix2 p k from idx2_ext _ p k rfl rfl,
      show ridx_main_v59 (ix2 p q) k = ix2 k q from idx2_ext _ k q rfl rfl])

/-- The accumulator the segment sum starts from is zero everywhere. -/
theorem r2_zero (j : S100000x64.Idx) : val_main_v75 (F := Ideal) j = 0 := by
  rw [val_main_v75_apply, val_main_cst_16_apply]
  exact Ideal.ofBits_zero_f32

/-- The update of edge e at column c: the gathered row of the projection times the two gathered normalisers. -/
theorem r2_upd (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (e : Fin 1600000) (c : Fin 64) :
    val_main_v85 (F := Ideal) x0 x1 x2 x3 x4 (ix2 e c)
      = Host.gather gather_S100000x64_S1600000x1_S1600000x64_1_0_n_n_0_1_164 (val_main_v59 (F := Ideal) x0 x1 x2 x3 x4) (val_main_v81 (F := Ideal) x1) (ix2 e c)
        * (Host.gather gather_S100000_S1600000x1_S1600000_n_0_n_n_0_1_1 (val_main_v15 (F := Ideal) x1) (val_main_v81 (F := Ideal) x1) (ix1 e)
          * Host.gather gather_S100000_S1600000x1_S1600000_n_0_n_n_0_1_1 (val_main_v15 (F := Ideal) x1) (val_main_v91 (F := Ideal) x1) (ix1 e)) := by
  rw [val_main_v85_apply, val_main_v84_apply, val_main_v83_apply, val_main_v74_apply]
  rw [show idx_main_v83 (idx_main_v84 (ix2 e c)) = ix1 e from idx1_ext _ e rfl]
  unfold val_main_v82 val_main_v66 val_main_v73
  rw [show val_main_v65 (F := Ideal) x1 = val_main_v81 (F := Ideal) x1 from rfl,
    show val_main_v72 (F := Ideal) x1 = val_main_v91 (F := Ideal) x1 from rfl]
  rfl

/-- The layer's output at (p, q). -/
theorem r2_out (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (p : Fin 100000) (q : Fin 64) :
    val_main_v101 (F := Ideal) x0 x1 x2 x3 x4 x5 (ix2 p q)
      = max (Ideal.hostScatterAdd scatter_S100000x64_S1600000x1_S1600000x64_1_0_0_1 (val_main_v75 (F := Ideal)) (val_main_v91 (F := Ideal) x1) (val_main_v85 (F := Ideal) x0 x1 x2 x3 x4) (ix2 p q) + val_main_v59 (F := Ideal) x0 x1 x2 x3 x4 (ix2 p q) * (val_main_v15 (F := Ideal) x1 (ix1 p) * val_main_v15 (F := Ideal) x1 (ix1 p)) + x5 (ix1 q)) 0 := by
  rw [val_main_v101_apply, val_main_v100_apply, val_main_v97_apply, val_main_v96_apply, val_main_v95_apply, val_main_v94_apply, val_main_v93_apply, val_main_v99_apply, val_main_v98_apply, val_main_call1_v0_apply, val_main_call1_cst_apply]
  rw [show idx_main_v94 (idx_main_v95 (ix2 p q)) = ix1 p from idx1_ext _ p rfl,
    show idx_main_v98 (idx_main_v99 (ix2 p q)) = ix1 q from idx1_ext _ q rfl]
  unfold val_main_v92
  have hs : (Host.scatterAdd scatter_S100000x64_S1600000x1_S1600000x64_1_0_0_1 (val_main_v75 (F := Ideal)) (val_main_v91 (F := Ideal) x1) (val_main_v85 (F := Ideal) x0 x1 x2 x3 x4) : FVec Ideal S100000x64 .f32)
      = Ideal.hostScatterAdd scatter_S100000x64_S1600000x1_S1600000x64_1_0_0_1 (val_main_v75 (F := Ideal)) (val_main_v91 (F := Ideal) x1) (val_main_v85 (F := Ideal) x0 x1 x2 x3 x4) := rfl
  rw [hs]
  generalize Ideal.hostScatterAdd scatter_S100000x64_S1600000x1_S1600000x64_1_0_0_1 (val_main_v75 (F := Ideal)) (val_main_v91 (F := Ideal) x1) (val_main_v85 (F := Ideal) x0 x1 x2 x3 x4) (ix2 p q) = A
  generalize val_main_v59 (F := Ideal) x0 x1 x2 x3 x4 (ix2 p q) = H
  generalize val_main_v15 (F := Ideal) x1 (ix1 p) = N
  generalize x5 (ix1 q) = B
  rw [Ideal.ofBits_def, Ideal.ofBits_zero_f32]
  rfl

end Cert.RefSide

end
-- ==== Proof.Ref.Cols.lean ====
/-
  The wrapped index columns of the reference. Each layer recomputes, from the edge list alone, the source column
  (a negative index wrapped by adding the node count) and the target column, once for the normaliser and once for the
  rows; all source columns are one array and all target columns are one array, being the same operations of the edge list.
-/
import proofs.«122759_j29180007809406_2_alg».proof.Proof.Gen.ReferenceIdeal.Read

noncomputable section

namespace Cert.RefSide

open Idealize.ShloMosaic Idealize.ShloMosaic.ValueIdx Cert.ReferenceIdeal Cert.ReferenceIdeal.Read

variable {F : FTy → Type} [FloatOps F]

/-- Layer 1's source column for the normaliser is its source column for the rows. -/
theorem col_src1 (x1 : (⟨S2x1600000, .i32⟩ : BufTy).Contents (Elt F)) : val_main_v22 (F := F) x1 = val_main_v38 (F := F) x1 := rfl
/-- Layer 1's target column for the normaliser is its target column for the rows. -/
theorem col_dst1 (x1 : (⟨S2x1600000, .i32⟩ : BufTy).Contents (Elt F)) : val_main_v29 (F := F) x1 = val_main_v48 (F := F) x1 := rfl
/-- Layer 2's source column is layer 1's. -/
theorem col_src2 (x1 : (⟨S2x1600000, .i32⟩ : BufTy).Contents (Elt F)) : val_main_v81 (F := F) x1 = val_main_v38 (F := F) x1 := rfl
/-- Layer 3's source column is layer 1's. -/
theorem col_src3 (x1 : (⟨S2x1600000, .i32⟩ : BufTy).Contents (Elt F)) : val_main_v124 (F := F) x1 = val_main_v38 (F := F) x1 := rfl
/-- Layer 2's target column is layer 1's. -/
theorem col_dst2 (x1 : (⟨S2x1600000, .i32⟩ : BufTy).Contents (Elt F)) : val_main_v91 (F := F) x1 = val_main_v48 (F := F) x1 := rfl
/-- Layer 3's target column is layer 1's. -/
theorem col_dst3 (x1 : (⟨S2x1600000, .i32⟩ : BufTy).Contents (Elt F)) : val_main_v134 (F := F) x1 = val_main_v48 (F := F) x1 := rfl
/-- Layer 2's columns for the normaliser are its columns for the rows. -/
theorem col_src2n (x1 : (⟨S2x1600000, .i32⟩ : BufTy).Contents (Elt F)) : val_main_v65 (F := F) x1 = val_main_v81 (F := F) x1 := rfl
theorem col_dst2n (x1 : (⟨S2x1600000, .i32⟩ : BufTy).Contents (Elt F)) : val_main_v72 (F := F) x1 = val_main_v91 (F := F) x1 := rfl
/-- Layer 3's columns for the normaliser are its columns for the rows. -/
theorem col_src3n (x1 : (⟨S2x1600000, .i32⟩ : BufTy).Contents (Elt F)) : val_main_v108 (F := F) x1 = val_main_v124 (F := F) x1 := rfl
theorem col_dst3n (x1 : (⟨S2x1600000, .i32⟩ : BufTy).Contents (Elt F)) : val_main_v115 (F := F) x1 = val_main_v134 (F := F) x1 := rfl

end Cert.RefSide

end
-- ==== Proof.KI.Lay2.lean ====
/-
  The second layer: its input is the first layer's output, which is the reference's; the same law joins the outputs.
-/
import proofs.«122759_j29180007809406_2_alg».proof.Proof.KI.Lay1
import proofs.«122759_j29180007809406_2_alg».proof.Proof.Val.Fin2
import proofs.«122759_j29180007809406_2_alg».proof.Proof.Val.Fin3
import proofs.«122759_j29180007809406_2_alg».proof.Proof.Ref.L2
import proofs.«122759_j29180007809406_2_alg».proof.Proof.Ref.Cols
import Idealize.ShloMosaic.Lib.StableHlo.Run
import Idealize.ShloMosaic.Lib.ValueLayout

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.Sem
open Cert.ReferenceIdeal.Read Cert.RefSide

variable (m : (ℓ : Loc nD τ sig) → Buf (Elt Ideal) ℓ) (ρ : Dev nD → PrngReg)

/-- The projected features of the second layer, as an array of extended reals. -/
abbrev feat2 (x0 : (⟨Cert.ReferenceIdeal.S100000x64, .f32⟩ : BufTy).Contents (Elt Ideal))
    (x1 : (⟨Cert.ReferenceIdeal.S2x1600000, .i32⟩ : BufTy).Contents (Elt Ideal))
    (x2 : (⟨Cert.ReferenceIdeal.S64x64, .f32⟩ : BufTy).Contents (Elt Ideal))
    (x3 : (⟨Cert.ReferenceIdeal.S64, .f32⟩ : BufTy).Contents (Elt Ideal))
    (x4 : (⟨Cert.ReferenceIdeal.S64x64, .f32⟩ : BufTy).Contents (Elt Ideal)) : (⟨2, ![100000, 64]⟩ : Shape).Idx → EReal :=
  val_main_v59 (F := Ideal) x0 x1 x2 x3 x4

/-- The second linear region's output, as an array of extended reals. -/
abbrev scaled2 (c : Dev nD) : (⟨2, ![100000, 64]⟩ : Shape).Idx → EReal := W5 m ρ c (Proc.devRef .tc main_v35)

/-- The second linear region's output at (p, q): the projected features of node p, times its normaliser. -/
theorem hp2 (h0 : ∀ x1 p, 0 ≤ disR x1 (ix1 p)) (ht : ∀ x1 p, disR x1 (ix1 p) ≠ ⊤) (c : Dev nD) (p : Fin 100000) (q : Fin 64) :
    scaled2 m ρ c (ix2 p q) = feat2 (m ((c : Thread nD τ).loc main_arg0)) (m ((c : Thread nD τ).loc main_arg1)) (m ((c : Thread nD τ).loc main_arg2)) (m ((c : Thread nD τ).loc main_arg3)) (m ((c : Thread nD τ).loc main_arg4)) (ix2 p q) * disR (m ((c : Thread nD τ).loc main_arg1)) (ix1 p) := by
  have e : W5 m ρ c (Proc.devRef .tc main_v35) = (dat2 (U4 m ρ) c).arrAt 3 cfg2.N := W5_arr m ρ c 3
  show W5 m ρ c (Proc.devRef .tc main_v35) (ix2 p q) = _
  rw [e, final2 (U4 m ρ) c p q]
  show projAt 64 (W4 m ρ c (Proc.devRef .tc main_v34)) (W4 m ρ c (Proc.devRef .tc main_arg4)) (W4 m ρ c (Proc.devRef .tc main_v16)) p q = _
  rw [x1_eq m ρ h0 ht c, arg4_at4 m ρ c, dis_at4 m ρ c]
  unfold projAt
  rw [shapeCast_a_a1_apply]
  show _ = val_main_v59 (F := Ideal) _ _ _ _ _ (ix2 p q) * _
  rw [r2_h]

/-- The second layer's output is the reference's second layer of the same arguments. -/
theorem x2_eq (h0 : ∀ x1 p, 0 ≤ disR x1 (ix1 p)) (ht : ∀ x1 p, disR x1 (ix1 p) ≠ ⊤) (c : Dev nD) :
    W7 m ρ c (Proc.devRef .tc main_v52) = val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext idx
  obtain ⟨p, q, rfl⟩ : ∃ (p : Fin 100000) (q : Fin 64), idx = ix2 p q := ⟨idx 0, idx 1, eq_ix2 idx⟩
  have e : W7 m ρ c (Proc.devRef .tc main_v52) = (dat3 (U6 m ρ) c).arrAt 4 cfg3.N := W7_arr m ρ c 4
  rw [e, final3 (U6 m ρ) c p q, r2_out, col_dst2]
  show max (epiAt 64 (W6 m ρ c (Proc.devRef .tc main_v16)) (W6 m ρ c (Proc.devRef .tc main_v50)) (W6 m ρ c (Proc.devRef .tc main_v35)) (W6 m ρ c (Proc.devRef .tc main_v51)) p q) 0 = _
  rw [dis_at6 m ρ c, agg2 m ρ c, host3_keep m ρ c main_v35 (by decide), bias2 m ρ c]
  unfold epiAt
  rw [shapeCast_a_a1_apply, shapeCast_a_1a_apply]
  refine congrArg (fun t => max t 0) ?_
  exact Bridge.layerK (N := 100000) (C := 64) (E := 1600000) (by norm_num)
    scatter_S100000x64_S1600000x1_S1600000x64_1_0_0_1 Cert.ReferenceIdeal.scatter_S100000x64_S1600000x1_S1600000x64_1_0_0_1
    rfl rfl rfl rfl rfl rfl rfl rfl
    gather_S100000x64_S1600000x1_S1600000x64_1_0_n_n_0_1_164 Cert.ReferenceIdeal.gather_S100000x64_S1600000x1_S1600000x64_1_0_n_n_0_1_164
    rfl rfl rfl rfl rfl rfl rfl rfl rfl rfl rfl rfl rfl rfl
    Cert.ReferenceIdeal.gather_S100000_S1600000x1_S1600000_n_0_n_n_0_1_1 rfl rfl rfl rfl rfl rfl rfl
    _ _ zeros64 r2_zero
    (val_main_v38 (F := Ideal) (m ((c : Thread nD τ).loc main_arg1))) (val_main_v48 (F := Ideal) (m ((c : Thread nD τ).loc main_arg1)))
    (fun p => disR (m ((c : Thread nD τ).loc main_arg1)) (ix1 p)) (h0 _) (ht _)
    (disR (m ((c : Thread nD τ).loc main_arg1))) (fun _ => rfl)
    (fun p q => feat2 (m ((c : Thread nD τ).loc main_arg0)) (m ((c : Thread nD τ).loc main_arg1)) (m ((c : Thread nD τ).loc main_arg2)) (m ((c : Thread nD τ).loc main_arg3)) (m ((c : Thread nD τ).loc main_arg4)) (ix2 p q))
    (scaled2 m ρ c) (feat2 (m ((c : Thread nD τ).loc main_arg0)) (m ((c : Thread nD τ).loc main_arg1)) (m ((c : Thread nD τ).loc main_arg2)) (m ((c : Thread nD τ).loc main_arg3)) (m ((c : Thread nD τ).loc main_arg4)))
    (hp2 m ρ h0 ht c) (fun _ _ => rfl)
    (val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (fun e c' => by rw [r2_upd, col_src2, col_dst2])
    ((m ((c : Thread nD τ).loc main_arg5)) (ix1 q)) p q

end Cert.KernelIdeal.Fr

end
-- ==== Proof.Val.Fin4.lean ====
/-
  Region 4 on the whole array: after its twenty row blocks the projected array holds, at row p and column q,
  (∑ₖ x(p,k) · w(k,q)) · s(p,0) of the arrays the region was entered with. Each point writes back its block of that
  one function of the entry arrays (row r of the array is row r mod 5000 of block r / 5000), and the blocks cover
  the array.
-/
import proofs.«122759_j29180007809406_2_alg».proof.Proof.KI.Reg4
import proofs.«122759_j29180007809406_2_alg».proof.Proof.Val.Pay
import proofs.«122759_j29180007809406_2_alg».proof.Proof.LibRowSum
import Idealize.ShloMosaic.Lib.Pipeline.Value

set_option maxRecDepth 16384

noncomputable section

namespace Cert.KernelIdeal.Fr

open Idealize.ShloMosaic Idealize.ShloMosaic.TcCoe Idealize.ShloMosaic.ValueIdx Cert.KernelIdeal Cert.KernelIdeal.Gen
open Idealize.ShloMosaic.Pipeline (Dat)

section Final4
variable (V : (c : Dev nD) → (b : Ref sig .tc) → Buf (Elt Ideal) ((c : Thread nD τ).loc b))

/-- The whole array of the row-scaled projection's entries. -/
def G4 (x : S100000x64.Idx → EReal) (w : S64x32.Idx → EReal) (s : S100000x1.Idx → EReal) : S100000x32.Idx → EReal :=
  fun i => projAt 32 x w s (i 0) (i 1)

/-- The block index maps over the grid: the row-block windows sit at block (t, 0), the weight at block (0, 0). -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- Row p of block t is row 5000 t + p of the array. -/
theorem row_lt4 (t : Fin cfg4.N) (p : Fin 5000) : t.val * 5000 + p.val < 100000 := by
  have hN : cfg4.N = 20 := N_4
  have := t.isLt; have := p.isLt; omega

/-- The x block at point t, entry (p, k). -/
theorem iblk4_0_apply (c : Dev nD) (t : Fin cfg4.N) (p : Fin 5000) (k : Fin 64) :
    iblk4 V c 0 t (ix2 p k) = V c main_v52 (ix2 (⟨t.val * 5000 + p.val, row_lt4 t p⟩ : Fin 100000) k) := by
  obtain ⟨e0, e1, e2, e3, e4, e5, e6, e7⟩ := idx_facts4 t
  show V c main_v52 (((cfg4.win 0).blk t).view.emb (ix2 p k)) = _
  refine congrArg (V c main_v52) (idx2_ext _ _ _ ?_ ?_)
  · show win4_0.index t (0 : Fin 2) * 5000 + 1 * p.val = t.val * 5000 + p.val; omega
  · show win4_0.index t (1 : Fin 2) * 64 + 1 * k.val = k.val; omega

/-- The weight block at any point is the weight. -/
theorem iblk4_1_apply (c : Dev nD) (t : Fin cfg4.N) (k : Fin 64) (q : Fin 32) :
    iblk4 V c 1 t (ix2 k q) = V c main_arg6 (ix2 k q) := by
  obtain ⟨e0, e1, e2, e3, e4, e5, e6, e7⟩ := idx_facts4 t
  show V c main_arg6 (((cfg4.win 1).blk t).view.emb (ix2 k q)) = _
  refine congrArg (V c main_arg6) (idx2_ext _ _ _ ?_ ?_)
  · show win4_1.index t (0 : Fin 2) * 64 + 1 * k.val = k.val; omega
  · show win4_1.index t (1 : Fin 2) * 32 + 1 * q.val = q.val; omega

/-- The normaliser block at point t, row p. -/
theorem iblk4_2_apply (c : Dev nD) (t : Fin cfg4.N) (p : Fin 5000) :
    iblk4 V c 2 t (ix2 p (0 : Fin 1)) = V c main_v16 (ix2 (⟨t.val * 5000 + p.val, row_lt4 t p⟩ : Fin 100000) (0 : Fin 1)) := by
  obtain ⟨e0, e1, e2, e3, e4, e5, e6, e7⟩ := idx_facts4 t
  show V c main_v16 (((cfg4.win 2).blk t).view.emb (ix2 p (0 : Fin 1))) = _
  refine congrArg (V c main_v16) (idx2_ext _ _ _ ?_ ?_)
  · show win4_2.index t (0 : Fin 2) * 5000 + 1 * p.val = t.val * 5000 + p.val; omega
  · show win4_2.index t (1 : Fin 2) * 1 + 1 * 0 = 0; omega

/-- What point t writes back is block t of the row-scaled projection of the entry arrays. -/
theorem flushed4_eq (c : Dev nD) (t : Fin cfg4.N) :
    (dat4 V c).flushed 3 t = ((cfg4.win 3).blk t).view.read (Elt Ideal) (G4 (V c main_v52) (V c main_arg6) (V c main_v16)) := by
  show (cfg4.win 3).cut (grid4.coords t) ((dat4 V c).after 3 t) = _
  rw [after4_3]
  unfold out4_3
  rw [View.canon_unit_zero hz]
  simp only [View.ld_unit_zero (S := S5000x64) hz, View.ld_unit_zero (S := S64x32) hz, View.ld_unit_zero (S := S5000x1) hz]
  obtain ⟨e0, e1, e2, e3, e4, e5, e6, e7⟩ := idx_facts4 t
  funext j
  obtain ⟨p, q, rfl⟩ : ∃ (p : Fin 5000) (q : Fin 32), j = ix2 p q := ⟨j 0, j 1, eq_ix2 j⟩
  have hE : ((cfg4.win 3).blk t).view.emb (ix2 p q) = ix2 (⟨t.val * 5000 + p.val, row_lt4 t p⟩ : Fin 100000) q := by
    refine idx2_ext _ _ _ ?_ ?_
    · show win4_3.index t (0 : Fin 2) * 5000 + 1 * p.val = t.val * 5000 + p.val; omega
    · show win4_3.index t (1 : Fin 2) * 32 + 1 * q.val = q.val; omega
  refine (pay4_apply (iblk4 V c 0 t) (iblk4 V c 1 t) (iblk4 V c 2 t) p q).trans ?_
  refine Eq.trans ?_ (congrArg (G4 (V c main_v52) (V c main_arg6) (V c main_v16)) hE).symm
  show _ = projAt 32 (V c main_v52) (V c main_arg6) (V c main_v16) (⟨t.val * 5000 + p.val, row_lt4 t p⟩ : Fin 100000) q
  unfold projAt
  rw [iblk4_2_apply]
  refine congrArg (· * _) (Finset.sum_congr rfl fun k _ => ?_)
  rw [iblk4_0_apply, iblk4_1_apply]

/-- An index of the array is in point t's block iff each coordinate is in the block's range on its axis. -/
theorem mem_blk4 (t : Fin cfg4.N) (i : S100000x32.Idx) :
    i ∈ ((cfg4.win 3).blk t).view.set ↔ ∀ a : Fin 2, win4_3.index t a * S5000x32.size a ≤ (i a).val ∧ (i a).val < win4_3.index t a * S5000x32.size a + S5000x32.size a := by
  show i ∈ ((View.whole main_v53).slice (win4_3.rect t)).set ↔ _
  rw [View.set_slice_whole, Rect.mem_set_unit]
  exact Iff.rfl

/-- Row r of the array lies in the block of point r / 5000, and every point writes back. -/
theorem cover4 (i : S100000x32.Idx) : ∃ t : Fin cfg4.N, (cfg4.win 3).flush t = true ∧ i ∈ ((cfg4.win 3).blk t).view.set := by
  have hN : cfg4.N = 20 := N_4
  have h0 : (i 0).val < 100000 := idx2_lt0 i
  have h1 : (i 1).val < 32 := idx2_lt1 i
  have hlt : (i 0).val / 5000 < cfg4.N := by rw [hN]; omega
  obtain ⟨e0, e1, e2, e3, e4, e5, e6, e7⟩ := idx_facts4 ⟨(i 0).val / 5000, hlt⟩
  refine ⟨⟨(i 0).val / 5000, hlt⟩, flush4_3 _, ?_⟩
  rw [mem_blk4]
  intro a
  match a with
  | ⟨0, _⟩ =>
    show win4_3.index ⟨(i 0).val / 5000, hlt⟩ (0 : Fin 2) * 5000 ≤ (i 0).val ∧ (i 0).val < win4_3.index ⟨(i 0).val / 5000, hlt⟩ (0 : Fin 2) * 5000 + 5000
    rw [e6]; show (i 0).val / 5000 * 5000 ≤ (i 0).val ∧ (i 0).val < (i 0).val / 5000 * 5000 + 5000; omega
  | ⟨1, _⟩ =>
    show win4_3.index ⟨(i 0).val / 5000, hlt⟩ (1 : Fin 2) * 32 ≤ (i 1).val ∧ (i 1).val < win4_3.index ⟨(i 0).val / 5000, hlt⟩ (1 : Fin 2) * 32 + 32
    rw [e7]; omega

/-- The projected array after region 4, entry by entry. -/
theorem final4 (c : Dev nD) (p : Fin 100000) (q : Fin 32) :
    (dat4 (F := Ideal) V c).arrAt 3 cfg4.N (ix2 p q) = projAt 32 (V c main_v52) (V c main_arg6) (V c main_v16) p q :=
  congrFun ((dat4 V c).arrAt_eq_of_cover 3 (G4 (V c main_v52) (V c main_arg6) (V c main_v16)) (fun t _ => flushed4_eq V c t) (cover4)) (ix2 p q)

end Final4

end Cert.KernelIdeal.Fr

end
-- ==== Proof.Val.Fin5.lean ====
/-
  Region 5 on the whole array: after its twenty row blocks the layer's output array holds, at row p and column q,
  s(p,0) · (a(p,q) + o(p,q)) + b(0,q) of the arrays the region was entered with. Each point writes back its block
  of that one function of the entry arrays (row r of the array is row r mod 5000 of block r / 5000), and the blocks
  cover the array.
-/
import proofs.«122759_j29180007809406_2_alg».proof.Proof.KI.Reg5
import proofs.«122759_j29180007809406_2_alg».proof.Proof.Val.Pay
import proofs.«122759_j29180007809406_2_alg».proof.Proof.LibRowSum
import Idealize.ShloMosaic.Lib.Pipeline.Value

set_option maxRecDepth 16384

noncomputable section

namespace Cert.KernelIdeal.Fr

open Idealize.ShloMosaic Idealize.ShloMosaic.TcCoe Idealize.ShloMosaic.ValueIdx Cert.KernelIdeal Cert.KernelIdeal.Gen
open Idealize.ShloMosaic.Pipeline (Dat)

section Final5
variable (V : (c : Dev nD) → (b : Ref sig .tc) → Buf (Elt Ideal) ((c : Thread nD τ).loc b))

/-- The whole array of the epilogue's entries. -/
def G5 (s : S100000x1.Idx → EReal) (a o : S100000x32.Idx → EReal) (b : S1x32.Idx → EReal) : S100000x32.Idx → EReal :=
  fun i => epiAt 32 s a o b (i 0) (i 1)

/-- The block index maps over the grid: the row-block windows sit at block (t, 0), the bias row at block (0, 0). -/
theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- Row p of block t is row 5000 t + p of the array. -/
theorem row_lt5 (t : Fin cfg5.N) (p : Fin 5000) : t.val * 5000 + p.val < 100000 := by
  have hN : cfg5.N = 20 := N_5
  have := t.isLt; have := p.isLt; omega

/-- The aggregate block at point t, entry (p, q). -/
theorem iblk5_0_apply (c : Dev nD) (t : Fin cfg5.N) (p : Fin 5000) (q : Fin 32) :
    iblk5 V c 0 t (ix2 p q) = V c main_v68 (ix2 (⟨t.val * 5000 + p.val, row_lt5 t p⟩ : Fin 100000) q) := by
  obtain ⟨e0, e1, e2, e3, e4, e5, e6, e7, e8, e9⟩ := idx_facts5 t
  show V c main_v68 (((cfg5.win 0).blk t).view.emb (ix2 p q)) = _
  refine congrArg (V c main_v68) (idx2_ext _ _ _ ?_ ?_)
  · show win5_0.index t (0 : Fin 2) * 5000 + 1 * p.val = t.val * 5000 + p.val; omega
  · show win5_0.index t (1 : Fin 2) * 32 + 1 * q.val = q.val; omega

/-- The own-rows block at point t, entry (p, q). -/
theorem iblk5_1_apply (c : Dev nD) (t : Fin cfg5.N) (p : Fin 5000) (q : Fin 32) :
    iblk5 V c 1 t (ix2 p q) = V c main_v53 (ix2 (⟨t.val * 5000 + p.val, row_lt5 t p⟩ : Fin 100000) q) := by
  obtain ⟨e0, e1, e2, e3, e4, e5, e6, e7, e8, e9⟩ := idx_facts5 t
  show V c main_v53 (((cfg5.win 1).blk t).view.emb (ix2 p q)) = _
  refine congrArg (V c main_v53) (idx2_ext _ _ _ ?_ ?_)
  · show win5_1.index t (0 : Fin 2) * 5000 + 1 * p.val = t.val * 5000 + p.val; omega
  · show win5_1.index t (1 : Fin 2) * 32 + 1 * q.val = q.val; omega

/-- The normaliser block at point t, row p. -/
theorem iblk5_2_apply (c : Dev nD) (t : Fin cfg5.N) (p : Fin 5000) :
    iblk5 V c 2 t (ix2 p (0 : Fin 1)) = V c main_v16 (ix2 (⟨t.val * 5000 + p.val, row_lt5 t p⟩ : Fin 100000) (0 : Fin 1)) := by
  obtain ⟨e0, e1, e2, e3, e4, e5, e6, e7, e8, e9⟩ := idx_facts5 t
  show V c main_v16 (((cfg5.win 2).blk t).view.emb (ix2 p (0 : Fin 1))) = _
  refine congrArg (V c main_v16) (idx2_ext _ _ _ ?_ ?_)
  · show win5_2.index t (0 : Fin 2) * 5000 + 1 * p.val = t.val * 5000 + p.val; omega
  · show win5_2.index t (1 : Fin 2) * 1 + 1 * 0 = 0; omega

/-- The bias block at any point is the bias row. -/
theorem iblk5_3_apply (c : Dev nD) (t : Fin cfg5.N) (q : Fin 32) :
    iblk5 V c 3 t (ix2 (0 : Fin 1) q) = V c main_v69 (ix2 (0 : Fin 1) q) := by
  obtain ⟨e0, e1, e2, e3, e4, e5, e6, e7, e8, e9⟩ := idx_facts5 t
  show V c main_v69 (((cfg5.win 3).blk t).view.emb (ix2 (0 : Fin 1) q)) = _
  refine congrArg (V c main_v69) (idx2_ext _ _ _ ?_ ?_)
  · show win5_3.index t (0 : Fin 2) * 1 + 1 * 0 = 0; omega
  · show win5_3.index t (1 : Fin 2) * 32 + 1 * q.val = q.val; omega

/-- What point t writes back is block t of the epilogue of the entry arrays. -/
theorem flushed5_eq (c : Dev nD) (t : Fin cfg5.N) :
    (dat5 V c).flushed 4 t = ((cfg5.win 4).blk t).view.read (Elt Ideal) (G5 (V c main_v16) (V c main_v68) (V c main_v53) (V c main_v69)) := by
  show (cfg5.win 4).cut (grid5.coords t) ((dat5 V c).after 4 t) = _
  rw [after5_4]
  unfold out5_4
  rw [View.canon_unit_zero hz]
  simp only [View.ld_unit_zero (S := S5000x32) hz, View.ld_unit_zero (S := S1x32) hz, View.ld_unit_zero (S := S5000x1) hz]
  obtain ⟨e0, e1, e2, e3, e4, e5, e6, e7, e8, e9⟩ := idx_facts5 t
  funext j
  obtain ⟨p, q, rfl⟩ : ∃ (p : Fin 5000) (q : Fin 32), j = ix2 p q := ⟨j 0, j 1, eq_ix2 j⟩
  have hE : ((cfg5.win 4).blk t).view.emb (ix2 p q) = ix2 (⟨t.val * 5000 + p.val, row_lt5 t p⟩ : Fin 100000) q := by
    refine idx2_ext _ _ _ ?_ ?_
    · show win5_4.index t (0 : Fin 2) * 5000 + 1 * p.val = t.val * 5000 + p.val; omega
    · show win5_4.index t (1 : Fin 2) * 32 + 1 * q.val = q.val; omega
  refine (pay5_apply (iblk5 V c 2 t) (iblk5 V c 3 t) (iblk5 V c 0 t) (iblk5 V c 1 t) p q).trans ?_
  refine Eq.trans ?_ (congrArg (G5 (V c main_v16) (V c main_v68) (V c main_v53) (V c main_v69)) hE).symm
  show _ = epiAt 32 (V c main_v16) (V c main_v68) (V c main_v53) (V c main_v69) (⟨t.val * 5000 + p.val, row_lt5 t p⟩ : Fin 100000) q
  unfold epiAt
  rw [iblk5_2_apply, iblk5_0_apply, iblk5_1_apply, iblk5_3_apply]

/-- An index of the array is in point t's block iff each coordinate is in the block's range on its axis. -/
theorem mem_blk5 (t : Fin cfg5.N) (i : S100000x32.Idx) :
    i ∈ ((cfg5.win 4).blk t).view.set ↔ ∀ a : Fin 2, win5_4.index t a * S5000x32.size a ≤ (i a).val ∧ (i a).val < win5_4.index t a * S5000x32.size a + S5000x32.size a := by
  show i ∈ ((View.whole main_v70).slice (win5_4.rect t)).set ↔ _
  rw [View.set_slice_whole, Rect.mem_set_unit]
  exact Iff.rfl

/-- Row r of the array lies in the block of point r / 5000, and every point writes back. -/
theorem cover5 (i : S100000x32.Idx) : ∃ t : Fin cfg5.N, (cfg5.win 4).flush t = true ∧ i ∈ ((cfg5.win 4).blk t).view.set := by
  have hN : cfg5.N = 20 := N_5
  have h0 : (i 0).val < 100000 := idx2_lt0 i
  have h1 : (i 1).val < 32 := idx2_lt1 i
  have hlt : (i 0).val / 5000 < cfg5.N := by rw [hN]; omega
  obtain ⟨e0, e1, e2, e3, e4, e5, e6, e7, e8, e9⟩ := idx_facts5 ⟨(i 0).val / 5000, hlt⟩
  refine ⟨⟨(i 0).val / 5000, hlt⟩, flush5_4 _, ?_⟩
  rw [mem_blk5]
  intro a
  match a with
  | ⟨0, _⟩ =>
    show win5_4.index ⟨(i 0).val / 5000, hlt⟩ (0 : Fin 2) * 5000 ≤ (i 0).val ∧ (i 0).val < win5_4.index ⟨(i 0).val / 5000, hlt⟩ (0 : Fin 2) * 5000 + 5000
    rw [e8]; show (i 0).val / 5000 * 5000 ≤ (i 0).val ∧ (i 0).val < (i 0).val / 5000 * 5000 + 5000; omega
  | ⟨1, _⟩ =>
    show win5_4.index ⟨(i 0).val / 5000, hlt⟩ (1 : Fin 2) * 32 ≤ (i 1).val ∧ (i 1).val < win5_4.index ⟨(i 0).val / 5000, hlt⟩ (1 : Fin 2) * 32 + 32
    rw [e9]; omega

/-- The layer's output array after region 5, entry by entry. -/
theorem final5 (c : Dev nD) (p : Fin 100000) (q : Fin 32) :
    (dat5 (F := Ideal) V c).arrAt 4 cfg5.N (ix2 p q) = epiAt 32 (V c main_v16) (V c main_v68) (V c main_v53) (V c main_v69) p q :=
  congrFun ((dat5 V c).arrAt_eq_of_cover 4 (G5 (V c main_v16) (V c main_v68) (V c main_v53) (V c main_v69)) (fun t _ => flushed5_eq V c t) (cover5)) (ix2 p q)

end Final5

end Cert.KernelIdeal.Fr

end
-- ==== Proof.Ref.L3.lean ====
/-
  Layer 3 of the reference, read entry by entry at the ideal values: the projection h is the matrix product of the
  layer's input with its weight; the accumulator starts at zero; the update of edge e is row (source of e) of h
  times the normaliser at the source times the normaliser at the target; the layer's output at (p, q) is the
  segment sum of the updates into the target rows plus h(p,q) times the squared normaliser at p plus the bias at q.
-/
import proofs.«122759_j29180007809406_2_alg».proof.Proof.Gen.ReferenceIdeal.Read
import proofs.«122759_j29180007809406_2_alg».proof.Proof.LibRowSum
import Idealize.ShloMosaic.PureOps.Ideal.Laws

noncomputable section

namespace Cert.RefSide

open Idealize.ShloMosaic Idealize.ShloMosaic.ValueIdx Cert.ReferenceIdeal Cert.ReferenceIdeal.Read

/-- The layer's projection at (p, q): the sum over k of input (p, k) times weight (k, q). -/
theorem r3_h (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x32, .f32⟩ : BufTy).Contents (Elt Ideal)) (p : Fin 100000) (q : Fin 32) :
    val_main_v102 (F := Ideal) x0 x1 x2 x3 x4 x5 x6 (ix2 p q) = ∑ k : Fin 64, val_main_v101 (F := Ideal) x0 x1 x2 x3 x4 x5 (ix2 p k) * x6 (ix2 k q) :=
  (val_main_v102_apply x0 x1 x2 x3 x4 x5 x6 (ix2 p q)).trans (Finset.sum_congr rfl fun k _ => by
    rw [show lidx_main_v102 (ix2 p q) k = ix2 p k from idx2_ext _ p k rfl rfl,
      show ridx_main_v102 (ix2 p q) k = ix2 k q from idx2_ext _ k q rfl rfl])

/-- The accumulator the segment sum starts from is zero everywhere. -/
theorem r3_zero (j : S100000x32.Idx) : val_main_v118 (F := Ideal) j = 0 := by
  rw [val_main_v118_apply, val_main_cst_25_apply]
  exact Ideal.ofBits_zero_f32

/-- The update of edge e at column c: the gathered row of the projection times the two gathered normalisers. -/
theorem r3_upd (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x32, .f32⟩ : BufTy).Contents (Elt Ideal)) (e : Fin 1600000) (c : Fin 32) :
    val_main_v128 (F := Ideal) x0 x1 x2 x3 x4 x5 x6 (ix2 e c)
      = Host.gather gather_S100000x32_S1600000x1_S1600000x32_1_0_n_n_0_1_132 (val_main_v102 (F := Ideal) x0 x1 x2 x3 x4 x5 x6) (val_main_v124 (F := Ideal) x1) (ix2 e c)
        * (Host.gather gather_S100000_S1600000x1_S1600000_n_0_n_n_0_1_1 (val_main_v15 (F := Ideal) x1) (val_main_v124 (F := Ideal) x1) (ix1 e)
          * Host.gather gather_S100000_S1600000x1_S1600000_n_0_n_n_0_1_1 (val_main_v15 (F := Ideal) x1) (val_main_v134 (F := Ideal) x1) (ix1 e)) := by
  rw [val_main_v128_apply, val_main_v127_apply, val_main_v126_apply, val_main_v117_apply]
  rw [show idx_main_v126 (idx_main_v127 (ix2 e c)) = ix1 e from idx1_ext _ e rfl]
  unfold val_main_v125 val_main_v109 val_main_v116
  rw [show val_main_v108 (F := Ideal) x1 = val_main_v124 (F := Ideal) x1 from rfl,
    show val_main_v115 (F := Ideal) x1 = val_main_v134 (F := Ideal) x1 from rfl]
  rfl

/-- The layer's output at (p, q). -/
theorem r3_out (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x32, .f32⟩ : BufTy).Contents (Elt Ideal)) (x7 : (⟨S32, .f32⟩ : BufTy).Contents (Elt Ideal)) (p : Fin 100000) (q : Fin 32) :
    val_main_v143 (F := Ideal) x0 x1 x2 x3 x4 x5 x6 x7 (ix2 p q)
      = Ideal.hostScatterAdd scatter_S100000x32_S1600000x1_S1600000x32_1_0_0_1 (val_main_v118 (F := Ideal)) (val_main_v134 (F := Ideal) x1) (val_main_v128 (F := Ideal) x0 x1 x2 x3 x4 x5 x6) (ix2 p q) + val_main_v102 (F := Ideal) x0 x1 x2 x3 x4 x5 x6 (ix2 p q) * (val_main_v15 (F := Ideal) x1 (ix1 p) * val_main_v15 (F := Ideal) x1 (ix1 p)) + x7 (ix1 q) := by
  rw [val_main_v143_apply, val_main_v140_apply, val_main_v139_apply, val_main_v138_apply, val_main_v137_apply, val_main_v136_apply, val_main_v142_apply, val_main_v141_apply]
  rw [show idx_main_v137 (idx_main_v138 (ix2 p q)) = ix1 p from idx1_ext _ p rfl,
    show idx_main_v141 (idx_main_v142 (ix2 p q)) = ix1 q from idx1_ext _ q rfl]
  unfold val_main_v135
  have hs : (Host.scatterAdd scatter_S100000x32_S1600000x1_S1600000x32_1_0_0_1 (val_main_v118 (F := Ideal)) (val_main_v134 (F := Ideal) x1) (val_main_v128 (F := Ideal) x0 x1 x2 x3 x4 x5 x6) : FVec Ideal S100000x32 .f32)
      = Ideal.hostScatterAdd scatter_S100000x32_S1600000x1_S1600000x32_1_0_0_1 (val_main_v118 (F := Ideal)) (val_main_v134 (F := Ideal) x1) (val_main_v128 (F := Ideal) x0 x1 x2 x3 x4 x5 x6) := rfl
  rw [hs]
  generalize Ideal.hostScatterAdd scatter_S100000x32_S1600000x1_S1600000x32_1_0_0_1 (val_main_v118 (F := Ideal)) (val_main_v134 (F := Ideal) x1) (val_main_v128 (F := Ideal) x0 x1 x2 x3 x4 x5 x6) (ix2 p q) = A
  generalize val_main_v102 (F := Ideal) x0 x1 x2 x3 x4 x5 x6 (ix2 p q) = H
  generalize val_main_v15 (F := Ideal) x1 (ix1 p) = N
  generalize x7 (ix1 q) = B
  rfl

end Cert.RefSide

end
-- ==== Proof.KI.Lay3.lean ====
/-
  The third layer: its input is the second layer's output, which is the reference's; the same law joins the outputs,
  this layer being 32 wide and not clipped.
-/
import proofs.«122759_j29180007809406_2_alg».proof.Proof.KI.Lay2
import proofs.«122759_j29180007809406_2_alg».proof.Proof.Val.Fin4
import proofs.«122759_j29180007809406_2_alg».proof.Proof.Val.Fin5
import proofs.«122759_j29180007809406_2_alg».proof.Proof.Ref.L3
import proofs.«122759_j29180007809406_2_alg».proof.Proof.Ref.Cols
import Idealize.ShloMosaic.Lib.StableHlo.Run
import Idealize.ShloMosaic.Lib.ValueLayout

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.Sem
open Cert.ReferenceIdeal.Read Cert.RefSide

variable (m : (ℓ : Loc nD τ sig) → Buf (Elt Ideal) ℓ) (ρ : Dev nD → PrngReg)

/-- A scalar zero broadcast to the 32-wide feature table is zero at every entry. -/
theorem zeros32 (j : S100000x32.Idx) :
    broadcastInDim S100000x32 ![] bcast_S_S100000x32 (constant (F := Ideal) S_ .f32 0x00000000#32) j = 0 := by
  rw [broadcastInDim_apply _ bcast_S_S100000x32 _ j (fun a => a.elim0) (fun a => a.elim0)]
  exact Ideal.ofBits_zero_f32

/-- The projected features of the third layer, as an array of extended reals. -/
abbrev feat3 (x0 : (⟨Cert.ReferenceIdeal.S100000x64, .f32⟩ : BufTy).Contents (Elt Ideal))
    (x1 : (⟨Cert.ReferenceIdeal.S2x1600000, .i32⟩ : BufTy).Contents (Elt Ideal))
    (x2 : (⟨Cert.ReferenceIdeal.S64x64, .f32⟩ : BufTy).Contents (Elt Ideal))
    (x3 : (⟨Cert.ReferenceIdeal.S64, .f32⟩ : BufTy).Contents (Elt Ideal))
    (x4 : (⟨Cert.ReferenceIdeal.S64x64, .f32⟩ : BufTy).Contents (Elt Ideal))
    (x5 : (⟨Cert.ReferenceIdeal.S64, .f32⟩ : BufTy).Contents (Elt Ideal))
    (x6 : (⟨Cert.ReferenceIdeal.S64x32, .f32⟩ : BufTy).Contents (Elt Ideal)) : (⟨2, ![100000, 32]⟩ : Shape).Idx → EReal :=
  val_main_v102 (F := Ideal) x0 x1 x2 x3 x4 x5 x6

/-- The third linear region's output, as an array of extended reals. -/
abbrev scaled3 (c : Dev nD) : (⟨2, ![100000, 32]⟩ : Shape).Idx → EReal := W8 m ρ c (Proc.devRef .tc main_v53)

/-- The third linear region's output at (p, q): the projected features of node p, times its normaliser. -/
theorem hp3 (h0 : ∀ x1 p, 0 ≤ disR x1 (ix1 p)) (ht : ∀ x1 p, disR x1 (ix1 p) ≠ ⊤) (c : Dev nD) (p : Fin 100000) (q : Fin 32) :
    scaled3 m ρ c (ix2 p q) = feat3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 p q) * disR (m ((c : Thread nD τ).loc main_arg1)) (ix1 p) := by
  have e : W8 m ρ c (Proc.devRef .tc main_v53) = (dat4 (U7 m ρ) c).arrAt 3 cfg4.N := W8_arr m ρ c 3
  show W8 m ρ c (Proc.devRef .tc main_v53) (ix2 p q) = _
  rw [e, final4 (U7 m ρ) c p q]
  show projAt 32 (W7 m ρ c (Proc.devRef .tc main_v52)) (W7 m ρ c (Proc.devRef .tc main_arg6)) (W7 m ρ c (Proc.devRef .tc main_v16)) p q = _
  rw [x2_eq m ρ h0 ht c, arg6_at7 m ρ c, dis_at7 m ρ c]
  unfold projAt
  rw [shapeCast_a_a1_apply]
  show _ = val_main_v102 (F := Ideal) _ _ _ _ _ _ _ (ix2 p q) * _
  rw [r3_h]

/-- The third layer's output is the reference's third layer of the same arguments. -/
theorem x3_eq (h0 : ∀ x1 p, 0 ≤ disR x1 (ix1 p)) (ht : ∀ x1 p, disR x1 (ix1 p) ≠ ⊤) (c : Dev nD) :
    W10 m ρ c (Proc.devRef .tc main_v70) = val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext idx
  obtain ⟨p, q, rfl⟩ : ∃ (p : Fin 100000) (q : Fin 32), idx = ix2 p q := ⟨idx 0, idx 1, eq_ix2 idx⟩
  have e : W10 m ρ c (Proc.devRef .tc main_v70) = (dat5 (U9 m ρ) c).arrAt 4 cfg5.N := W10_arr m ρ c 4
  rw [e, final5 (U9 m ρ) c p q, r3_out, col_dst3]
  show epiAt 32 (W9 m ρ c (Proc.devRef .tc main_v16)) (W9 m ρ c (Proc.devRef .tc main_v68)) (W9 m ρ c (Proc.devRef .tc main_v53)) (W9 m ρ c (Proc.devRef .tc main_v69)) p q = _
  rw [dis_at9 m ρ c, agg3 m ρ c, host5_keep m ρ c main_v53 (by decide), bias3 m ρ c]
  unfold epiAt
  rw [shapeCast_a_a1_apply, shapeCast_a_1a_apply]
  exact Bridge.layerK (N := 100000) (C := 32) (E := 1600000) (by norm_num)
    scatter_S100000x32_S1600000x1_S1600000x32_1_0_0_1 Cert.ReferenceIdeal.scatter_S100000x32_S1600000x1_S1600000x32_1_0_0_1
    rfl rfl rfl rfl rfl rfl rfl rfl
    gather_S100000x32_S1600000x1_S1600000x32_1_0_n_n_0_1_132 Cert.ReferenceIdeal.gather_S100000x32_S1600000x1_S1600000x32_1_0_n_n_0_1_132
    rfl rfl rfl rfl rfl rfl rfl rfl rfl rfl rfl rfl rfl rfl
    Cert.ReferenceIdeal.gather_S100000_S1600000x1_S1600000_n_0_n_n_0_1_1 rfl rfl rfl rfl rfl rfl rfl
    _ _ zeros32 r3_zero
    (val_main_v38 (F := Ideal) (m ((c : Thread nD τ).loc main_arg1))) (val_main_v48 (F := Ideal) (m ((c : Thread nD τ).loc main_arg1)))
    (fun p => disR (m ((c : Thread nD τ).loc main_arg1)) (ix1 p)) (h0 _) (ht _)
    (disR (m ((c : Thread nD τ).loc main_arg1))) (fun _ => rfl)
    (fun p q => feat3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 p q))
    (scaled3 m ρ c) (feat3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)))
    (hp3 m ρ h0 ht c) (fun _ _ => rfl)
    (val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun e c' => by rw [r3_upd, col_src3, col_dst3])
    ((m ((c : Thread nD τ).loc main_arg7)) (ix1 q)) p q

end Cert.KernelIdeal.Fr

end
-- ==== Proof.KI.Out.lean ====
/-
  The kernel program's result is the reference's: the three layers' outputs side by side, each the reference's.
-/
import proofs.«122759_j29180007809406_2_alg».proof.Proof.KI.Lay3
import Idealize.ShloMosaic.Lib.StableHlo.Run
import Idealize.ShloMosaic.Lib.ValueLayout

set_option maxRecDepth 16384

noncomputable section

namespace Cert.KernelIdeal.Fr

open Cert.KernelIdeal Cert.KernelIdeal.Gen
open Idealize.ShloMosaic Idealize.ShloMosaic.TcCoe Idealize.ShloMosaic.Tactic Idealize.ShloMosaic.ValueIdx
open Idealize.SL Idealize.SL.Sem
open Cert.ReferenceIdeal.Read Cert.RefSide

variable (m : (ℓ : Loc nD τ sig) → Buf (Elt Ideal) ℓ) (ρ : Dev nD → PrngReg)

/-- The second layer's output is still in its buffer when the result is assembled. -/
theorem x2_at10 (c : Dev nD) : W10 m ρ c (Proc.devRef .tc main_v52) = W7 m ρ c (Proc.devRef .tc main_v52) :=
  (keep5 m ρ c main_v52 (by decide)).trans <| (host5_keep m ρ c main_v52 (by decide)).trans <| (keep4 m ρ c main_v52 (by decide))

/-- So is the first layer's. -/
theorem x1_at10 (c : Dev nD) : W10 m ρ c (Proc.devRef .tc main_v34) = W4 m ρ c (Proc.devRef .tc main_v34) :=
  (keep5 m ρ c main_v34 (by decide)).trans <| (host5_keep m ρ c main_v34 (by decide)).trans <| (keep4 m ρ c main_v34 (by decide)).trans <| (keep3 m ρ c main_v34 (by decide)).trans <| (host3_keep m ρ c main_v34 (by decide)).trans <| (keep2 m ρ c main_v34 (by decide))

/-- The result buffer after the run is the reference's result stage of the same arguments. -/
theorem out_eq (h0 : ∀ x1 p, 0 ≤ disR x1 (ix1 p)) (ht : ∀ x1 p, disR x1 (ix1 p) ≠ ⊤) (c : Dev nD) :
    W11 m ρ c (Proc.devRef .tc main_v71) = val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [out_cat m ρ c, x3_eq m ρ h0 ht c, x2_at10 m ρ c, x2_eq m ρ h0 ht c, x1_at10 m ρ c, x1_eq m ρ h0 ht c]
  rfl

/-- The run of the kernel program with its result named: every weakly fair execution terminates, nothing faulting, with
    the result buffer at the reference's result stage of the arguments and every argument as launched. -/
theorem run_value (h0 : ∀ x1 p, 0 ≤ disR x1 (ix1 p)) (ht : ∀ x1 p, disR x1 (ix1 p) ≠ ⊤) :
    θ_run defs (onTc (τ := τ) (main (F := Ideal))) ⟨m, fun _ => 0, ρ⟩ (fun r => ∀ c : Dev nD,
      r.2.mem ((c.tc : Thread nD τ).loc main_v71) = val_main_v144 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨
    (h c _ (mem_uc main_v71 (by decide))).trans (out_eq m ρ h0 ht c),
    (h c _ (mem_uc main_arg0 (by decide))).trans (W11_main_arg0 m ρ c),
    (h c _ (mem_uc main_arg1 (by decide))).trans (W11_main_arg1 m ρ c),
    (h c _ (mem_uc main_arg2 (by decide))).trans (W11_main_arg2 m ρ c),
    (h c _ (mem_uc main_arg3 (by decide))).trans (W11_main_arg3 m ρ c),
    (h c _ (mem_uc main_arg4 (by decide))).trans (W11_main_arg4 m ρ c),
    (h c _ (mem_uc main_arg5 (by decide))).trans (W11_main_arg5 m ρ c),
    (h c _ (mem_uc main_arg6 (by decide))).trans (W11_main_arg6 m ρ c),
    (h c _ (mem_uc main_arg7 (by decide))).trans (W11_main_arg7 m ρ c)⟩) (run_all m ρ)

end Cert.KernelIdeal.Fr

end
-- ==== Proof.LibRealMask.lean ====
/-
  Masks as Booleans, and comparisons and roots of real numbers, on the extended reals.
  A one-bit mask built from comparisons is the bit of a Boolean: "and" of two such bits is the bit of the conjunction, "not" the bit
  of the negation, and a select on such a bit is an if on the Boolean. A comparison of two real numbers read on the extended reals is
  the bit of the real comparison. The square root of a non-negative real is its real square root; the inverse square root of a
  positive real is the inverse of its real square root, so a positive real times its inverse square root is its square root.
  Two natural numbers below 2^32, as 32-bit words, are equal exactly when the numbers are.
-/
import Mathlib
import Idealize.ShloMosaic.Lib.ValueIdx
import Idealize.ShloMosaic.PureOps.Ideal.Laws

noncomputable section

namespace Cert.LibRealMask

open Idealize.ShloMosaic

/-- A select on the bit of a Boolean is an if on the Boolean. -/
theorem sel_bool {α : Type} (a : Bool) (u v : α) : Scalar.select (BitVec.ofBool a) u v = if a = true then u else v := by
  cases a <;> rfl

/-- The "and" of two Booleans' bits is the bit of their conjunction. -/
theorem and_bool (a b : Bool) : IntOp.andi (BitVec.ofBool a) (BitVec.ofBool b) = BitVec.ofBool (a && b) := by
  cases a <;> cases b <;> rfl

/-- The complement of a Boolean's bit is the bit of its negation. -/
theorem not_bool (a : Bool) : ~~~(BitVec.ofBool a) = BitVec.ofBool (!a) := by cases a <;> rfl

/-- "Less than" between two reals, read on the extended reals. -/
theorem cmp_olt_coe (a b : ℝ) : Ideal.cmp .olt (a : EReal) (b : EReal) = BitVec.ofBool (decide (a < b)) := by
  simp only [Ideal.cmp, EReal.coe_lt_coe_iff]

/-- "Greater than" between two reals, read on the extended reals. -/
theorem cmp_ogt_coe (a b : ℝ) : Ideal.cmp .ogt (a : EReal) (b : EReal) = BitVec.ofBool (decide (b < a)) := by
  simp only [Ideal.cmp, EReal.coe_lt_coe_iff]

/-- The square root of a non-negative real. -/
theorem sqrt_coe (r : ℝ) (h : 0 ≤ r) : Ideal.sqrt (r : EReal) = ((Real.sqrt r : ℝ) : EReal) := by
  show (if r < 0 then (⊥ : EReal) else (Real.sqrt r : EReal)) = _
  rw [if_neg (not_lt.mpr h)]

/-- The inverse square root of a positive real. -/
theorem rsqrt_coe (r : ℝ) (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg h.ne']

/-- A positive real times its inverse square root is its square root. -/
theorem mul_rsqrt_coe (r : ℝ) (h : 0 < r) : ((r : ℝ) : EReal) * Ideal.rsqrt (r : EReal) = ((Real.sqrt r : ℝ) : EReal) := by
  rw [rsqrt_coe r h, ← EReal.coe_mul]
  congr 1
  have hpos : 0 < Real.sqrt r := Real.sqrt_pos.mpr h
  rw [mul_inv_eq_iff_eq_mul₀ hpos.ne']
  exact (Real.mul_self_sqrt h.le).symm

/-- Two naturals below 2^32, as 32-bit words, are equal exactly when the numbers are. -/
theorem word_eq_of_lt (i j : ℕ) (hi : i < 2 ^ 32) (hj : j < 2 ^ 32) :
    IntOp.cmpi .eq (BitVec.ofNat 32 i) (BitVec.ofNat 32 j) = BitVec.ofBool (decide (i = j)) := by
  simp only [IntOp.cmpi]
  congr 1
  rw [Bool.eq_iff_iff, beq_iff_eq, decide_eq_true_iff]
  constructor
  · intro h
    have := congrArg BitVec.toNat h
    simp only [BitVec.toNat_ofNat] at this
    omega
  · intro h; rw [h]

end Cert.LibRealMask

end
-- ==== Proof.LibDegreeNorm.lean ====
/-
  The degree normaliser is a non-negative real.

  A node's degree is a segment sum of ones over the edges that land on it: zero plus a finite sum of terms each 0 or 1,
  hence a non-negative real. The normaliser is 0 where the degree is not positive and the inverse square root of the
  degree where it is; the inverse square root of a positive real is the inverse of its real square root. Either way the
  normaliser is a real number and is not negative.
-/
import Mathlib
import proofs.«122759_j29180007809406_2_alg».proof.Proof.LibScatterAddRows
import proofs.«122759_j29180007809406_2_alg».proof.Proof.LibRealMask

open scoped BigOperators

namespace Cert.LibDegreeNorm

open Idealize.ShloMosaic Idealize.ShloMosaic.ValueIdx

/-- A finite sum of terms each 0 or 1 is a non-negative real. -/
theorem sum_zero_one {ι : Type*} (s : Finset ι) (f : ι → EReal) (hf : ∀ i, f i = 0 ∨ f i = 1) :
    ∃ r : ℝ, 0 ≤ r ∧ ∑ i ∈ s, f i = (r : EReal) := by
  classical
  induction s using Finset.induction_on with
  | empty => exact ⟨0, le_refl _, by simp⟩
  | insert a s ha ih =>
    obtain ⟨r, hr, e⟩ := ih
    rw [Finset.sum_insert ha, e]
    rcases hf a with h | h
    · exact ⟨r, hr, by rw [h, zero_add]⟩
    · refine ⟨1 + r, by positivity, ?_⟩
      rw [h, EReal.coe_add, EReal.coe_one]

/-- The normaliser of a degree that is a non-negative real: 0, or the inverse of a real square root. -/
theorem select_rsqrt (r : ℝ) (hr : 0 ≤ r) :
    0 ≤ Scalar.select (Ideal.cmp .ogt (r : EReal) 0) (Ideal.rsqrt (r : EReal)) (0 : EReal)
    ∧ Scalar.select (Ideal.cmp .ogt (r : EReal) 0) (Ideal.rsqrt (r : EReal)) (0 : EReal) ≠ ⊤ := by
  have hc : Ideal.cmp .ogt (r : EReal) 0 = BitVec.ofBool (decide ((0 : ℝ) < r)) := by
    rw [← EReal.coe_zero]; exact LibRealMask.cmp_ogt_coe r 0
  rw [hc, LibRealMask.sel_bool]
  by_cases h : (0 : ℝ) < r
  · rw [if_pos (decide_eq_true h), LibRealMask.rsqrt_coe r h]
    exact ⟨EReal.coe_nonneg.mpr (inv_nonneg.mpr (Real.sqrt_nonneg r)), EReal.coe_ne_top _⟩
  · rw [if_neg (by simpa using h)]
    exact ⟨le_refl _, EReal.zero_ne_top⟩

/-- The normaliser at node `p`, from the degree as a segment sum of ones into zeros. -/
theorem dinv_entry {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (z : (⟨1, ![N]⟩ : Shape).Idx → EReal) (hz : ∀ j, z j = 0)
    (dst : IVec ⟨2, ![E, 1]⟩ w) (ones : (⟨1, ![E]⟩ : Shape).Idx → EReal) (hones : ∀ j, ones j = 1) (p : Fin N) :
    0 ≤ Scalar.select (Ideal.cmp .ogt (Ideal.hostScatterAdd d z dst ones (ix1 p)) 0)
          (Ideal.rsqrt (Ideal.hostScatterAdd d z dst ones (ix1 p))) (0 : EReal)
    ∧ Scalar.select (Ideal.cmp .ogt (Ideal.hostScatterAdd d z dst ones (ix1 p)) 0)
          (Ideal.rsqrt (Ideal.hostScatterAdd d z dst ones (ix1 p))) (0 : EReal) ≠ ⊤ := by
  rw [LibScatterAddRows.scatterAdd_elems_apply d h1 h2 h3 h4, hz, zero_add]
  obtain ⟨r, hr, e⟩ := sum_zero_one Finset.univ
    (fun e : Fin E => if (dst (ix2 e (0 : Fin 1))).toInt = (p.val : Int) then ones (ix1 e) else 0)
    (fun e => by by_cases h : (dst (ix2 e (0 : Fin 1))).toInt = (p.val : Int)
                 · exact Or.inr (by rw [if_pos h, hones])
                 · exact Or.inl (by rw [if_neg h]))
  rw [e]
  exact select_rsqrt r hr

end Cert.LibDegreeNorm
-- ==== Proof.DegGen.lean ====
/-
  The inverse square root of one plus a count is a non-negative real.

  A segment sum of ones into zeros, read at a node, is zero plus a finite sum of terms each 0 or 1: a non-negative real.
  One more makes it positive, and the inverse square root of a positive real is the inverse of its real square root.
  Stated for any sizes and any record with a vector segment sum's dimension numbers.
-/
import proofs.«122759_j29180007809406_2_alg».proof.Proof.LibDegreeNorm

open scoped BigOperators

namespace Cert.DegGen

open Idealize.ShloMosaic Idealize.ShloMosaic.ValueIdx

theorem rsqrt_count_real {N E w : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1) (z : (⟨1, ![N]⟩ : Shape).Idx → EReal) (hz : ∀ j, z j = 0)
    (dst : IVec ⟨2, ![E, 1]⟩ w) (ones : (⟨1, ![E]⟩ : Shape).Idx → EReal) (hones : ∀ j, ones j = 1)
    (one : EReal) (hone : one = 1) (p : Fin N) :
    ∃ r : ℝ, 0 ≤ r ∧ Ideal.rsqrt (Ideal.hostScatterAdd d z dst ones (ix1 p) + one) = (r : EReal) := by
  rw [LibScatterAddRows.scatterAdd_elems_apply d h1 h2 h3 h4, hz, zero_add, hone]
  obtain ⟨r, hr, e⟩ := LibDegreeNorm.sum_zero_one Finset.univ
    (fun e : Fin E => if (dst (ix2 e (0 : Fin 1))).toInt = (p.val : Int) then ones (ix1 e) else 0)
    (fun e => by
      by_cases h : (dst (ix2 e (0 : Fin 1))).toInt = (p.val : Int)
      · exact Or.inr (by rw [if_pos h, hones])
      · exact Or.inl (by rw [if_neg h]))
  rw [e, ← EReal.coe_one, ← EReal.coe_add, LibRealMask.rsqrt_coe (r + 1) (by linarith)]
  exact ⟨_, inv_nonneg.mpr (Real.sqrt_nonneg _), rfl⟩

end Cert.DegGen
-- ==== Proof.Dis.lean ====
/-
  The degree normaliser is a non-negative real, whatever the inputs are.

  A node's degree is one plus a segment sum of ones over the edges that land on it, so its inverse square root is the
  inverse of a real square root: a real number, not negative.
-/
import proofs.«122759_j29180007809406_2_alg».proof.Proof.Gen.ReferenceIdeal.Read
import proofs.«122759_j29180007809406_2_alg».proof.Proof.DegGen
import Idealize.ShloMosaic.Lib.IdealHost

namespace Cert.Dis

open Idealize.ShloMosaic Idealize.ShloMosaic.ValueIdx Cert.ReferenceIdeal Cert.ReferenceIdeal.Read

/-- The accumulator of the degree count is zero everywhere. -/
theorem zeros_vec (j : S100000.Idx) : val_main_v4 (F := Ideal) j = 0 := by
  rw [val_main_v4_apply, val_main_cst_apply, Ideal.ofBits_def, Ideal.ofBits_zero_f32]

/-- Every edge contributes one. -/
theorem ones_vec (j : S1600000.Idx) : val_main_v11 (F := Ideal) j = 1 := by
  rw [val_main_v11_apply, val_main_cst_1_apply, Ideal.ofBits_def, Ideal.ofBits_one_f32]

/-- The node's own contribution is one. -/
theorem one_entry (j : S100000.Idx) : val_main_v13 (F := Ideal) j = 1 := by
  rw [val_main_v13_apply, val_main_cst_2_apply, Ideal.ofBits_def, Ideal.ofBits_one_f32]

/-- The degree count, as an array: the segment sum of the ones into the zeros along the target column. -/
theorem count_eq (x1 : (⟨S2x1600000, .i32⟩ : BufTy).Contents (Elt Ideal)) :
    (val_main_v12 (F := Ideal) x1 : S100000.Idx → EReal)
      = Ideal.hostScatterAdd scatter_S100000_S1600000x1_S1600000_n_0_0_1 (val_main_v4 (F := Ideal)) (val_main_v10 (F := Ideal) x1) (val_main_v11 (F := Ideal)) := rfl

/-- The normaliser at node p is a non-negative real. -/
theorem dis_real (x1 : (⟨S2x1600000, .i32⟩ : BufTy).Contents (Elt Ideal)) (p : Fin 100000) :
    ∃ r : ℝ, 0 ≤ r ∧ (val_main_v15 (F := Ideal) x1 : S100000.Idx → EReal) (ix1 p) = (r : EReal) := by
  rw [val_main_v15_apply, val_main_v14_apply, Ideal.hostUnary_rsqrt_def, Ideal.addf_def, count_eq]
  exact DegGen.rsqrt_count_real scatter_S100000_S1600000x1_S1600000_n_0_0_1 rfl rfl rfl rfl
    (val_main_v4 (F := Ideal)) zeros_vec (val_main_v10 (F := Ideal) x1) (val_main_v11 (F := Ideal)) ones_vec
    (val_main_v13 (F := Ideal) (ix1 p)) (one_entry (ix1 p)) p

/-- The normaliser is not negative. -/
theorem dis_nonneg (x1 : (⟨S2x1600000, .i32⟩ : BufTy).Contents (Elt Ideal)) (p : Fin 100000) :
    0 ≤ (val_main_v15 (F := Ideal) x1 : S100000.Idx → EReal) (ix1 p) := by
  obtain ⟨r, hr, e⟩ := dis_real x1 p
  rw [e]; exact EReal.coe_nonneg.mpr hr

/-- The normaliser is finite above. -/
theorem dis_ne_top (x1 : (⟨S2x1600000, .i32⟩ : BufTy).Contents (Elt Ideal)) (p : Fin 100000) :
    (val_main_v15 (F := Ideal) x1 : S100000.Idx → EReal) (ix1 p) ≠ ⊤ := by
  obtain ⟨r, hr, e⟩ := dis_real x1 p
  rw [e]; exact EReal.coe_ne_top r

end Cert.Dis
-- ==== Proof.lean ====
/-
  The certificate of a three-layer graph convolution whose dense parts run as six pipelined kernels.

  Each program's frame: the kernel program is eleven segments, five stretches of host operations and six kernel regions,
  whose run leaves every buffer at a fold of the launch memory in which no segment writes an argument; the reference is a
  straight line of host operations. The idealization rewrote no operation, so there is nothing to preserve. The value
  claim: at every entry both programs compute, layer by layer,
  normaliser · (sum over incoming edges of the source's normalised projected row + the node's own normalised projected row) + bias,
  one of them with the normaliser distributed over the sum; the normaliser is a non-negative real whatever the inputs
  are, so the two agree on the extended reals with nothing asked of the float inputs.
-/
import proofs.«122759_j29180007809406_2_alg».proof.Defs
import proofs.«122759_j29180007809406_2_alg».proof.Proof.Gen.Kernel
import proofs.«122759_j29180007809406_2_alg».proof.Proof.Gen.KernelIdeal
import proofs.«122759_j29180007809406_2_alg».proof.Proof.Gen.ReferenceIdeal
import proofs.«122759_j29180007809406_2_alg».proof.Proof.Gen.Pre_finite_inputs
import proofs.«122759_j29180007809406_2_alg».proof.Proof.Gen.ReferenceIdeal.Run
import proofs.«122759_j29180007809406_2_alg».proof.Proof.K.Run
import proofs.«122759_j29180007809406_2_alg».proof.Proof.KI.Run
import proofs.«122759_j29180007809406_2_alg».proof.Proof.KI.Out
import proofs.«122759_j29180007809406_2_alg».proof.Proof.Dis
import proofs.«122759_j29180007809406_2_alg».proof.Proof.Gen.ReferenceIdeal.Read
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Fr.frame m ρ

theorem frame_ki : Cert.frame_KernelIdeal (hKernelIdeal := Cert.KernelIdeal.Gen.facts) (hPre_finite_inputs := Cert.Pre_finite_inputs.Gen.facts) :=
  fun m ρ _ => Cert.KernelIdeal.Fr.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) :=
  by
  intro m ρ m' ρ' _ hagree
  refine ⟨fun c => Cert.ReferenceIdeal.Read.val_main_v144 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact Cert.KernelIdeal.Fr.run_value m ρ Cert.Dis.dis_nonneg Cert.Dis.dis_ne_top
  · refine (θ_run Cert.ReferenceIdeal.defs _ _).mono (fun r h c => ⟨?_, (h c).2⟩)
      (Cert.ReferenceIdeal.Value.run (F := Ideal) m' ρ')
    obtain ⟨e0, e1, e2, e3, e4, e5, e6, e7⟩ := hagree c
    rw [(h c).1, Cert.ReferenceIdeal.Read.val_main_v144_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
